-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v105)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v105) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v148) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x512 : Shape := ⟨2, ![100000, 512]⟩
abbrev S2x1600000 : Shape := ⟨2, ![2, 1600000]⟩
abbrev S1600000 : Shape := ⟨1, ![1600000]⟩
abbrev S512x128 : Shape := ⟨2, ![512, 128]⟩
abbrev S128 : Shape := ⟨1, ![128]⟩
abbrev S2x128x128 : Shape := ⟨3, ![2, 128, 128]⟩
abbrev S2x128 : Shape := ⟨2, ![2, 128]⟩
abbrev S128x40 : Shape := ⟨2, ![128, 40]⟩
abbrev S40 : Shape := ⟨1, ![40]⟩
abbrev S_ : Shape := ⟨0, ![]⟩

class Facts : Prop where
  bcast_S_S100000x512 : S_.BroadcastsInDim S100000x512 (![] : Fin 0 → Fin S100000x512.rank)
  reducesTo_S100000x512_S_d0_1 : S100000x512.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S512x128 : S_.BroadcastsInDim S512x128 (![] : Fin 0 → Fin S512x128.rank)
  reducesTo_S512x128_S_d0_1 : S512x128.ReducesTo [0, 1] S_
  bcast_S_S128 : S_.BroadcastsInDim S128 (![] : Fin 0 → Fin S128.rank)
  reducesTo_S128_S_d0 : S128.ReducesTo [0] S_
  bcast_S_S2x128x128 : S_.BroadcastsInDim S2x128x128 (![] : Fin 0 → Fin S2x128x128.rank)
  reducesTo_S2x128x128_S_d0_1_2 : S2x128x128.ReducesTo [0, 1, 2] S_
  bcast_S_S2x128 : S_.BroadcastsInDim S2x128 (![] : Fin 0 → Fin S2x128.rank)
  reducesTo_S2x128_S_d0_1 : S2x128.ReducesTo [0, 1] S_
  bcast_S_S128x40 : S_.BroadcastsInDim S128x40 (![] : Fin 0 → Fin S128x40.rank)
  reducesTo_S128x40_S_d0_1 : S128x40.ReducesTo [0, 1] S_
  bcast_S_S40 : S_.BroadcastsInDim S40 (![] : Fin 0 → Fin S40.rank)
  reducesTo_S40_S_d0 : S40.ReducesTo [0] S_

variable [Facts]

def fn_part4 {F : FTy → Type} [FloatOps F] (main_arg15 : FVec F S128x40 .f32) (main_arg16 : FVec F S40 .f32) (main_v63 : IVec S_ 1) (main_v67 : IVec S_ 1) : IVec S_ 1 :=
  let main_v68 : IVec S_ 1 := andi main_v63 main_v67
  let main_v69 : FVec F S128x40 .f32 := Host.absf main_arg15
  let main_cst_26 : FVec F S_ .f32 := constant S_ .f32 0x7F800000#32
  let main_v70 : FVec F S128x40 .f32 := broadcastInDim S128x40 ![] bcast_S_S128x40 main_cst_26
  let main_v71 : IVec S128x40 1 := cmpf .olt main_v69 main_v70
  let main_c_27 : IVec S_ 1 := constantI S_ 1 1#1
  let main_v72 : IVec S_ 1 := (fun x v => Host.reduce IntOp.andi x v reducesTo_S128x40_S_d0_1 h_S_) main_v71 main_c_27
  let main_v73 : IVec S_ 1 := andi main_v68 main_v72
  let main_v74 : FVec F S40 .f32 := Host.absf main_arg16
  let main_cst_28 : FVec F S_ .f32 := constant S_ .f32 0x7F800000#32
  let main_v75 : FVec F S40 .f32 := broadcastInDim S40 ![] bcast_S_S40 main_cst_28
  let main_v76 : IVec S40 1 := cmpf .olt main_v74 main_v75
  let main_c_29 : IVec S_ 1 := constantI S_ 1 1#1
  let main_v77 : IVec S_ 1 := (fun x v => Host.reduce IntOp.andi x v reducesTo_S40_S_d0 h_S_) main_v76 main_c_29
  let main_v78 : IVec S_ 1 := andi main_v73 main_v77
  main_v78

def fn_part3 {F : FTy → Type} [FloatOps F] (main_arg12 : FVec F S2x128 .f32) (main_arg13 : FVec F S2x128 .f32) (main_arg14 : FVec F S2x128 .f32) (main_arg15 : FVec F S128x40 .f32) (main_arg16 : FVec F S40 .f32) (main_v48 : IVec S_ 1) (main_v49 : FVec F S2x128 .f32) (main_v50 : FVec F S2x128 .f32) : IVec S_ 1 :=
  let main_v51 : IVec S2x128 1 := cmpf .olt main_v49 main_v50
  let main_c_19 : IVec S_ 1 := constantI S_ 1 1#1
  let main_v52 : IVec S_ 1 := (fun x v => Host.reduce IntOp.andi x v reducesTo_S2x128_S_d0_1 h_S_) main_v51 main_c_19
  let main_v53 : IVec S_ 1 := andi main_v48 main_v52
  let main_v54 : FVec F S2x128 .f32 := Host.absf main_arg12
  let main_cst_20 : FVec F S_ .f32 := constant S_ .f32 0x7F800000#32
  let main_v55 : FVec F S2x128 .f32 := broadcastInDim S2x128 ![] bcast_S_S2x128 main_cst_20
  let main_v56 : IVec S2x128 1 := cmpf .olt main_v54 main_v55
  let main_c_21 : IVec S_ 1 := constantI S_ 1 1#1
  let main_v57 : IVec S_ 1 := (fun x v => Host.reduce IntOp.andi x v reducesTo_S2x128_S_d0_1 h_S_) main_v56 main_c_21
  let main_v58 : IVec S_ 1 := andi main_v53 main_v57
  let main_v59 : FVec F S2x128 .f32 := Host.absf main_arg13
  let main_cst_22 : FVec F S_ .f32 := constant S_ .f32 0x7F800000#32
  let main_v60 : FVec F S2x128 .f32 := broadcastInDim S2x128 ![] bcast_S_S2x128 main_cst_22
  let main_v61 : IVec S2x128 1 := cmpf .olt main_v59 main_v60
  let main_c_23 : IVec S_ 1 := constantI S_ 1 1#1
  let main_v62 : IVec S_ 1 := (fun x v => Host.reduce IntOp.andi x v reducesTo_S2x128_S_d0_1 h_S_) main_v61 main_c_23
  let main_v63 : IVec S_ 1 := andi main_v58 main_v62
  let main_v64 : FVec F S2x128 .f32 := Host.absf main_arg14
  let main_cst_24 : FVec F S_ .f32 := constant S_ .f32 0x7F800000#32
  let main_v65 : FVec F S2x128 .f32 := broadcastInDim S2x128 ![] bcast_S_S2x128 main_cst_24
  let main_v66 : IVec S2x128 1 := cmpf .olt main_v64 main_v65
  let main_c_25 : IVec S_ 1 := constantI S_ 1 1#1
  let main_v67 : IVec S_ 1 := (fun x v => Host.reduce IntOp.andi x v reducesTo_S2x128_S_d0_1 h_S_) main_v66 main_c_25
  fn_part4 (F := F) main_arg15 main_arg16 main_v63 main_v67

def fn_part2 {F : FTy → Type} [FloatOps F] (main_arg8 : FVec F S128 .f32) (main_arg9 : FVec F S2x128x128 .f32) (main_arg10 : FVec F S2x128 .f32) (main_arg11 : FVec F S2x128 .f32) (main_arg12 : FVec F S2x128 .f32) (main_arg13 : FVec F S2x128 .f32) (main_arg14 : FVec F S2x128 .f32) (main_arg15 : FVec F S128x40 .f32) (main_arg16 : FVec F S40 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S2x128x128 .f32 := Host.absf main_arg9
  let main_cst_14 : FVec F S_ .f32 := constant S_ .f32 0x7F800000#32
  let main_v40 : FVec F S2x128x128 .f32 := broadcastInDim S2x128x128 ![] bcast_S_S2x128x128 main_cst_14
  let main_v41 : IVec S2x128x128 1 := cmpf .olt main_v39 main_v40
  let main_c_15 : IVec S_ 1 := constantI S_ 1 1#1
  let main_v42 : IVec S_ 1 := (fun x v => Host.reduce IntOp.andi x v reducesTo_S2x128x128_S_d0_1_2 h_S_) main_v41 main_c_15
  let main_v43 : IVec S_ 1 := andi main_v38 main_v42
  let main_v44 : FVec F S2x128 .f32 := Host.absf main_arg10
  let main_cst_16 : FVec F S_ .f32 := constant S_ .f32 0x7F800000#32
  let main_v45 : FVec F S2x128 .f32 := broadcastInDim S2x128 ![] bcast_S_S2x128 main_cst_16
  let main_v46 : IVec S2x128 1 := cmpf .olt main_v44 main_v45
  let main_c_17 : IVec S_ 1 := constantI S_ 1 1#1
  let main_v47 : IVec S_ 1 := (fun x v => Host.reduce IntOp.andi x v reducesTo_S2x128_S_d0_1 h_S_) main_v46 main_c_17
  let main_v48 : IVec S_ 1 := andi main_v43 main_v47
  let main_v49 : FVec F S2x128 .f32 := Host.absf main_arg11
  let main_cst_18 : FVec F S_ .f32 := constant S_ .f32 0x7F800000#32
  let main_v50 : FVec F S2x128 .f32 := broadcastInDim S2x128 ![] bcast_S_S2x128 main_cst_18
  fn_part3 (F := F) main_arg12 main_arg13 main_arg14 main_arg15 main_arg16 main_v48 main_v49 main_v50

def fn_part1 {F : FTy → Type} [FloatOps F] (main_arg5 : FVec F S128 .f32) (main_arg6 : FVec F S128 .f32) (main_arg7 : FVec F S128 .f32) (main_arg8 : FVec F S128 .f32) (main_arg9 : FVec F S2x128x128 .f32) (main_arg10 : FVec F S2x128 .f32) (main_arg11 : FVec F S2x128 .f32) (main_arg12 : FVec F S2x128 .f32) (main_arg13 : FVec F S2x128 .f32) (main_arg14 : FVec F S2x128 .f32) (main_arg15 : FVec F S128x40 .f32) (main_arg16 : FVec F S40 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_arg9 main_arg10 main_arg11 main_arg12 main_arg13 main_arg14 main_arg15 main_arg16 main_v33

def fn {F : FTy → Type} [FloatOps F] (main_arg0 : FVec F S100000x512 .f32) (main_arg1 : IVec S2x1600000 32) (main_arg2 : FVec F S1600000 .f32) (main_arg3 : FVec F S512x128 .f32) (main_arg4 : FVec F S128 .f32) (main_arg5 : FVec F S128 .f32) (main_arg6 : FVec F S128 .f32) (main_arg7 : FVec F S128 .f32) (main_arg8 : FVec F S128 .f32) (main_arg9 : FVec F S2x128x128 .f32) (main_arg10 : FVec F S2x128 .f32) (main_arg11 : FVec F S2x128 .f32) (main_arg12 : FVec F S2x128 .f32) (main_arg13 : FVec F S2x128 .f32) (main_arg14 : FVec F S2x128 .f32) (main_arg15 : FVec F S128x40 .f32) (main_arg16 : FVec F S40 .f32) : IVec S_ 1 :=
  let main_v0 : FVec F S100000x512 .f32 := Host.absf main_arg0
  let main_cst : FVec F S_ .f32 := constant S_ .f32 0x7F800000#32
  let main_v1 : FVec F S100000x512 .f32 := broadcastInDim S100000x512 ![] bcast_S_S100000x512 main_cst
  let main_v2 : IVec S100000x512 1 := cmpf .olt main_v0 main_v1
  let main_c : IVec S_ 1 := constantI S_ 1 1#1
  let main_v3 : IVec S_ 1 := (fun x v => Host.reduce IntOp.andi x v reducesTo_S100000x512_S_d0_1 h_S_) main_v2 main_c
  let main_v4 : FVec F S1600000 .f32 := Host.absf main_arg2
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S512x128 .f32 := Host.absf main_arg3
  let main_cst_2 : FVec F S_ .f32 := constant S_ .f32 0x7F800000#32
  let main_v10 : FVec F S512x128 .f32 := broadcastInDim S512x128 ![] bcast_S_S512x128 main_cst_2
  let main_v11 : IVec S512x128 1 := cmpf .olt main_v9 main_v10
  let main_c_3 : IVec S_ 1 := constantI S_ 1 1#1
  let main_v12 : IVec S_ 1 := (fun x v => Host.reduce IntOp.andi x v reducesTo_S512x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_arg9 main_arg10 main_arg11 main_arg12 main_arg13 main_arg14 main_arg15 main_arg16 main_v13 main_v16
-- ==== Kernel.lean ====
abbrev S100000x512 : Shape := ⟨2, ![100000, 512]⟩
abbrev S2x1600000 : Shape := ⟨2, ![2, 1600000]⟩
abbrev S1600000 : Shape := ⟨1, ![1600000]⟩
abbrev S512x128 : Shape := ⟨2, ![512, 128]⟩
abbrev S128 : Shape := ⟨1, ![128]⟩
abbrev S2x128x128 : Shape := ⟨3, ![2, 128, 128]⟩
abbrev S2x128 : Shape := ⟨2, ![2, 128]⟩
abbrev S128x40 : Shape := ⟨2, ![128, 40]⟩
abbrev S40 : Shape := ⟨1, ![40]⟩
abbrev S100000 : Shape := ⟨1, ![100000]⟩
abbrev S1x1600000 : Shape := ⟨2, ![1, 1600000]⟩
abbrev S1700000 : Shape := ⟨1, ![1700000]⟩
abbrev S_ : Shape := ⟨0, ![]⟩
abbrev S1700000x1 : Shape := ⟨2, ![1700000, 1]⟩
abbrev S1x128 : Shape := ⟨2, ![1, 128]⟩
abbrev S100000x128 : Shape := ⟨2, ![100000, 128]⟩
abbrev S2000x512 : Shape := ⟨2, ![2000, 512]⟩
abbrev S2000x128 : Shape := ⟨2, ![2000, 128]⟩
abbrev S1x128x128 : Shape := ⟨3, ![1, 128, 128]⟩
abbrev S128x128 : Shape := ⟨2, ![128, 128]⟩
abbrev S1700000x128 : Shape := ⟨2, ![1700000, 128]⟩
abbrev S1x40 : Shape := ⟨2, ![1, 40]⟩
abbrev S100000x40 : Shape := ⟨2, ![100000, 40]⟩
abbrev S2000x40 : Shape := ⟨2, ![2000, 40]⟩
abbrev S2000 : Shape := ⟨1, ![2000]⟩
abbrev S2000x1 : Shape := ⟨2, ![2000, 1]⟩

abbrev nBuf : Space → Nat
  | .hbm => 140
  | .vmem => 44
  | .smem => 0
  | _ => 0

abbrev hbmTy0_0 (i : Nat) : BufTy := match i % 128 with
  | 0 => ⟨S100000x512, .f32⟩
  | 1 => ⟨S2x1600000, .i32⟩
  | 2 => ⟨S1600000, .f32⟩
  | 3 => ⟨S512x128, .f32⟩
  | 4 => ⟨S128, .f32⟩
  | 5 => ⟨S128, .f32⟩
  | 6 => ⟨S128, .f32⟩
  | 7 => ⟨S128, .f32⟩
  | 8 => ⟨S128, .f32⟩
  | 9 => ⟨S2x128x128, .f32⟩
  | 10 => ⟨S2x128, .f32⟩
  | 11 => ⟨S2x128, .f32⟩
  | 12 => ⟨S2x128, .f32⟩
  | 13 => ⟨S2x128, .f32⟩
  | 14 => ⟨S2x128, .f32⟩
  | 15 => ⟨S128x40, .f32⟩
  | 16 => ⟨S40, .f32⟩
  | 17 => ⟨S100000, .i32⟩
  | 18 => ⟨S1x1600000, .i32⟩
  | 19 => ⟨S1600000, .i32⟩
  | 20 => ⟨S1700000, .i32⟩
  | 21 => ⟨S1x1600000, .i32⟩
  | 22 => ⟨S1600000, .i32⟩
  | 23 => ⟨S1700000, .i32⟩
  | 24 => ⟨S_, .f32⟩
  | 25 => ⟨S100000, .f32⟩
  | 26 => ⟨S1700000, .f32⟩
  | 27 => ⟨S_, .f32⟩
  | 28 => ⟨S100000, .f32⟩
  | 29 => ⟨S1700000x1, .i32⟩
  | 30 => ⟨S100000, .f32⟩
  | 31 => ⟨S_, .f32⟩
  | 32 => ⟨S100000, .f32⟩
  | 33 => ⟨S100000, .i1⟩
  | 34 => ⟨S_, .f32⟩
  | 35 => ⟨S100000, .f32⟩
  | 36 => ⟨S100000, .f32⟩
  | 37 => ⟨S100000, .f32⟩
  | 38 => ⟨S_, .f32⟩
  | 39 => ⟨S_, .f32⟩
  | 40 => ⟨S100000, .f32⟩
  | 41 => ⟨S100000, .f32⟩
  | 42 => ⟨S_, .i32⟩
  | 43 => ⟨S1700000, .i32⟩
  | 44 => ⟨S1700000, .i1⟩
  | 45 => ⟨S_, .i32⟩
  | 46 => ⟨S1700000, .i32⟩
  | 47 => ⟨S1700000, .i32⟩
  | 48 => ⟨S1700000, .i32⟩
  | 49 => ⟨S1700000x1, .i32⟩
  | 50 => ⟨S1700000, .f32⟩
  | 51 => ⟨S1700000, .f32⟩
  | 52 => ⟨S_, .i32⟩
  | 53 => ⟨S1700000, .i32⟩
  | 54 => ⟨S1700000, .i1⟩
  | 55 => ⟨S_, .i32⟩
  | 56 => ⟨S1700000, .i32⟩
  | 57 => ⟨S1700000, .i32⟩
  | 58 => ⟨S1700000, .i32⟩
  | 59 => ⟨S1700000x1, .i32⟩
  | 60 => ⟨S1700000, .f32⟩
  | 61 => ⟨S1700000, .f32⟩
  | 62 => ⟨S1x128, .f32⟩
  | 63 => ⟨S1x128, .f32⟩
  | 64 => ⟨S1x128, .f32⟩
  | 65 => ⟨S1x128, .f32⟩
  | 66 => ⟨S1x128, .f32⟩
  | 67 => ⟨S100000x128, .f32⟩
  | 68 => ⟨S1x128x128, .f32⟩
  | 69 => ⟨S128x128, .f32⟩
  | 70 => ⟨S100000x128, .f32⟩
  | 71 => ⟨S_, .i32⟩
  | 72 => ⟨S1700000, .i32⟩
  | 73 => ⟨S1700000, .i1⟩
  | 74 => ⟨S_, .i32⟩
  | 75 => ⟨S1700000, .i32⟩
  | 76 => ⟨S1700000, .i32⟩
  | 77 => ⟨S1700000, .i32⟩
  | 78 => ⟨S1700000x1, .i32⟩
  | 79 => ⟨S1700000x128, .f32⟩
  | 80 => ⟨S1700000x1, .f32⟩
  | 81 => ⟨S1700000x128, .f32⟩
  | 82 => ⟨S1700000x128, .f32⟩
  | 83 => ⟨S_, .f32⟩
  | 84 => ⟨S100000x128, .f32⟩
  | 85 => ⟨S1700000x1, .i32⟩
  | 86 => ⟨S100000x128, .f32⟩
  | 87 => ⟨S1x128, .f32⟩
  | 88 => ⟨S128, .f32⟩
  | 89 => ⟨S1x128, .f32⟩
  | 90 => ⟨S128, .f32⟩
  | 91 => ⟨S1x128, .f32⟩
  | 92 => ⟨S128, .f32⟩
  | 93 => ⟨S1x128, .f32⟩
  | 94 => ⟨S128, .f32⟩
  | 95 => ⟨S1x128, .f32⟩
  | 96 => ⟨S128, .f32⟩
  | 97 => ⟨S1x128, .f32⟩
  | 98 => ⟨S1x128, .f32⟩
  | 99 => ⟨S1x128, .f32⟩
  | 100 => ⟨S1x128, .f32⟩
  | 101 => ⟨S1x128, .f32⟩
  | 102 => ⟨S100000x128, .f32⟩
  | 103 => ⟨S1x128x128, .f32⟩
  | 104 => ⟨S128x128, .f32⟩
  | 105 => ⟨S100000x128, .f32⟩
  | 106 => ⟨S_, .i32⟩
  | 107 => ⟨S1700000, .i32⟩
  | 108 => ⟨S1700000, .i1⟩
  | 109 => ⟨S_, .i32⟩
  | 110 => ⟨S1700000, .i32⟩
  | 111 => ⟨S1700000, .i32⟩
  | 112 => ⟨S1700000, .i32⟩
  | 113 => ⟨S1700000x1, .i32⟩
  | 114 => ⟨S1700000x128, .f32⟩
  | 115 => ⟨S1700000x1, .f32⟩
  | 116 => ⟨S1700000x128, .f32⟩
  | 117 => ⟨S1700000x128, .f32⟩
  | 118 => ⟨S_, .f32⟩
  | 119 => ⟨S100000x128, .f32⟩
  | 120 => ⟨S1700000x1, .i32⟩
  | 121 => ⟨S100000x128, .f32⟩
  | 122 => ⟨S1x128, .f32⟩
  | 123 => ⟨S128, .f32⟩
  | 124 => ⟨S1x128, .f32⟩
  | 125 => ⟨S128, .f32⟩
  | 126 => ⟨S1x128, .f32⟩
  | 127 => ⟨S128, .f32⟩
  | _ => ⟨S100000x512, .f32⟩

abbrev hbmTy0_1 (i : Nat) : BufTy := match i % 128 with
  | 0 => ⟨S1x128, .f32⟩
  | 1 => ⟨S128, .f32⟩
  | 2 => ⟨S1x128, .f32⟩
  | 3 => ⟨S128, .f32⟩
  | 4 => ⟨S1x128, .f32⟩
  | 5 => ⟨S1x128, .f32⟩
  | 6 => ⟨S1x128, .f32⟩
  | 7 => ⟨S1x128, .f32⟩
  | 8 => ⟨S1x128, .f32⟩
  | 9 => ⟨S100000x128, .f32⟩
  | 10 => ⟨S1x40, .f32⟩
  | 11 => ⟨S100000x40, .f32⟩
  | _ => ⟨S100000x512, .f32⟩

abbrev hbmTy (i : Nat) : BufTy := match i / 128 with
  | 0 => hbmTy0_0 i
  | 1 => hbmTy0_1 i
  | _ => ⟨S100000x512, .f32⟩

abbrev bufTy : (tb : Table) → Fin (tcTables nBuf tb) → BufTy
  | .hbm, ⟨i, _⟩ => hbmTy i
  | .local _ .vmem, ⟨0, _⟩ => ⟨S2000x512, .f32⟩
  | .local _ .vmem, ⟨1, _⟩ => ⟨S2000x512, .f32⟩
  | .local _ .vmem, ⟨2, _⟩ => ⟨S512x128, .f32⟩
  | .local _ .vmem, ⟨3, _⟩ => ⟨S1x128, .f32⟩
  | .local _ .vmem, ⟨4, _⟩ => ⟨S1x128, .f32⟩
  | .local _ .vmem, ⟨5, _⟩ => ⟨S1x128, .f32⟩
  | .local _ .vmem, ⟨6, _⟩ => ⟨S1x128, .f32⟩
  | .local _ .vmem, ⟨7, _⟩ => ⟨S1x128, .f32⟩
  | .local _ .vmem, ⟨8, _⟩ => ⟨S2000x128, .f32⟩
  | .local _ .vmem, ⟨9, _⟩ => ⟨S2000x128, .f32⟩
  | .local _ .vmem, ⟨10, _⟩ => ⟨S2000x128, .f32⟩
  | .local _ .vmem, ⟨11, _⟩ => ⟨S2000x128, .f32⟩
  | .local _ .vmem, ⟨12, _⟩ => ⟨S128x128, .f32⟩
  | .local _ .vmem, ⟨13, _⟩ => ⟨S2000x128, .f32⟩
  | .local _ .vmem, ⟨14, _⟩ => ⟨S2000x128, .f32⟩
  | .local _ .vmem, ⟨15, _⟩ => ⟨S2000x128, .f32⟩
  | .local _ .vmem, ⟨16, _⟩ => ⟨S2000x128, .f32⟩
  | .local _ .vmem, ⟨17, _⟩ => ⟨S1x128, .f32⟩
  | .local _ .vmem, ⟨18, _⟩ => ⟨S1x128, .f32⟩
  | .local _ .vmem, ⟨19, _⟩ => ⟨S1x128, .f32⟩
  | .local _ .vmem, ⟨20, _⟩ => ⟨S1x128, .f32⟩
  | .local _ .vmem, ⟨21, _⟩ => ⟨S1x128, .f32⟩
  | .local _ .vmem, ⟨22, _⟩ => ⟨S2000x128, .f32⟩
  | .local _ .vmem, ⟨23, _⟩ => ⟨S2000x128, .f32⟩
  | .local _ .vmem, ⟨24, _⟩ => ⟨S2000x128, .f32⟩
  | .local _ .vmem, ⟨25, _⟩ => ⟨S2000x128, .f32⟩
  | .local _ .vmem, ⟨26, _⟩ => ⟨S128x128, .f32⟩
  | .local _ .vmem, ⟨27, _⟩ => ⟨S2000x128, .f32⟩
  | .local _ .vmem, ⟨28, _⟩ => ⟨S2000x128, .f32⟩
  | .local _ .vmem, ⟨29, _⟩ => ⟨S2000x128, .f32⟩
  | .local _ .vmem, ⟨30, _⟩ => ⟨S2000x128, .f32⟩
  | .local _ .vmem, ⟨31, _⟩ => ⟨S1x128, .f32⟩
  | .local _ .vmem, ⟨32, _⟩ => ⟨S1x128, .f32⟩
  | .local _ .vmem, ⟨33, _⟩ => ⟨S1x128, .f32⟩
  | .local _ .vmem, ⟨34, _⟩ => ⟨S1x128, .f32⟩
  | .local _ .vmem, ⟨35, _⟩ => ⟨S1x128, .f32⟩
  | .local _ .vmem, ⟨36, _⟩ => ⟨S2000x128, .f32⟩
  | .local _ .vmem, ⟨37, _⟩ => ⟨S2000x128, .f32⟩
  | .local _ .vmem, ⟨38, _⟩ => ⟨S2000x128, .f32⟩
  | .local _ .vmem, ⟨39, _⟩ => ⟨S2000x128, .f32⟩
  | .local _ .vmem, ⟨40, _⟩ => ⟨S128x40, .f32⟩
  | .local _ .vmem, ⟨41, _⟩ => ⟨S1x40, .f32⟩
  | .local _ .vmem, ⟨42, _⟩ => ⟨S2000x40, .f32⟩
  | .local _ .vmem, ⟨43, _⟩ => ⟨S2000x40, .f32⟩
  | _, _ => ⟨S100000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | _, _ => false

abbrev semScoped : Fin 0 → Bool
  | ⟨_, h⟩ => absurd h (Nat.not_lt_zero _)

abbrev dmaSemScoped : Fin 44 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | _ => false

abbrev sig : RefSig :=
  ofTc nBuf bufTy 0 44 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_cst : Ref sig .tc := ⟨.hbm, 24, rfl⟩
abbrev main_v7 : Ref sig .tc := ⟨.hbm, 25, rfl⟩
abbrev main_v8 : Ref sig .tc := ⟨.hbm, 26, rfl⟩
abbrev main_cst_0 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_cst_1 : Ref sig .tc := ⟨.hbm, 31, rfl⟩
abbrev main_v12 : Ref sig .tc := ⟨.hbm, 32, rfl⟩
abbrev main_v13 : Ref sig .tc := ⟨.hbm, 33, rfl⟩
abbrev main_cst_2 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_cst_3 : Ref sig .tc := ⟨.hbm, 38, rfl⟩
abbrev main_call0_v0 : Ref sig .tc := ⟨.hbm, 39, rfl⟩
abbrev main_call0_v1 : Ref sig .tc := ⟨.hbm, 40, rfl⟩
abbrev main_v17 : Ref sig .tc := ⟨.hbm, 41, rfl⟩
abbrev main_c : Ref sig .tc := ⟨.hbm, 42, rfl⟩
abbrev main_v18 : Ref sig .tc := ⟨.hbm, 43, rfl⟩
abbrev main_v19 : Ref sig .tc := ⟨.hbm, 44, rfl⟩
abbrev main_c_4 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_c_5 : Ref sig .tc := ⟨.hbm, 52, rfl⟩
abbrev main_v26 : Ref sig .tc := ⟨.hbm, 53, rfl⟩
abbrev main_v27 : Ref sig .tc := ⟨.hbm, 54, rfl⟩
abbrev main_c_6 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_c_7 : Ref sig .tc := ⟨.hbm, 71, rfl⟩
abbrev main_v43 : Ref sig .tc := ⟨.hbm, 72, rfl⟩
abbrev main_v44 : Ref sig .tc := ⟨.hbm, 73, rfl⟩
abbrev main_c_8 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_cst_9 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_c_10 : Ref sig .tc := ⟨.hbm, 106, rfl⟩
abbrev main_v75 : Ref sig .tc := ⟨.hbm, 107, rfl⟩
abbrev main_v76 : Ref sig .tc := ⟨.hbm, 108, rfl⟩
abbrev main_c_11 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_cst_12 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_v95 : Ref sig .tc := ⟨.hbm, 129, rfl⟩
abbrev main_v96 : Ref sig .tc := ⟨.hbm, 130, rfl⟩
abbrev main_v97 : Ref sig .tc := ⟨.hbm, 131, rfl⟩
abbrev main_v98 : Ref sig .tc := ⟨.hbm, 132, rfl⟩
abbrev main_v99 : Ref sig .tc := ⟨.hbm, 133, rfl⟩
abbrev main_v100 : Ref sig .tc := ⟨.hbm, 134, rfl⟩
abbrev main_v101 : Ref sig .tc := ⟨.hbm, 135, rfl⟩
abbrev main_v102 : Ref sig .tc := ⟨.hbm, 136, rfl⟩
abbrev main_v103 : Ref sig .tc := ⟨.hbm, 137, rfl⟩
abbrev main_v104 : Ref sig .tc := ⟨.hbm, 138, rfl⟩
abbrev main_v105 : Ref sig .tc := ⟨.hbm, 139, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg2_0 : Ref sig .tc := ⟨.vmem, 13, rfl⟩
abbrev cc1_stg2_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg2_0 : Ref sig .tc := ⟨.vmem, 18, rfl⟩
abbrev cc2_stg3_0 : Ref sig .tc := ⟨.vmem, 19, rfl⟩
abbrev cc2_stg4_0 : Ref sig .tc := ⟨.vmem, 20, rfl⟩
abbrev cc2_stg5_0 : Ref sig .tc := ⟨.vmem, 21, rfl⟩
abbrev cc2_stg6_0 : Ref sig .tc := ⟨.vmem, 22, rfl⟩
abbrev cc2_stg6_1 : Ref sig .tc := ⟨.vmem, 23, rfl⟩
abbrev cc3_stg0_0 : Ref sig .tc := ⟨.vmem, 24, rfl⟩
abbrev cc3_stg0_1 : Ref sig .tc := ⟨.vmem, 25, rfl⟩
abbrev cc3_stg1_0 : Ref sig .tc := ⟨.vmem, 26, rfl⟩
abbrev cc3_stg2_0 : Ref sig .tc := ⟨.vmem, 27, rfl⟩
abbrev cc3_stg2_1 : Ref sig .tc := ⟨.vmem, 28, rfl⟩
abbrev cc4_stg0_0 : Ref sig .tc := ⟨.vmem, 29, rfl⟩
abbrev cc4_stg0_1 : Ref sig .tc := ⟨.vmem, 30, rfl⟩
abbrev cc4_stg1_0 : Ref sig .tc := ⟨.vmem, 31, rfl⟩
abbrev cc4_stg2_0 : Ref sig .tc := ⟨.vmem, 32, rfl⟩
abbrev cc4_stg3_0 : Ref sig .tc := ⟨.vmem, 33, rfl⟩
abbrev cc4_stg4_0 : Ref sig .tc := ⟨.vmem, 34, rfl⟩
abbrev cc4_stg5_0 : Ref sig .tc := ⟨.vmem, 35, rfl⟩
abbrev cc4_stg6_0 : Ref sig .tc := ⟨.vmem, 36, rfl⟩
abbrev cc4_stg6_1 : Ref sig .tc := ⟨.vmem, 37, rfl⟩
abbrev cc5_stg0_0 : Ref sig .tc := ⟨.vmem, 38, rfl⟩
abbrev cc5_stg0_1 : Ref sig .tc := ⟨.vmem, 39, rfl⟩
abbrev cc5_stg1_0 : Ref sig .tc := ⟨.vmem, 40, rfl⟩
abbrev cc5_stg2_0 : Ref sig .tc := ⟨.vmem, 41, rfl⟩
abbrev cc5_stg3_0 : Ref sig .tc := ⟨.vmem, 42, rfl⟩
abbrev cc5_stg3_1 : Ref sig .tc := ⟨.vmem, 43, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc1_sem0_0 : DmaSem sig := 10
abbrev cc1_sem0_1 : DmaSem sig := 11
abbrev cc1_sem1_0 : DmaSem sig := 12
abbrev cc1_sem2_0 : DmaSem sig := 13
abbrev cc1_sem2_1 : DmaSem sig := 14
abbrev cc2_sem0_0 : DmaSem sig := 15
abbrev cc2_sem0_1 : DmaSem sig := 16
abbrev cc2_sem1_0 : DmaSem sig := 17
abbrev cc2_sem2_0 : DmaSem sig := 18
abbrev cc2_sem3_0 : DmaSem sig := 19
abbrev cc2_sem4_0 : DmaSem sig := 20
abbrev cc2_sem5_0 : DmaSem sig := 21
abbrev cc2_sem6_0 : DmaSem sig := 22
abbrev cc2_sem6_1 : DmaSem sig := 23
abbrev cc3_sem0_0 : DmaSem sig := 24
abbrev cc3_sem0_1 : DmaSem sig := 25
abbrev cc3_sem1_0 : DmaSem sig := 26
abbrev cc3_sem2_0 : DmaSem sig := 27
abbrev cc3_sem2_1 : DmaSem sig := 28
abbrev cc4_sem0_0 : DmaSem sig := 29
abbrev cc4_sem0_1 : DmaSem sig := 30
abbrev cc4_sem1_0 : DmaSem sig := 31
abbrev cc4_sem2_0 : DmaSem sig := 32
abbrev cc4_sem3_0 : DmaSem sig := 33
abbrev cc4_sem4_0 : DmaSem sig := 34
abbrev cc4_sem5_0 : DmaSem sig := 35
abbrev cc4_sem6_0 : DmaSem sig := 36
abbrev cc4_sem6_1 : DmaSem sig := 37
abbrev cc5_sem0_0 : DmaSem sig := 38
abbrev cc5_sem0_1 : DmaSem sig := 39
abbrev cc5_sem1_0 : DmaSem sig := 40
abbrev cc5_sem2_0 : DmaSem sig := 41
abbrev cc5_sem3_0 : DmaSem sig := 42
abbrev cc5_sem3_1 : DmaSem sig := 43

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S2000x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S2000x128 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev grid3 : Pipeline.Grid := ⟨1, ![50], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S2000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![50], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x128 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S1x128 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 2 → Memref sig .tc .vmem S2000x128 .f32 := fun | 0 => Memref.whole cc4_stg6_0 | 1 => Memref.whole cc4_stg6_1 | ⟨_ + 2, h⟩ => absurd h (Nat.not_lt.2 (Nat.le_add_left _ _))
abbrev sem4_6 : Fin 2 → DmaSem sig := fun | 0 => cc4_sem6_0 | 1 => cc4_sem6_1 | ⟨_ + 2, h⟩ => absurd h (Nat.not_lt.2 (Nat.le_add_left _ _))
abbrev reads4_6 : Fin grid4.rank → Bool := ![true]

abbrev grid5 : Pipeline.Grid := ⟨1, ![50], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S2000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S128x40 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x40 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 2 → Memref sig .tc .vmem S2000x40 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S100000 : S_.BroadcastsInDim S100000 (![] : Fin 0 → Fin S100000.rank)
  bcast_S1700000_S1700000x1_0 : S1700000.BroadcastsInDim S1700000x1 (![0] : Fin 1 → Fin S1700000x1.rank)
  bcast_S_S1700000 : S_.BroadcastsInDim S1700000 (![] : Fin 0 → Fin S1700000.rank)
  shapeCasts_S128_S1x128 : S128.ShapeCasts S1x128
  inb_S2000x512_S2000x512_0_0 : ∀ a, (![0, 0] : Fin 2 → Nat) a + S2000x512.size a ≤ S2000x512.size a
  h_S2000x512 : 0 < S2000x512.numel
  bitsLt_bf16_f32 : FTy.bits .bf16 < FTy.bits .f32
  inb_S512x128_S512x128_0_0 : ∀ a, (![0, 0] : Fin 2 → Nat) a + S512x128.size a ≤ S512x128.size a
  h_S512x128 : 0 < S512x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  inb_S2000x128_S2000x128_0_0 : ∀ a, (![0, 0] : Fin 2 → Nat) a + S2000x128.size a ≤ S2000x128.size a
  h_S2000x128 : 0 < S2000x128.numel
  slices_S2x128x128_S1x128x128_0_0_0 : S2x128x128.Slices ![0, 0, 0] S1x128x128
  shapeCasts_S1x128x128_S128x128 : S1x128x128.ShapeCasts S128x128
  shapeCasts_S2000x128_S2000x128 : S2000x128.ShapeCasts S2000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  slices_S2x128_S1x128_0_0 : S2x128.Slices ![0, 0] S1x128
  shapeCasts_S1x128_S128 : S1x128.ShapeCasts S128
  slices_S2x128x128_S1x128x128_1_0_0 : S2x128x128.Slices ![1, 0, 0] S1x128x128
  slices_S2x128_S1x128_1_0 : S2x128.Slices ![1, 0] S1x128
  shapeCasts_S40_S1x40 : S40.ShapeCasts S1x40
  inb_S128x40_S128x40_0_0 : ∀ a, (![0, 0] : Fin 2 → Nat) a + S128x40.size a ≤ S128x40.size a
  h_S128x40 : 0 < S128x40.numel
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S2000x40 : S1x40.Broadcasts S2000x40
  reduces_S2000x40_S2000 : S2000x40.Reduces [1] S2000
  shapeCasts_S2000_S2000x1 : S2000.ShapeCasts S2000x1
  broadcasts_S2000x1_S2000x40 : S2000x1.Broadcasts S2000x40
  inb_S2000x40_S2000x40_0_0 : ∀ a, (![0, 0] : Fin 2 → Nat) a + S2000x40.size a ≤ S2000x40.size a
  h_S2000x40 : 0 < S2000x40.numel
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S2000x512_S512x128_S2000x128_1_0_0_1_n_n_wf : DotDims.WF S2000x512 S512x128 S2000x128 [1] [0] [0] [1] [] []
  dot_S2000x128_S128x128_S2000x128_1_0_0_1_n_n_wf : DotDims.WF S2000x128 S128x128 S2000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S2000x128_S128x40_S2000x40_1_0_0_1_n_n_wf : DotDims.WF S2000x128 S128x40 S2000x40 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x512.size a ≤ S100000x512.size a
  hwx0_0 : ∀ i : grid0.Coords, EltTy.bits .f32 = 32 ∨ (Rect.block (s := S100000x512) S2000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x128.size a ≤ S512x128.size a
  hwx0_1 : ∀ i : grid0.Coords, EltTy.bits .f32 = 32 ∨ (Rect.block (s := S512x128) S512x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S2000x128.size a ≤ S100000x128.size a
  hwx0_7 : ∀ i : grid0.Coords, EltTy.bits .f32 = 32 ∨ (Rect.block (s := S100000x128) S2000x128.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S100000x128.size a
  hwx1_0 : ∀ i : grid1.Coords, EltTy.bits .f32 = 32 ∨ (Rect.block (s := S100000x128) S2000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x128.size a ≤ S100000x128.size a
  hwx1_2 : ∀ i : grid1.Coords, EltTy.bits .f32 = 32 ∨ (Rect.block (s := S100000x128) S2000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S100000x128.size a
  hwx2_0 : ∀ i : grid2.Coords, EltTy.bits .f32 = 32 ∨ (Rect.block (s := S100000x128) S2000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x128.size a ≤ S1x128.size a
  hwx2_5 : ∀ i : grid2.Coords, EltTy.bits .f32 = 32 ∨ (Rect.block (s := S1x128) S1x128.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S2000x128.size a ≤ S100000x128.size a
  hwx2_6 : ∀ i : grid2.Coords, EltTy.bits .f32 = 32 ∨ (Rect.block (s := S100000x128) S2000x128.size (cc2_transform_6 i) (hinb2_6 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x128.size a ≤ S100000x128.size a
  hwx3_0 : ∀ i : grid3.Coords, EltTy.bits .f32 = 32 ∨ (Rect.block (s := S100000x128) S2000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x128.size a ≤ S128x128.size a
  hwx3_1 : ∀ i : grid3.Coords, EltTy.bits .f32 = 32 ∨ (Rect.block (s := S128x128) S128x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x128.size a ≤ S100000x128.size a
  hwx3_2 : ∀ i : grid3.Coords, EltTy.bits .f32 = 32 ∨ (Rect.block (s := S100000x128) S2000x128.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x128.size a ≤ S100000x128.size a
  hwx4_0 : ∀ i : grid4.Coords, EltTy.bits .f32 = 32 ∨ (Rect.block (s := S100000x128) S2000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S1x128.size a ≤ S1x128.size a
  hwx4_1 : ∀ i : grid4.Coords, EltTy.bits .f32 = 32 ∨ (Rect.block (s := S1x128) S1x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x128.size a ≤ S1x128.size a
  hwx4_2 : ∀ i : grid4.Coords, EltTy.bits .f32 = 32 ∨ (Rect.block (s := S1x128) S1x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x128.size a ≤ S1x128.size a
  hwx4_3 : ∀ i : grid4.Coords, EltTy.bits .f32 = 32 ∨ (Rect.block (s := S1x128) S1x128.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x128.size a ≤ S1x128.size a
  hwx4_4 : ∀ i : grid4.Coords, EltTy.bits .f32 = 32 ∨ (Rect.block (s := S1x128) S1x128.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S1x128.size a ≤ S1x128.size a
  hwx4_5 : ∀ i : grid4.Coords, EltTy.bits .f32 = 32 ∨ (Rect.block (s := S1x128) S1x128.size (cc4_transform_5 i) (hinb4_5 i)).WholeWords (EltTy.packing .f32)
  hstage4_6 : ∀ j, (stage4_6 j).IsWhole
  nbuf4_6 : grid4.bufCount reads4_6 false = 2
  hreads4_6 : ∀ i i' : grid4.Coords, (∀ a, reads4_6 a = true → i a = i' a) → cc4_transform_6 i = cc4_transform_6 i'
  hinb4_6 : ∀ (i : grid4.Coords) a, (cc4_transform_6 i a + 1) * S2000x128.size a ≤ S100000x128.size a
  hwx4_6 : ∀ i : grid4.Coords, EltTy.bits .f32 = 32 ∨ (Rect.block (s := S100000x128) S2000x128.size (cc4_transform_6 i) (hinb4_6 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2000x128.size a ≤ S100000x128.size a
  hwx5_0 : ∀ i : grid5.Coords, EltTy.bits .f32 = 32 ∨ (Rect.block (s := S100000x128) S2000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S128x40.size a ≤ S128x40.size a
  hwx5_1 : ∀ i : grid5.Coords, EltTy.bits .f32 = 32 ∨ (Rect.block (s := S128x40) S128x40.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x40.size a ≤ S1x40.size a
  hwx5_2 : ∀ i : grid5.Coords, EltTy.bits .f32 = 32 ∨ (Rect.block (s := S1x40) S1x40.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S2000x40.size a ≤ S100000x40.size a
  hwx5_3 : ∀ i : grid5.Coords, EltTy.bits .f32 = 32 ∨ (Rect.block (s := S100000x40) S2000x40.size (cc5_transform_3 i) (hinb5_3 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S2000x512_S512x128_S2000x128_1_0_0_1_n_n : DotDims S2000x512 S512x128 S2000x128 where
  lhsContracting := [1]
  rhsContracting := [0]
  lhsNonContracting := [0]
  rhsNonContracting := [1]
  lhsBatch := []
  rhsBatch := []
  wf := dot_S2000x512_S512x128_S2000x128_1_0_0_1_n_n_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S2000x128_S128x40_S2000x40_1_0_0_1_n_n : DotDims S2000x128 S128x40 S2000x40 where
  lhsContracting := [1]
  rhsContracting := [0]
  lhsNonContracting := [0]
  rhsNonContracting := [1]
  lhsBatch := []
  rhsBatch := []
  wf := dot_S2000x128_S128x40_S2000x40_1_0_0_1_n_n_wf

abbrev win0_0 : Pipeline.Window sig grid0 :=
  Pipeline.Window.ofSpec (Memref.whole main_arg0) S2000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S512x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v34) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v35) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v36) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v37) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v38) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v39) S2000x128.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v39) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v41) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v42) S2000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v55) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v66) S1x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v67) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v68) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v69) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v70) S1x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v71) S2000x128.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev win3_0 : Pipeline.Window sig grid3 :=
  Pipeline.Window.ofSpec (Memref.whole main_v71) S2000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v73) S128x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v74) S2000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v87) S2000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v98) S1x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v99) S1x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v100) S1x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v101) S1x128.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v102) S1x128.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v103) S2000x128.size cc4_transform_6 reads4_6 true false 2 stage4_6 sem4_6
    hrank4 hreads4_6 hinb4_6 nbuf4_6 (Memref.isWhole_whole _) hwx4_6 hstage4_6

abbrev win4 : Fin 7 → Pipeline.Window sig grid4 := fun | 0 => win4_0 | 1 => win4_1 | 2 => win4_2 | 3 => win4_3 | 4 => win4_4 | 5 => win4_5 | 6 => win4_6 | ⟨_ + 7, h⟩ => absurd h (Nat.not_lt.2 (Nat.le_add_left _ _))
abbrev spec4 : Fin 7 → Pipeline.WinSpec sig grid4.rank := fun w => (win4 w).toWinSpec

abbrev win5_0 : Pipeline.Window sig grid5 :=
  Pipeline.Window.ofSpec (Memref.whole main_v103) S2000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_arg15) S128x40.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v104) S1x40.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v105) S2000x40.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

class Facts : Prop extends Facts₀ where

variable [Facts]
-- ==== ReferenceIdeal.lean ====
abbrev S100000x512 : Shape := ⟨2, ![100000, 512]⟩
abbrev S2x1600000 : Shape := ⟨2, ![2, 1600000]⟩
abbrev S1600000 : Shape := ⟨1, ![1600000]⟩
abbrev S512x128 : Shape := ⟨2, ![512, 128]⟩
abbrev S128 : Shape := ⟨1, ![128]⟩
abbrev S2x128x128 : Shape := ⟨3, ![2, 128, 128]⟩
abbrev S2x128 : Shape := ⟨2, ![2, 128]⟩
abbrev S128x40 : Shape := ⟨2, ![128, 40]⟩
abbrev S40 : Shape := ⟨1, ![40]⟩
abbrev S100000 : Shape := ⟨1, ![100000]⟩
abbrev S1x1600000 : Shape := ⟨2, ![1, 1600000]⟩
abbrev S1700000 : Shape := ⟨1, ![1700000]⟩
abbrev S_ : Shape := ⟨0, ![]⟩
abbrev S1700000x1 : Shape := ⟨2, ![1700000, 1]⟩
abbrev S100000x128 : Shape := ⟨2, ![100000, 128]⟩
abbrev S1x128 : Shape := ⟨2, ![1, 128]⟩
abbrev S1x128x128 : Shape := ⟨3, ![1, 128, 128]⟩
abbrev S128x128 : Shape := ⟨2, ![128, 128]⟩
abbrev S1700000x128 : Shape := ⟨2, ![1700000, 128]⟩
abbrev S100000x40 : Shape := ⟨2, ![100000, 40]⟩
abbrev S1x40 : Shape := ⟨2, ![1, 40]⟩
abbrev S100000x1 : Shape := ⟨2, ![100000, 1]⟩

abbrev nBuf : Space → Nat
  | .hbm => 206
  | .vmem => 0
  | .smem => 0
  | _ => 0

abbrev hbmTy0_0 (i : Nat) : BufTy := match i % 128 with
  | 0 => ⟨S100000x512, .f32⟩
  | 1 => ⟨S2x1600000, .i32⟩
  | 2 => ⟨S1600000, .f32⟩
  | 3 => ⟨S512x128, .f32⟩
  | 4 => ⟨S128, .f32⟩
  | 5 => ⟨S128, .f32⟩
  | 6 => ⟨S128, .f32⟩
  | 7 => ⟨S128, .f32⟩
  | 8 => ⟨S128, .f32⟩
  | 9 => ⟨S2x128x128, .f32⟩
  | 10 => ⟨S2x128, .f32⟩
  | 11 => ⟨S2x128, .f32⟩
  | 12 => ⟨S2x128, .f32⟩
  | 13 => ⟨S2x128, .f32⟩
  | 14 => ⟨S2x128, .f32⟩
  | 15 => ⟨S128x40, .f32⟩
  | 16 => ⟨S40, .f32⟩
  | 17 => ⟨S100000, .i32⟩
  | 18 => ⟨S1x1600000, .i32⟩
  | 19 => ⟨S1600000, .i32⟩
  | 20 => ⟨S1700000, .i32⟩
  | 21 => ⟨S1x1600000, .i32⟩
  | 22 => ⟨S1600000, .i32⟩
  | 23 => ⟨S1700000, .i32⟩
  | 24 => ⟨S_, .f32⟩
  | 25 => ⟨S100000, .f32⟩
  | 26 => ⟨S1700000, .f32⟩
  | 27 => ⟨S_, .f32⟩
  | 28 => ⟨S100000, .f32⟩
  | 29 => ⟨S1700000x1, .i32⟩
  | 30 => ⟨S100000, .f32⟩
  | 31 => ⟨S_, .f32⟩
  | 32 => ⟨S100000, .f32⟩
  | 33 => ⟨S100000, .i1⟩
  | 34 => ⟨S_, .f32⟩
  | 35 => ⟨S100000, .f32⟩
  | 36 => ⟨S100000, .f32⟩
  | 37 => ⟨S100000, .f32⟩
  | 38 => ⟨S_, .f32⟩
  | 39 => ⟨S_, .f32⟩
  | 40 => ⟨S100000, .f32⟩
  | 41 => ⟨S100000, .f32⟩
  | 42 => ⟨S_, .i32⟩
  | 43 => ⟨S1700000, .i32⟩
  | 44 => ⟨S1700000, .i1⟩
  | 45 => ⟨S_, .i32⟩
  | 46 => ⟨S1700000, .i32⟩
  | 47 => ⟨S1700000, .i32⟩
  | 48 => ⟨S1700000, .i32⟩
  | 49 => ⟨S1700000x1, .i32⟩
  | 50 => ⟨S1700000, .f32⟩
  | 51 => ⟨S1700000, .f32⟩
  | 52 => ⟨S_, .i32⟩
  | 53 => ⟨S1700000, .i32⟩
  | 54 => ⟨S1700000, .i1⟩
  | 55 => ⟨S_, .i32⟩
  | 56 => ⟨S1700000, .i32⟩
  | 57 => ⟨S1700000, .i32⟩
  | 58 => ⟨S1700000, .i32⟩
  | 59 => ⟨S1700000x1, .i32⟩
  | 60 => ⟨S1700000, .f32⟩
  | 61 => ⟨S1700000, .f32⟩
  | 62 => ⟨S100000x128, .f32⟩
  | 63 => ⟨S1x128, .f32⟩
  | 64 => ⟨S100000x128, .f32⟩
  | 65 => ⟨S100000x128, .f32⟩
  | 66 => ⟨S_, .f32⟩
  | 67 => ⟨S100000x128, .f32⟩
  | 68 => ⟨S100000x128, .f32⟩
  | 69 => ⟨S1x128, .f32⟩
  | 70 => ⟨S100000x128, .f32⟩
  | 71 => ⟨S100000x128, .f32⟩
  | 72 => ⟨S_, .f32⟩
  | 73 => ⟨S128, .f32⟩
  | 74 => ⟨S128, .f32⟩
  | 75 => ⟨S128, .f32⟩
  | 76 => ⟨S1x128, .f32⟩
  | 77 => ⟨S100000x128, .f32⟩
  | 78 => ⟨S100000x128, .f32⟩
  | 79 => ⟨S1x128, .f32⟩
  | 80 => ⟨S100000x128, .f32⟩
  | 81 => ⟨S100000x128, .f32⟩
  | 82 => ⟨S1x128, .f32⟩
  | 83 => ⟨S100000x128, .f32⟩
  | 84 => ⟨S100000x128, .f32⟩
  | 85 => ⟨S1x128x128, .f32⟩
  | 86 => ⟨S128x128, .f32⟩
  | 87 => ⟨S100000x128, .f32⟩
  | 88 => ⟨S_, .i32⟩
  | 89 => ⟨S1700000, .i32⟩
  | 90 => ⟨S1700000, .i1⟩
  | 91 => ⟨S_, .i32⟩
  | 92 => ⟨S1700000, .i32⟩
  | 93 => ⟨S1700000, .i32⟩
  | 94 => ⟨S1700000, .i32⟩
  | 95 => ⟨S1700000x1, .i32⟩
  | 96 => ⟨S1700000x128, .f32⟩
  | 97 => ⟨S1700000x1, .f32⟩
  | 98 => ⟨S1700000x128, .f32⟩
  | 99 => ⟨S1700000x128, .f32⟩
  | 100 => ⟨S_, .f32⟩
  | 101 => ⟨S100000x128, .f32⟩
  | 102 => ⟨S1700000x1, .i32⟩
  | 103 => ⟨S100000x128, .f32⟩
  | 104 => ⟨S1x128, .f32⟩
  | 105 => ⟨S128, .f32⟩
  | 106 => ⟨S1x128, .f32⟩
  | 107 => ⟨S100000x128, .f32⟩
  | 108 => ⟨S100000x128, .f32⟩
  | 109 => ⟨S_, .f32⟩
  | 110 => ⟨S100000x128, .f32⟩
  | 111 => ⟨S100000x128, .f32⟩
  | 112 => ⟨S1x128, .f32⟩
  | 113 => ⟨S128, .f32⟩
  | 114 => ⟨S1x128, .f32⟩
  | 115 => ⟨S128, .f32⟩
  | 116 => ⟨S1x128, .f32⟩
  | 117 => ⟨S128, .f32⟩
  | 118 => ⟨S1x128, .f32⟩
  | 119 => ⟨S128, .f32⟩
  | 120 => ⟨S1x128, .f32⟩
  | 121 => ⟨S100000x128, .f32⟩
  | 122 => ⟨S100000x128, .f32⟩
  | 123 => ⟨S_, .f32⟩
  | 124 => ⟨S128, .f32⟩
  | 125 => ⟨S128, .f32⟩
  | 126 => ⟨S128, .f32⟩
  | 127 => ⟨S1x128, .f32⟩
  | _ => ⟨S100000x512, .f32⟩

abbrev hbmTy0_1 (i : Nat) : BufTy := match i % 128 with
  | 0 => ⟨S100000x128, .f32⟩
  | 1 => ⟨S100000x128, .f32⟩
  | 2 => ⟨S1x128, .f32⟩
  | 3 => ⟨S100000x128, .f32⟩
  | 4 => ⟨S100000x128, .f32⟩
  | 5 => ⟨S1x128, .f32⟩
  | 6 => ⟨S100000x128, .f32⟩
  | 7 => ⟨S100000x128, .f32⟩
  | 8 => ⟨S1x128x128, .f32⟩
  | 9 => ⟨S128x128, .f32⟩
  | 10 => ⟨S100000x128, .f32⟩
  | 11 => ⟨S_, .i32⟩
  | 12 => ⟨S1700000, .i32⟩
  | 13 => ⟨S1700000, .i1⟩
  | 14 => ⟨S_, .i32⟩
  | 15 => ⟨S1700000, .i32⟩
  | 16 => ⟨S1700000, .i32⟩
  | 17 => ⟨S1700000, .i32⟩
  | 18 => ⟨S1700000x1, .i32⟩
  | 19 => ⟨S1700000x128, .f32⟩
  | 20 => ⟨S1700000x1, .f32⟩
  | 21 => ⟨S1700000x128, .f32⟩
  | 22 => ⟨S1700000x128, .f32⟩
  | 23 => ⟨S_, .f32⟩
  | 24 => ⟨S100000x128, .f32⟩
  | 25 => ⟨S1700000x1, .i32⟩
  | 26 => ⟨S100000x128, .f32⟩
  | 27 => ⟨S1x128, .f32⟩
  | 28 => ⟨S128, .f32⟩
  | 29 => ⟨S1x128, .f32⟩
  | 30 => ⟨S100000x128, .f32⟩
  | 31 => ⟨S100000x128, .f32⟩
  | 32 => ⟨S_, .f32⟩
  | 33 => ⟨S100000x128, .f32⟩
  | 34 => ⟨S100000x128, .f32⟩
  | 35 => ⟨S1x128, .f32⟩
  | 36 => ⟨S128, .f32⟩
  | 37 => ⟨S1x128, .f32⟩
  | 38 => ⟨S128, .f32⟩
  | 39 => ⟨S1x128, .f32⟩
  | 40 => ⟨S128, .f32⟩
  | 41 => ⟨S1x128, .f32⟩
  | 42 => ⟨S128, .f32⟩
  | 43 => ⟨S1x128, .f32⟩
  | 44 => ⟨S100000x128, .f32⟩
  | 45 => ⟨S100000x128, .f32⟩
  | 46 => ⟨S_, .f32⟩
  | 47 => ⟨S128, .f32⟩
  | 48 => ⟨S128, .f32⟩
  | 49 => ⟨S128, .f32⟩
  | 50 => ⟨S1x128, .f32⟩
  | 51 => ⟨S100000x128, .f32⟩
  | 52 => ⟨S100000x128, .f32⟩
  | 53 => ⟨S1x128, .f32⟩
  | 54 => ⟨S100000x128, .f32⟩
  | 55 => ⟨S100000x128, .f32⟩
  | 56 => ⟨S1x128, .f32⟩
  | 57 => ⟨S100000x128, .f32⟩
  | 58 => ⟨S100000x128, .f32⟩
  | 59 => ⟨S100000x40, .f32⟩
  | 60 => ⟨S1x40, .f32⟩
  | 61 => ⟨S100000x40, .f32⟩
  | 62 => ⟨S100000x40, .f32⟩
  | 63 => ⟨S_, .f32⟩
  | 64 => ⟨S100000, .f32⟩
  | 65 => ⟨S_, .f32⟩
  | 66 => ⟨S100000, .f32⟩
  | 67 => ⟨S100000, .f32⟩
  | 68 => ⟨S100000x1, .f32⟩
  | 69 => ⟨S100000x40, .f32⟩
  | 70 => ⟨S100000x40, .f32⟩
  | 71 => ⟨S100000x40, .f32⟩
  | 72 => ⟨S_, .f32⟩
  | 73 => ⟨S100000, .f32⟩
  | 74 => ⟨S100000x1, .f32⟩
  | 75 => ⟨S100000x1, .f32⟩
  | 76 => ⟨S100000x40, .f32⟩
  | 77 => ⟨S100000x40, .f32⟩
  | _ => ⟨S100000x512, .f32⟩

abbrev hbmTy (i : Nat) : BufTy := match i / 128 with
  | 0 => hbmTy0_0 i
  | 1 => hbmTy0_1 i
  | _ => ⟨S100000x512, .f32⟩

abbrev bufTy : (tb : Table) → Fin (tcTables nBuf tb) → BufTy
  | .hbm, ⟨i, _⟩ => hbmTy i
  | _, _ => ⟨S100000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_cst : Ref sig .tc := ⟨.hbm, 24, rfl⟩
abbrev main_v7 : Ref sig .tc := ⟨.hbm, 25, rfl⟩
abbrev main_v8 : Ref sig .tc := ⟨.hbm, 26, rfl⟩
abbrev main_cst_0 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_cst_1 : Ref sig .tc := ⟨.hbm, 31, rfl⟩
abbrev main_v12 : Ref sig .tc := ⟨.hbm, 32, rfl⟩
abbrev main_v13 : Ref sig .tc := ⟨.hbm, 33, rfl⟩
abbrev main_cst_2 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_cst_3 : Ref sig .tc := ⟨.hbm, 38, rfl⟩
abbrev main_call0_v0 : Ref sig .tc := ⟨.hbm, 39, rfl⟩
abbrev main_call0_v1 : Ref sig .tc := ⟨.hbm, 40, rfl⟩
abbrev main_v17 : Ref sig .tc := ⟨.hbm, 41, rfl⟩
abbrev main_c : Ref sig .tc := ⟨.hbm, 42, rfl⟩
abbrev main_v18 : Ref sig .tc := ⟨.hbm, 43, rfl⟩
abbrev main_v19 : Ref sig .tc := ⟨.hbm, 44, rfl⟩
abbrev main_c_4 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_c_5 : Ref sig .tc := ⟨.hbm, 52, rfl⟩
abbrev main_v26 : Ref sig .tc := ⟨.hbm, 53, rfl⟩
abbrev main_v27 : Ref sig .tc := ⟨.hbm, 54, rfl⟩
abbrev main_c_6 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_call1_cst : Ref sig .tc := ⟨.hbm, 66, rfl⟩
abbrev main_call1_v0 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_cst_7 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_c_8 : Ref sig .tc := ⟨.hbm, 88, rfl⟩
abbrev main_v57 : Ref sig .tc := ⟨.hbm, 89, rfl⟩
abbrev main_v58 : Ref sig .tc := ⟨.hbm, 90, rfl⟩
abbrev main_c_9 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_cst_10 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_call2_cst : Ref sig .tc := ⟨.hbm, 109, rfl⟩
abbrev main_call2_v0 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_cst_11 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_v91 : Ref sig .tc := ⟨.hbm, 128, rfl⟩
abbrev main_v92 : Ref sig .tc := ⟨.hbm, 129, rfl⟩
abbrev main_v93 : Ref sig .tc := ⟨.hbm, 130, rfl⟩
abbrev main_v94 : Ref sig .tc := ⟨.hbm, 131, rfl⟩
abbrev main_v95 : Ref sig .tc := ⟨.hbm, 132, rfl⟩
abbrev main_v96 : Ref sig .tc := ⟨.hbm, 133, rfl⟩
abbrev main_v97 : Ref sig .tc := ⟨.hbm, 134, rfl⟩
abbrev main_v98 : Ref sig .tc := ⟨.hbm, 135, rfl⟩
abbrev main_v99 : Ref sig .tc := ⟨.hbm, 136, rfl⟩
abbrev main_v100 : Ref sig .tc := ⟨.hbm, 137, rfl⟩
abbrev main_v101 : Ref sig .tc := ⟨.hbm, 138, rfl⟩
abbrev main_c_12 : Ref sig .tc := ⟨.hbm, 139, rfl⟩
abbrev main_v102 : Ref sig .tc := ⟨.hbm, 140, rfl⟩
abbrev main_v103 : Ref sig .tc := ⟨.hbm, 141, rfl⟩
abbrev main_c_13 : Ref sig .tc := ⟨.hbm, 142, rfl⟩
abbrev main_v104 : Ref sig .tc := ⟨.hbm, 143, rfl⟩
abbrev main_v105 : Ref sig .tc := ⟨.hbm, 144, rfl⟩
abbrev main_v106 : Ref sig .tc := ⟨.hbm, 145, rfl⟩
abbrev main_v107 : Ref sig .tc := ⟨.hbm, 146, rfl⟩
abbrev main_v108 : Ref sig .tc := ⟨.hbm, 147, rfl⟩
abbrev main_v109 : Ref sig .tc := ⟨.hbm, 148, rfl⟩
abbrev main_v110 : Ref sig .tc := ⟨.hbm, 149, rfl⟩
abbrev main_v111 : Ref sig .tc := ⟨.hbm, 150, rfl⟩
abbrev main_cst_14 : Ref sig .tc := ⟨.hbm, 151, rfl⟩
abbrev main_v112 : Ref sig .tc := ⟨.hbm, 152, rfl⟩
abbrev main_v113 : Ref sig .tc := ⟨.hbm, 153, rfl⟩
abbrev main_v114 : Ref sig .tc := ⟨.hbm, 154, rfl⟩
abbrev main_v115 : Ref sig .tc := ⟨.hbm, 155, rfl⟩
abbrev main_v116 : Ref sig .tc := ⟨.hbm, 156, rfl⟩
abbrev main_v117 : Ref sig .tc := ⟨.hbm, 157, rfl⟩
abbrev main_v118 : Ref sig .tc := ⟨.hbm, 158, rfl⟩
abbrev main_v119 : Ref sig .tc := ⟨.hbm, 159, rfl⟩
abbrev main_call3_cst : Ref sig .tc := ⟨.hbm, 160, rfl⟩
abbrev main_call3_v0 : Ref sig .tc := ⟨.hbm, 161, rfl⟩
abbrev main_v120 : Ref sig .tc := ⟨.hbm, 162, rfl⟩
abbrev main_v121 : Ref sig .tc := ⟨.hbm, 163, rfl⟩
abbrev main_v122 : Ref sig .tc := ⟨.hbm, 164, rfl⟩
abbrev main_v123 : Ref sig .tc := ⟨.hbm, 165, rfl⟩
abbrev main_v124 : Ref sig .tc := ⟨.hbm, 166, rfl⟩
abbrev main_v125 : Ref sig .tc := ⟨.hbm, 167, rfl⟩
abbrev main_v126 : Ref sig .tc := ⟨.hbm, 168, rfl⟩
abbrev main_v127 : Ref sig .tc := ⟨.hbm, 169, rfl⟩
abbrev main_v128 : Ref sig .tc := ⟨.hbm, 170, rfl⟩
abbrev main_v129 : Ref sig .tc := ⟨.hbm, 171, rfl⟩
abbrev main_v130 : Ref sig .tc := ⟨.hbm, 172, rfl⟩
abbrev main_v131 : Ref sig .tc := ⟨.hbm, 173, rfl⟩
abbrev main_cst_15 : Ref sig .tc := ⟨.hbm, 174, rfl⟩
abbrev main_v132 : Ref sig .tc := ⟨.hbm, 175, rfl⟩
abbrev main_v133 : Ref sig .tc := ⟨.hbm, 176, rfl⟩
abbrev main_v134 : Ref sig .tc := ⟨.hbm, 177, rfl⟩
abbrev main_v135 : Ref sig .tc := ⟨.hbm, 178, rfl⟩
abbrev main_v136 : Ref sig .tc := ⟨.hbm, 179, rfl⟩
abbrev main_v137 : Ref sig .tc := ⟨.hbm, 180, rfl⟩
abbrev main_v138 : Ref sig .tc := ⟨.hbm, 181, rfl⟩
abbrev main_v139 : Ref sig .tc := ⟨.hbm, 182, rfl⟩
abbrev main_v140 : Ref sig .tc := ⟨.hbm, 183, rfl⟩
abbrev main_v141 : Ref sig .tc := ⟨.hbm, 184, rfl⟩
abbrev main_v142 : Ref sig .tc := ⟨.hbm, 185, rfl⟩
abbrev main_v143 : Ref sig .tc := ⟨.hbm, 186, rfl⟩
abbrev main_v144 : Ref sig .tc := ⟨.hbm, 187, rfl⟩
abbrev main_v145 : Ref sig .tc := ⟨.hbm, 188, rfl⟩
abbrev main_v146 : Ref sig .tc := ⟨.hbm, 189, rfl⟩
abbrev main_v147 : Ref sig .tc := ⟨.hbm, 190, rfl⟩
abbrev main_call4_cst : Ref sig .tc := ⟨.hbm, 191, rfl⟩
abbrev main_call4_v0 : Ref sig .tc := ⟨.hbm, 192, rfl⟩
abbrev main_call4_cst_0 : Ref sig .tc := ⟨.hbm, 193, rfl⟩
abbrev main_call4_v1 : Ref sig .tc := ⟨.hbm, 194, rfl⟩
abbrev main_call4_v2 : Ref sig .tc := ⟨.hbm, 195, rfl⟩
abbrev main_call4_v3 : Ref sig .tc := ⟨.hbm, 196, rfl⟩
abbrev main_call4_v4 : Ref sig .tc := ⟨.hbm, 197, rfl⟩
abbrev main_call4_v5 : Ref sig .tc := ⟨.hbm, 198, rfl⟩
abbrev main_call4_v6 : Ref sig .tc := ⟨.hbm, 199, rfl⟩
abbrev main_call4_cst_1 : Ref sig .tc := ⟨.hbm, 200, rfl⟩
abbrev main_call4_v7 : Ref sig .tc := ⟨.hbm, 201, rfl⟩
abbrev main_call4_v8 : Ref sig .tc := ⟨.hbm, 202, rfl⟩
abbrev main_call4_v9 : Ref sig .tc := ⟨.hbm, 203, rfl⟩
abbrev main_call4_v10 : Ref sig .tc := ⟨.hbm, 204, rfl⟩
abbrev main_v148 : Ref sig .tc := ⟨.hbm, 205, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S100000 : S_.BroadcastsInDim S100000 (![] : Fin 0 → Fin S100000.rank)
  bcast_S1700000_S1700000x1_0 : S1700000.BroadcastsInDim S1700000x1 (![0] : Fin 1 → Fin S1700000x1.rank)
  bcast_S_S1700000 : S_.BroadcastsInDim S1700000 (![] : Fin 0 → Fin S1700000.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S100000x128 : S_.BroadcastsInDim S100000x128 (![] : Fin 0 → Fin S100000x128.rank)
  bcast_S_S128 : S_.BroadcastsInDim S128 (![] : Fin 0 → Fin S128.rank)
  slices_S2x128x128_S1x128x128_0_0_0 : S2x128x128.Slices ![0, 0, 0] S1x128x128
  shapeCasts_S1x128x128_S128x128 : S1x128x128.ShapeCasts S128x128
  bcast_S1700000x1_S1700000x128_0_1 : S1700000x1.BroadcastsInDim S1700000x128 (![0, 1] : Fin 2 → Fin S1700000x128.rank)
  slices_S2x128_S1x128_0_0 : S2x128.Slices ![0, 0] S1x128
  shapeCasts_S1x128_S128 : S1x128.ShapeCasts S128
  slices_S2x128x128_S1x128x128_1_0_0 : S2x128x128.Slices ![1, 0, 0] S1x128x128
  slices_S2x128_S1x128_1_0 : S2x128.Slices ![1, 0] S1x128
  bcast_S40_S1x40_1 : S40.BroadcastsInDim S1x40 (![1] : Fin 1 → Fin S1x40.rank)
  bcast_S1x40_S100000x40_0_1 : S1x40.BroadcastsInDim S100000x40 (![0, 1] : Fin 2 → Fin S100000x40.rank)
  reducesTo_S100000x40_S100000_d1 : S100000x40.ReducesTo [1] S100000
  h_S_ : 0 < S_.numel
  bcast_S100000_S100000x1_0 : S100000.BroadcastsInDim S100000x1 (![0] : Fin 1 → Fin S100000x1.rank)
  bcast_S100000x1_S100000x40_0_1 : S100000x1.BroadcastsInDim S100000x40 (![0, 1] : Fin 2 → Fin S100000x40.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x512_S512x128_S100000x128_1_0_0_1_n_n_wf : DotDims.WF S100000x512 S512x128 S100000x128 [1] [0] [0] [1] [] []
  dot_S100000x128_S128x128_S100000x128_1_0_0_1_n_n_wf : DotDims.WF S100000x128 S128x128 S100000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x40_S100000x40_1_0_0_1_n_n_wf : DotDims.WF S100000x128 S128x40 S100000x40 [1] [0] [0] [1] [] []

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x512_S512x128_S100000x128_1_0_0_1_n_n : DotDims S100000x512 S512x128 S100000x128 where
  lhsContracting := [1]
  rhsContracting := [0]
  lhsNonContracting := [0]
  rhsNonContracting := [1]
  lhsBatch := []
  rhsBatch := []
  wf := dot_S100000x512_S512x128_S100000x128_1_0_0_1_n_n_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x40_S100000x40_1_0_0_1_n_n : DotDims S100000x128 S128x40 S100000x40 where
  lhsContracting := [1]
  rhsContracting := [0]
  lhsNonContracting := [0]
  rhsNonContracting := [1]
  lhsBatch := []
  rhsBatch := []
  wf := dot_S100000x128_S128x40_S100000x40_1_0_0_1_n_n_wf

class Facts : Prop extends Facts₀ where

variable [Facts]
-- ==== Proof.KernelRun.lean ====
/-
  The idealized kernel's run, with its result named.

  Every weakly fair execution of the program terminates, and on every core the result buffer then holds what the
  last of the fourteen stretches of the program (host operations and tiled kernels in turn) leaves there, while the
  seventeen argument arrays hold what they were launched with. The contents after each stretch are the fold
  `W0, W1, …, W14` of the frame certificate; this is its run, read at one more buffer.
-/
import proofs.«171350_j70119636075235_2_alg».proof.Proof.Gen.KernelIdeal.Frame

set_option maxRecDepth 16384

noncomputable section

namespace Cert.Gcn.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: the result buffer ends at the last boundary's contents, every argument as launched. -/
theorem result_run : θ_run defs (onTc (τ := τ) (main (F := F))) ⟨m, fun _ => 0, ρ⟩ (fun r => ∀ c : Dev nD,
      r.2.mem ((c.tc : Thread nD τ).loc main_v105) = W14 m ρ c (Proc.devRef .tc main_v105)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W14 m ρ c b)
    (hfin := fun c s' => by
      iintro ⟨⟨Hh, -⟩, HSI⟩
      unfold StableHlo.held
      imodintro
      iapply (pointsTo_read_all (Pipeline.ucRefs τ sig) (fun b => (((c : Thread nD τ)).1, b)) (W14 m ρ c) s')
      isplitl [Hh] <;> iassumption)
    (hQ := fun s h c =>
      ⟨h c _ (mem_uc main_v105 (by decide)),
       (h c _ (mem_uc main_arg0 (by decide))).trans (W14_main_arg0 m ρ c),
       (h c _ (mem_uc main_arg1 (by decide))).trans (W14_main_arg1 m ρ c),
       (h c _ (mem_uc main_arg2 (by decide))).trans (W14_main_arg2 m ρ c),
       (h c _ (mem_uc main_arg3 (by decide))).trans (W14_main_arg3 m ρ c),
       (h c _ (mem_uc main_arg4 (by decide))).trans (W14_main_arg4 m ρ c),
       (h c _ (mem_uc main_arg5 (by decide))).trans (W14_main_arg5 m ρ c),
       (h c _ (mem_uc main_arg6 (by decide))).trans (W14_main_arg6 m ρ c),
       (h c _ (mem_uc main_arg7 (by decide))).trans (W14_main_arg7 m ρ c),
       (h c _ (mem_uc main_arg8 (by decide))).trans (W14_main_arg8 m ρ c),
       (h c _ (mem_uc main_arg9 (by decide))).trans (W14_main_arg9 m ρ c),
       (h c _ (mem_uc main_arg10 (by decide))).trans (W14_main_arg10 m ρ c),
       (h c _ (mem_uc main_arg11 (by decide))).trans (W14_main_arg11 m ρ c),
       (h c _ (mem_uc main_arg12 (by decide))).trans (W14_main_arg12 m ρ c),
       (h c _ (mem_uc main_arg13 (by decide))).trans (W14_main_arg13 m ρ c),
       (h c _ (mem_uc main_arg14 (by decide))).trans (W14_main_arg14 m ρ c),
       (h c _ (mem_uc main_arg15 (by decide))).trans (W14_main_arg15 m ρ c),
       (h c _ (mem_uc main_arg16 (by decide))).trans (W14_main_arg16 m ρ c)⟩)

end Cert.Gcn.Run

end
-- ==== Proof.ReferenceStretches.lean ====
/-
  The reference program cut into eight stretches, and the buffer contents after each.

  The reference computes the whole network as one straight line of host operations on arrays with one row per
  node or per edge. Read as ONE term of its arguments that line is enormous, since every layer's output is read
  several times by the next. Read a stretch at a time it is small: the contents of the buffers after the line are the
  contents after its last stretch, computed from the contents after the stretch before it, and so on back to the
  launch. The stretches end where the network's layers do: the index arrays and degrees; the edge normalisation; the
  first layer and its product with the next weights; a neighbourhood sum; what follows it; the next product and
  sum; what follows that; the output head. A buffer that no operation of a stretch writes passes through it
  unchanged, so a buffer nothing has written yet still holds its launch contents.
-/
import proofs.«171350_j70119636075235_2_alg».proof.Proof.ReferenceOps
import Idealize.ShloMosaic.Lib.Pipeline.Frame

noncomputable section

namespace Cert.Gcn.RefRun

open Cert.ReferenceIdeal Cert.ReferenceIdeal.Gen Cert.ReferenceIdeal.Value
open Idealize.ShloMosaic Idealize.ShloMosaic.TcCoe Idealize.SL.Sem Idealize.ShloMosaic.StableHlo

variable {F : FTy → Type} [FloatOps F]

/-! ## The stretches -/

/-- The index arrays with a self loop per node, the edge weights with the loops' weight one, the weighted in-degree and its inverse square root. -/
abbrev segA1 : List (HloOp τ sig (Elt F)) :=
  [ nullary main_v0 (iotaInDim S100000 32 0),
    unary main_arg1 main_v1 ((extractStridedSlice S1x1600000 ![0, 0] · slices_S2x1600000_S1x1600000_0_0) : (⟨S2x1600000, .i32⟩ : BufTy).Contents (Elt F) → (⟨S1x1600000, .i32⟩ : BufTy).Contents (Elt F)),
    reshape main_v1 main_v2 rfl shapeCasts_S1x1600000_S1600000,
    binary main_v2 main_v0 main_v3 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    unary main_arg1 main_v4 ((extractStridedSlice S1x1600000 ![1, 0] · slices_S2x1600000_S1x1600000_1_0) : (⟨S2x1600000, .i32⟩ : BufTy).Contents (Elt F) → (⟨S1x1600000, .i32⟩ : BufTy).Contents (Elt F)),
    reshape main_v4 main_v5 rfl shapeCasts_S1x1600000_S1600000,
    binary main_v5 main_v0 main_v6 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    nullary main_cst (constant S_ .f32 0x3F800000#32),
    unary main_cst main_v7 (broadcastInDim S100000 ![] bcast_S_S100000 : (⟨S_, .f32⟩ : BufTy).Contents (Elt F) → (⟨S100000, .f32⟩ : BufTy).Contents (Elt F)),
    binary main_arg2 main_v7 main_v8 ((fun a b => concatenate S1700000 0 [⟨S1600000, a⟩, ⟨S100000, b⟩] concatenates_S1600000_S100000_S1700000_d0) : (⟨S1600000, .f32⟩ : BufTy).Contents (Elt F) → (⟨S100000, .f32⟩ : BufTy).Contents (Elt F) → (⟨S1700000, .f32⟩ : BufTy).Contents (Elt F)),
    nullary main_cst_0 (constant S_ .f32 0x00000000#32),
    unary main_cst_0 main_v9 (broadcastInDim S100000 ![] bcast_S_S100000 : (⟨S_, .f32⟩ : BufTy).Contents (Elt F) → (⟨S100000, .f32⟩ : BufTy).Contents (Elt F)),
    unary main_v6 main_v10 (broadcastInDim S1700000x1 ![0] bcast_S1700000_S1700000x1_0 : (⟨S1700000, .i32⟩ : BufTy).Contents (Elt F) → (⟨S1700000x1, .i32⟩ : BufTy).Contents (Elt F)),
    ternary main_v9 main_v10 main_v8 main_v11 ((fun x i u => Host.scatterAdd scatter_S100000_S1700000x1_S1700000_n_0_0_1 x i u) : (⟨S100000, .f32⟩ : BufTy).Contents (Elt F) → (⟨S1700000x1, .i32⟩ : BufTy).Contents (Elt F) → (⟨S1700000, .f32⟩ : BufTy).Contents (Elt F) → (⟨S100000, .f32⟩ : BufTy).Contents (Elt F)),
    nullary main_cst_1 (constant S_ .f32 0x00000000#32),
    unary main_cst_1 main_v12 (broadcastInDim S100000 ![] bcast_S_S100000 : (⟨S_, .f32⟩ : BufTy).Contents (Elt F) → (⟨S100000, .f32⟩ : BufTy).Contents (Elt F)),
    binary main_v11 main_v12 main_v13 (cmpf .ogt : (⟨S100000, .f32⟩ : BufTy).Contents (Elt F) → (⟨S100000, .f32⟩ : BufTy).Contents (Elt F) → (⟨S100000, .i1⟩ : BufTy).Contents (Elt F)),
    nullary main_cst_2 (constant S_ .f32 0x2B8CBCCC#32),
    unary main_cst_2 main_v14 (broadcastInDim S100000 ![] bcast_S_S100000 : (⟨S_, .f32⟩ : BufTy).Contents (Elt F) → (⟨S100000, .f32⟩ : BufTy).Contents (Elt F)),
    binary main_v11 main_v14 main_v15 (maximumf : (⟨S100000, .f32⟩ : BufTy).Contents (Elt F) → (⟨S100000, .f32⟩ : BufTy).Contents (Elt F) → (⟨S100000, .f32⟩ : BufTy).Contents (Elt F)),
    unary main_v15 main_v16 (Host.rsqrt : (⟨S100000, .f32⟩ : BufTy).Contents (Elt F) → (⟨S100000, .f32⟩ : BufTy).Contents (Elt F)),
    nullary main_cst_3 (constant S_ .f32 0x00000000#32),
    TRef.unary (TRef.of (T := ⟨S_, .f32⟩) main_cst_3) (TRef.of (T := ⟨S_, .f32⟩) main_call0_v0) id,
    TRef.unary (TRef.of (T := ⟨S_, .f32⟩) main_call0_v0) (TRef.of (T := ⟨S100000, .f32⟩) main_call0_v1) (broadcastInDim S100000 ![] bcast_S_S100000),
    TRef.ternary (TRef.of (T := ⟨S100000, .i1⟩) main_v13) (TRef.of (T := ⟨S100000, .f32⟩) main_v16) (TRef.of (T := ⟨S100000, .f32⟩) main_call0_v1) (TRef.of (T := ⟨S100000, .f32⟩) main_v17) select ]
/-- The buffers these operations write. -/
abbrev segA1_W : List (Ref sig .tc) := [main_v0, main_v1, main_v2, main_v3, main_v4, main_v5, main_v6, main_cst, main_v7, main_v8, main_cst_0, main_v9, main_v10, main_v11, main_cst_1, main_v12, main_v13, main_cst_2, main_v14, main_v15, main_v16, main_cst_3, main_call0_v0, main_call0_v1, main_v17]

/-- The edge normalisation: the inverse root degree at each edge's two ends times the edge weight. -/
abbrev segA2 : List (HloOp τ sig (Elt F)) :=
  [ nullary main_c (constantI S_ 32 0#32),
    unary main_c main_v18 (broadcastInDim S1700000 ![] bcast_S_S1700000 : (⟨S_, .i32⟩ : BufTy).Contents (Elt F) → (⟨S1700000, .i32⟩ : BufTy).Contents (Elt F)),
    binary main_v3 main_v18 main_v19 (cmpi .slt : (⟨S1700000, .i32⟩ : BufTy).Contents (Elt F) → (⟨S1700000, .i32⟩ : BufTy).Contents (Elt F) → (⟨S1700000, .i1⟩ : BufTy).Contents (Elt F)),
    nullary main_c_4 (constantI S_ 32 100000#32),
    unary main_c_4 main_v20 (broadcastInDim S1700000 ![] bcast_S_S1700000 : (⟨S_, .i32⟩ : BufTy).Contents (Elt F) → (⟨S1700000, .i32⟩ : BufTy).Contents (Elt F)),
    binary main_v3 main_v20 main_v21 (addi : (⟨S1700000, .i32⟩ : BufTy).Contents (Elt F) → (⟨S1700000, .i32⟩ : BufTy).Contents (Elt F) → (⟨S1700000, .i32⟩ : BufTy).Contents (Elt F)),
    ternary main_v19 main_v21 main_v3 main_v22 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v22 main_v23 (broadcastInDim S1700000x1 ![0] bcast_S1700000_S1700000x1_0 : (⟨S1700000, .i32⟩ : BufTy).Contents (Elt F) → (⟨S1700000x1, .i32⟩ : BufTy).Contents (Elt F)),
    binary main_v17 main_v23 main_v24 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    binary main_v24 main_v8 main_v25 (mulf : (⟨S1700000, .f32⟩ : BufTy).Contents (Elt F) → (⟨S1700000, .f32⟩ : BufTy).Contents (Elt F) → (⟨S1700000, .f32⟩ : BufTy).Contents (Elt F)),
    nullary main_c_5 (constantI S_ 32 0#32),
    unary main_c_5 main_v26 (broadcastInDim S1700000 ![] bcast_S_S1700000 : (⟨S_, .i32⟩ : BufTy).Contents (Elt F) → (⟨S1700000, .i32⟩ : BufTy).Contents (Elt F)),
    binary main_v6 main_v26 main_v27 (cmpi .slt : (⟨S1700000, .i32⟩ : BufTy).Contents (Elt F) → (⟨S1700000, .i32⟩ : BufTy).Contents (Elt F) → (⟨S1700000, .i1⟩ : BufTy).Contents (Elt F)),
    nullary main_c_6 (constantI S_ 32 100000#32),
    unary main_c_6 main_v28 (broadcastInDim S1700000 ![] bcast_S_S1700000 : (⟨S_, .i32⟩ : BufTy).Contents (Elt F) → (⟨S1700000, .i32⟩ : BufTy).Contents (Elt F)),
    binary main_v6 main_v28 main_v29 (addi : (⟨S1700000, .i32⟩ : BufTy).Contents (Elt F) → (⟨S1700000, .i32⟩ : BufTy).Contents (Elt F) → (⟨S1700000, .i32⟩ : BufTy).Contents (Elt F)),
    ternary main_v27 main_v29 main_v6 main_v30 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v30 main_v31 (broadcastInDim S1700000x1 ![0] bcast_S1700000_S1700000x1_0 : (⟨S1700000, .i32⟩ : BufTy).Contents (Elt F) → (⟨S1700000x1, .i32⟩ : BufTy).Contents (Elt F)),
    binary main_v17 main_v31 main_v32 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    binary main_v25 main_v32 main_v33 (mulf : (⟨S1700000, .f32⟩ : BufTy).Contents (Elt F) → (⟨S1700000, .f32⟩ : BufTy).Contents (Elt F) → (⟨S1700000, .f32⟩ : BufTy).Contents (Elt F)) ]
/-- The buffers these operations write. -/
abbrev segA2_W : List (Ref sig .tc) := [main_c, main_v18, main_v19, main_c_4, main_v20, main_v21, main_v22, main_v23, main_v24, main_v25, main_c_5, main_v26, main_v27, main_c_6, main_v28, main_v29, main_v30, main_v31, main_v32, main_v33]

/-- The first layer on every node, and its product with the second layer's weights. -/
abbrev segB : List (HloOp τ sig (Elt F)) :=
  [ binary main_arg0 main_arg3 main_v34 ((fun l r => Host.dotGeneral dot_S100000x512_S512x128_S100000x128_1_0_0_1_n_n none l r) : (⟨S100000x512, .f32⟩ : BufTy).Contents (Elt F) → (⟨S512x128, .f32⟩ : BufTy).Contents (Elt F) → (⟨S100000x128, .f32⟩ : BufTy).Contents (Elt F)),
    unary main_arg4 main_v35 (broadcastInDim S1x128 ![1] bcast_S128_S1x128_1 : (⟨S128, .f32⟩ : BufTy).Contents (Elt F) → (⟨S1x128, .f32⟩ : BufTy).Contents (Elt F)),
    unary main_v35 main_v36 (broadcastInDim S100000x128 ![0, 1] bcast_S1x128_S100000x128_0_1 : (⟨S1x128, .f32⟩ : BufTy).Contents (Elt F) → (⟨S100000x128, .f32⟩ : BufTy).Contents (Elt F)),
    binary main_v34 main_v36 main_v37 (addf : (⟨S100000x128, .f32⟩ : BufTy).Contents (Elt F) → (⟨S100000x128, .f32⟩ : BufTy).Contents (Elt F) → (⟨S100000x128, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S100000x128, .f32⟩) main_call1_v0) (broadcastInDim S100000x128 ![] bcast_S_S100000x128),
    TRef.binary (TRef.of (T := ⟨S100000x128, .f32⟩) main_v37) (TRef.of (T := ⟨S100000x128, .f32⟩) main_call1_v0) (TRef.of (T := ⟨S100000x128, .f32⟩) main_v38) maximumf,
    unary main_arg7 main_v39 (broadcastInDim S1x128 ![1] bcast_S128_S1x128_1 : (⟨S128, .f32⟩ : BufTy).Contents (Elt F) → (⟨S1x128, .f32⟩ : BufTy).Contents (Elt F)),
    unary main_v39 main_v40 (broadcastInDim S100000x128 ![0, 1] bcast_S1x128_S100000x128_0_1 : (⟨S1x128, .f32⟩ : BufTy).Contents (Elt F) → (⟨S100000x128, .f32⟩ : BufTy).Contents (Elt F)),
    binary main_v38 main_v40 main_v41 (subf : (⟨S100000x128, .f32⟩ : BufTy).Contents (Elt F) → (⟨S100000x128, .f32⟩ : BufTy).Contents (Elt F) → (⟨S100000x128, .f32⟩ : BufTy).Contents (Elt F)),
    nullary main_cst_7 (constant S_ .f32 0x3727C5AC#32),
    unary main_cst_7 main_v42 (broadcastInDim S128 ![] bcast_S_S128 : (⟨S_, .f32⟩ : BufTy).Contents (Elt F) → (⟨S128, .f32⟩ : BufTy).Contents (Elt F)),
    binary main_arg8 main_v42 main_v43 (addf : (⟨S128, .f32⟩ : BufTy).Contents (Elt F) → (⟨S128, .f32⟩ : BufTy).Contents (Elt F) → (⟨S128, .f32⟩ : BufTy).Contents (Elt F)),
    unary main_v43 main_v44 (Host.rsqrt : (⟨S128, .f32⟩ : BufTy).Contents (Elt F) → (⟨S128, .f32⟩ : BufTy).Contents (Elt F)),
    unary main_v44 main_v45 (broadcastInDim S1x128 ![1] bcast_S128_S1x128_1 : (⟨S128, .f32⟩ : BufTy).Contents (Elt F) → (⟨S1x128, .f32⟩ : BufTy).Contents (Elt F)),
    unary main_v45 main_v46 (broadcastInDim S100000x128 ![0, 1] bcast_S1x128_S100000x128_0_1 : (⟨S1x128, .f32⟩ : BufTy).Contents (Elt F) → (⟨S100000x128, .f32⟩ : BufTy).Contents (Elt F)),
    binary main_v41 main_v46 main_v47 (mulf : (⟨S100000x128, .f32⟩ : BufTy).Contents (Elt F) → (⟨S100000x128, .f32⟩ : BufTy).Contents (Elt F) → (⟨S100000x128, .f32⟩ : BufTy).Contents (Elt F)),
    unary main_arg5 main_v48 (broadcastInDim S1x128 ![1] bcast_S128_S1x128_1 : (⟨S128, .f32⟩ : BufTy).Contents (Elt F) → (⟨S1x128, .f32⟩ : BufTy).Contents (Elt F)),
    unary main_v48 main_v49 (broadcastInDim S100000x128 ![0, 1] bcast_S1x128_S100000x128_0_1 : (⟨S1x128, .f32⟩ : BufTy).Contents (Elt F) → (⟨S100000x128, .f32⟩ : BufTy).Contents (Elt F)),
    binary main_v47 main_v49 main_v50 (mulf : (⟨S100000x128, .f32⟩ : BufTy).Contents (Elt F) → (⟨S100000x128, .f32⟩ : BufTy).Contents (Elt F) → (⟨S100000x128, .f32⟩ : BufTy).Contents (Elt F)),
    unary main_arg6 main_v51 (broadcastInDim S1x128 ![1] bcast_S128_S1x128_1 : (⟨S128, .f32⟩ : BufTy).Contents (Elt F) → (⟨S1x128, .f32⟩ : BufTy).Contents (Elt F)),
    unary main_v51 main_v52 (broadcastInDim S100000x128 ![0, 1] bcast_S1x128_S100000x128_0_1 : (⟨S1x128, .f32⟩ : BufTy).Contents (Elt F) → (⟨S100000x128, .f32⟩ : BufTy).Contents (Elt F)),
    binary main_v50 main_v52 main_v53 (addf : (⟨S100000x128, .f32⟩ : BufTy).Contents (Elt F) → (⟨S100000x128, .f32⟩ : BufTy).Contents (Elt F) → (⟨S100000x128, .f32⟩ : BufTy).Contents (Elt F)),
    unary main_arg9 main_v54 ((extractStridedSlice S1x128x128 ![0, 0, 0] · slices_S2x128x128_S1x128x128_0_0_0) : (⟨S2x128x128, .f32⟩ : BufTy).Contents (Elt F) → (⟨S1x128x128, .f32⟩ : BufTy).Contents (Elt F)),
    reshape main_v54 main_v55 rfl shapeCasts_S1x128x128_S128x128,
    binary main_v53 main_v55 main_v56 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)) ]
/-- The buffers these operations write. -/
abbrev segB_W : List (Ref sig .tc) := [main_v34, main_v35, main_v36, main_v37, main_call1_cst, main_call1_v0, main_v38, main_v39, main_v40, main_v41, main_cst_7, main_v42, main_v43, main_v44, main_v45, main_v46, main_v47, main_v48, main_v49, main_v50, main_v51, main_v52, main_v53, main_v54, main_v55, main_v56]

/-- The first neighbourhood sum: gather the rows at the edges' sources, scale by the edge normalisation, add into the targets. -/
abbrev segC : List (HloOp τ sig (Elt F)) :=
  [ nullary main_c_8 (constantI S_ 32 0#32),
    unary main_c_8 main_v57 (broadcastInDim S1700000 ![] bcast_S_S1700000 : (⟨S_, .i32⟩ : BufTy).Contents (Elt F) → (⟨S1700000, .i32⟩ : BufTy).Contents (Elt F)),
    binary main_v3 main_v57 main_v58 (cmpi .slt : (⟨S1700000, .i32⟩ : BufTy).Contents (Elt F) → (⟨S1700000, .i32⟩ : BufTy).Contents (Elt F) → (⟨S1700000, .i1⟩ : BufTy).Contents (Elt F)),
    nullary main_c_9 (constantI S_ 32 100000#32),
    unary main_c_9 main_v59 (broadcastInDim S1700000 ![] bcast_S_S1700000 : (⟨S_, .i32⟩ : BufTy).Contents (Elt F) → (⟨S1700000, .i32⟩ : BufTy).Contents (Elt F)),
    binary main_v3 main_v59 main_v60 (addi : (⟨S1700000, .i32⟩ : BufTy).Contents (Elt F) → (⟨S1700000, .i32⟩ : BufTy).Contents (Elt F) → (⟨S1700000, .i32⟩ : BufTy).Contents (Elt F)),
    ternary main_v58 main_v60 main_v3 main_v61 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v61 main_v62 (broadcastInDim S1700000x1 ![0] bcast_S1700000_S1700000x1_0 : (⟨S1700000, .i32⟩ : BufTy).Contents (Elt F) → (⟨S1700000x1, .i32⟩ : BufTy).Contents (Elt F)),
    binary main_v56 main_v62 main_v63 ((fun x i => Host.gather gather_S100000x128_S1700000x1_S1700000x128_1_0_n_n_0_1_1128 x i) : (⟨S100000x128, .f32⟩ : BufTy).Contents (Elt F) → (⟨S1700000x1, .i32⟩ : BufTy).Contents (Elt F) → (⟨S1700000x128, .f32⟩ : BufTy).Contents (Elt F)),
    unary main_v33 main_v64 (broadcastInDim S1700000x1 ![0] bcast_S1700000_S1700000x1_0 : (⟨S1700000, .f32⟩ : BufTy).Contents (Elt F) → (⟨S1700000x1, .f32⟩ : BufTy).Contents (Elt F)),
    unary main_v64 main_v65 (broadcastInDim S1700000x128 ![0, 1] bcast_S1700000x1_S1700000x128_0_1 : (⟨S1700000x1, .f32⟩ : BufTy).Contents (Elt F) → (⟨S1700000x128, .f32⟩ : BufTy).Contents (Elt F)),
    binary main_v63 main_v65 main_v66 (mulf : (⟨S1700000x128, .f32⟩ : BufTy).Contents (Elt F) → (⟨S1700000x128, .f32⟩ : BufTy).Contents (Elt F) → (⟨S1700000x128, .f32⟩ : BufTy).Contents (Elt F)),
    nullary main_cst_10 (constant S_ .f32 0x00000000#32),
    unary main_cst_10 main_v67 (broadcastInDim S100000x128 ![] bcast_S_S100000x128 : (⟨S_, .f32⟩ : BufTy).Contents (Elt F) → (⟨S100000x128, .f32⟩ : BufTy).Contents (Elt F)),
    unary main_v6 main_v68 (broadcastInDim S1700000x1 ![0] bcast_S1700000_S1700000x1_0 : (⟨S1700000, .i32⟩ : BufTy).Contents (Elt F) → (⟨S1700000x1, .i32⟩ : BufTy).Contents (Elt F)),
    ternary main_v67 main_v68 main_v66 main_v69 ((fun x i u => Host.scatterAdd scatter_S100000x128_S1700000x1_S1700000x128_1_0_0_1 x i u) : (⟨S100000x128, .f32⟩ : BufTy).Contents (Elt F) → (⟨S1700000x1, .i32⟩ : BufTy).Contents (Elt F) → (⟨S1700000x128, .f32⟩ : BufTy).Contents (Elt F) → (⟨S100000x128, .f32⟩ : BufTy).Contents (Elt F)) ]
/-- The buffers these operations write. -/
abbrev segC_W : List (Ref sig .tc) := [main_c_8, main_v57, main_v58, main_c_9, main_v59, main_v60, main_v61, main_v62, main_v63, main_v64, main_v65, main_v66, main_cst_10, main_v67, main_v68, main_v69]

/-- What follows the first sum: bias, rectifier, normalisation by the second layer's running statistics. -/
abbrev segD : List (HloOp τ sig (Elt F)) :=
  [ unary main_arg10 main_v70 ((extractStridedSlice S1x128 ![0, 0] · slices_S2x128_S1x128_0_0) : (⟨S2x128, .f32⟩ : BufTy).Contents (Elt F) → (⟨S1x128, .f32⟩ : BufTy).Contents (Elt F)),
    reshape main_v70 main_v71 rfl shapeCasts_S1x128_S128,
    unary main_v71 main_v72 (broadcastInDim S1x128 ![1] bcast_S128_S1x128_1 : (⟨S128, .f32⟩ : BufTy).Contents (Elt F) → (⟨S1x128, .f32⟩ : BufTy).Contents (Elt F)),
    unary main_v72 main_v73 (broadcastInDim S100000x128 ![0, 1] bcast_S1x128_S100000x128_0_1 : (⟨S1x128, .f32⟩ : BufTy).Contents (Elt F) → (⟨S100000x128, .f32⟩ : BufTy).Contents (Elt F)),
    binary main_v69 main_v73 main_v74 (addf : (⟨S100000x128, .f32⟩ : BufTy).Contents (Elt F) → (⟨S100000x128, .f32⟩ : BufTy).Contents (Elt F) → (⟨S100000x128, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S100000x128, .f32⟩) main_call2_v0) (broadcastInDim S100000x128 ![] bcast_S_S100000x128),
    TRef.binary (TRef.of (T := ⟨S100000x128, .f32⟩) main_v74) (TRef.of (T := ⟨S100000x128, .f32⟩) main_call2_v0) (TRef.of (T := ⟨S100000x128, .f32⟩) main_v75) maximumf,
    unary main_arg11 main_v76 ((extractStridedSlice S1x128 ![0, 0] · slices_S2x128_S1x128_0_0) : (⟨S2x128, .f32⟩ : BufTy).Contents (Elt F) → (⟨S1x128, .f32⟩ : BufTy).Contents (Elt F)),
    reshape main_v76 main_v77 rfl shapeCasts_S1x128_S128,
    unary main_arg12 main_v78 ((extractStridedSlice S1x128 ![0, 0] · slices_S2x128_S1x128_0_0) : (⟨S2x128, .f32⟩ : BufTy).Contents (Elt F) → (⟨S1x128, .f32⟩ : BufTy).Contents (Elt F)),
    reshape main_v78 main_v79 rfl shapeCasts_S1x128_S128,
    unary main_arg13 main_v80 ((extractStridedSlice S1x128 ![0, 0] · slices_S2x128_S1x128_0_0) : (⟨S2x128, .f32⟩ : BufTy).Contents (Elt F) → (⟨S1x128, .f32⟩ : BufTy).Contents (Elt F)),
    reshape main_v80 main_v81 rfl shapeCasts_S1x128_S128,
    unary main_arg14 main_v82 ((extractStridedSlice S1x128 ![0, 0] · slices_S2x128_S1x128_0_0) : (⟨S2x128, .f32⟩ : BufTy).Contents (Elt F) → (⟨S1x128, .f32⟩ : BufTy).Contents (Elt F)),
    reshape main_v82 main_v83 rfl shapeCasts_S1x128_S128,
    unary main_v81 main_v84 (broadcastInDim S1x128 ![1] bcast_S128_S1x128_1 : (⟨S128, .f32⟩ : BufTy).Contents (Elt F) → (⟨S1x128, .f32⟩ : BufTy).Contents (Elt F)),
    unary main_v84 main_v85 (broadcastInDim S100000x128 ![0, 1] bcast_S1x128_S100000x128_0_1 : (⟨S1x128, .f32⟩ : BufTy).Contents (Elt F) → (⟨S100000x128, .f32⟩ : BufTy).Contents (Elt F)),
    binary main_v75 main_v85 main_v86 (subf : (⟨S100000x128, .f32⟩ : BufTy).Contents (Elt F) → (⟨S100000x128, .f32⟩ : BufTy).Contents (Elt F) → (⟨S100000x128, .f32⟩ : BufTy).Contents (Elt F)),
    nullary main_cst_11 (constant S_ .f32 0x3727C5AC#32),
    unary main_cst_11 main_v87 (broadcastInDim S128 ![] bcast_S_S128 : (⟨S_, .f32⟩ : BufTy).Contents (Elt F) → (⟨S128, .f32⟩ : BufTy).Contents (Elt F)),
    binary main_v83 main_v87 main_v88 (addf : (⟨S128, .f32⟩ : BufTy).Contents (Elt F) → (⟨S128, .f32⟩ : BufTy).Contents (Elt F) → (⟨S128, .f32⟩ : BufTy).Contents (Elt F)),
    unary main_v88 main_v89 (Host.rsqrt : (⟨S128, .f32⟩ : BufTy).Contents (Elt F) → (⟨S128, .f32⟩ : BufTy).Contents (Elt F)),
    unary main_v89 main_v90 (broadcastInDim S1x128 ![1] bcast_S128_S1x128_1 : (⟨S128, .f32⟩ : BufTy).Contents (Elt F) → (⟨S1x128, .f32⟩ : BufTy).Contents (Elt F)),
    unary main_v90 main_v91 (broadcastInDim S100000x128 ![0, 1] bcast_S1x128_S100000x128_0_1 : (⟨S1x128, .f32⟩ : BufTy).Contents (Elt F) → (⟨S100000x128, .f32⟩ : BufTy).Contents (Elt F)),
    binary main_v86 main_v91 main_v92 (mulf : (⟨S100000x128, .f32⟩ : BufTy).Contents (Elt F) → (⟨S100000x128, .f32⟩ : BufTy).Contents (Elt F) → (⟨S100000x128, .f32⟩ : BufTy).Contents (Elt F)),
    unary main_v77 main_v93 (broadcastInDim S1x128 ![1] bcast_S128_S1x128_1 : (⟨S128, .f32⟩ : BufTy).Contents (Elt F) → (⟨S1x128, .f32⟩ : BufTy).Contents (Elt F)),
    unary main_v93 main_v94 (broadcastInDim S100000x128 ![0, 1] bcast_S1x128_S100000x128_0_1 : (⟨S1x128, .f32⟩ : BufTy).Contents (Elt F) → (⟨S100000x128, .f32⟩ : BufTy).Contents (Elt F)),
    binary main_v92 main_v94 main_v95 (mulf : (⟨S100000x128, .f32⟩ : BufTy).Contents (Elt F) → (⟨S100000x128, .f32⟩ : BufTy).Contents (Elt F) → (⟨S100000x128, .f32⟩ : BufTy).Contents (Elt F)),
    unary main_v79 main_v96 (broadcastInDim S1x128 ![1] bcast_S128_S1x128_1 : (⟨S128, .f32⟩ : BufTy).Contents (Elt F) → (⟨S1x128, .f32⟩ : BufTy).Contents (Elt F)),
    unary main_v96 main_v97 (broadcastInDim S100000x128 ![0, 1] bcast_S1x128_S100000x128_0_1 : (⟨S1x128, .f32⟩ : BufTy).Contents (Elt F) → (⟨S100000x128, .f32⟩ : BufTy).Contents (Elt F)),
    binary main_v95 main_v97 main_v98 (addf : (⟨S100000x128, .f32⟩ : BufTy).Contents (Elt F) → (⟨S100000x128, .f32⟩ : BufTy).Contents (Elt F) → (⟨S100000x128, .f32⟩ : BufTy).Contents (Elt F)) ]
/-- The buffers these operations write. -/
abbrev segD_W : List (Ref sig .tc) := [main_v70, main_v71, main_v72, main_v73, main_v74, main_call2_cst, main_call2_v0, main_v75, main_v76, main_v77, main_v78, main_v79, main_v80, main_v81, main_v82, main_v83, main_v84, main_v85, main_v86, main_cst_11, main_v87, main_v88, main_v89, main_v90, main_v91, main_v92, main_v93, main_v94, main_v95, main_v96, main_v97, main_v98]

/-- The product with the third layer's weights and the second neighbourhood sum. -/
abbrev segE : List (HloOp τ sig (Elt F)) :=
  [ unary main_arg9 main_v99 ((extractStridedSlice S1x128x128 ![1, 0, 0] · slices_S2x128x128_S1x128x128_1_0_0) : (⟨S2x128x128, .f32⟩ : BufTy).Contents (Elt F) → (⟨S1x128x128, .f32⟩ : BufTy).Contents (Elt F)),
    reshape main_v99 main_v100 rfl shapeCasts_S1x128x128_S128x128,
    binary main_v98 main_v100 main_v101 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    nullary main_c_12 (constantI S_ 32 0#32),
    unary main_c_12 main_v102 (broadcastInDim S1700000 ![] bcast_S_S1700000 : (⟨S_, .i32⟩ : BufTy).Contents (Elt F) → (⟨S1700000, .i32⟩ : BufTy).Contents (Elt F)),
    binary main_v3 main_v102 main_v103 (cmpi .slt : (⟨S1700000, .i32⟩ : BufTy).Contents (Elt F) → (⟨S1700000, .i32⟩ : BufTy).Contents (Elt F) → (⟨S1700000, .i1⟩ : BufTy).Contents (Elt F)),
    nullary main_c_13 (constantI S_ 32 100000#32),
    unary main_c_13 main_v104 (broadcastInDim S1700000 ![] bcast_S_S1700000 : (⟨S_, .i32⟩ : BufTy).Contents (Elt F) → (⟨S1700000, .i32⟩ : BufTy).Contents (Elt F)),
    binary main_v3 main_v104 main_v105 (addi : (⟨S1700000, .i32⟩ : BufTy).Contents (Elt F) → (⟨S1700000, .i32⟩ : BufTy).Contents (Elt F) → (⟨S1700000, .i32⟩ : BufTy).Contents (Elt F)),
    ternary main_v103 main_v105 main_v3 main_v106 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v106 main_v107 (broadcastInDim S1700000x1 ![0] bcast_S1700000_S1700000x1_0 : (⟨S1700000, .i32⟩ : BufTy).Contents (Elt F) → (⟨S1700000x1, .i32⟩ : BufTy).Contents (Elt F)),
    binary main_v101 main_v107 main_v108 ((fun x i => Host.gather gather_S100000x128_S1700000x1_S1700000x128_1_0_n_n_0_1_1128 x i) : (⟨S100000x128, .f32⟩ : BufTy).Contents (Elt F) → (⟨S1700000x1, .i32⟩ : BufTy).Contents (Elt F) → (⟨S1700000x128, .f32⟩ : BufTy).Contents (Elt F)),
    unary main_v33 main_v109 (broadcastInDim S1700000x1 ![0] bcast_S1700000_S1700000x1_0 : (⟨S1700000, .f32⟩ : BufTy).Contents (Elt F) → (⟨S1700000x1, .f32⟩ : BufTy).Contents (Elt F)),
    unary main_v109 main_v110 (broadcastInDim S1700000x128 ![0, 1] bcast_S1700000x1_S1700000x128_0_1 : (⟨S1700000x1, .f32⟩ : BufTy).Contents (Elt F) → (⟨S1700000x128, .f32⟩ : BufTy).Contents (Elt F)),
    binary main_v108 main_v110 main_v111 (mulf : (⟨S1700000x128, .f32⟩ : BufTy).Contents (Elt F) → (⟨S1700000x128, .f32⟩ : BufTy).Contents (Elt F) → (⟨S1700000x128, .f32⟩ : BufTy).Contents (Elt F)),
    nullary main_cst_14 (constant S_ .f32 0x00000000#32),
    unary main_cst_14 main_v112 (broadcastInDim S100000x128 ![] bcast_S_S100000x128 : (⟨S_, .f32⟩ : BufTy).Contents (Elt F) → (⟨S100000x128, .f32⟩ : BufTy).Contents (Elt F)),
    unary main_v6 main_v113 (broadcastInDim S1700000x1 ![0] bcast_S1700000_S1700000x1_0 : (⟨S1700000, .i32⟩ : BufTy).Contents (Elt F) → (⟨S1700000x1, .i32⟩ : BufTy).Contents (Elt F)),
    ternary main_v112 main_v113 main_v111 main_v114 ((fun x i u => Host.scatterAdd scatter_S100000x128_S1700000x1_S1700000x128_1_0_0_1 x i u) : (⟨S100000x128, .f32⟩ : BufTy).Contents (Elt F) → (⟨S1700000x1, .i32⟩ : BufTy).Contents (Elt F) → (⟨S1700000x128, .f32⟩ : BufTy).Contents (Elt F) → (⟨S100000x128, .f32⟩ : BufTy).Contents (Elt F)) ]
/-- The buffers these operations write. -/
abbrev segE_W : List (Ref sig .tc) := [main_v99, main_v100, main_v101, main_c_12, main_v102, main_v103, main_c_13, main_v104, main_v105, main_v106, main_v107, main_v108, main_v109, main_v110, main_v111, main_cst_14, main_v112, main_v113, main_v114]

/-- What follows the second sum: bias, rectifier, normalisation by the third layer's running statistics. -/
abbrev segF : List (HloOp τ sig (Elt F)) :=
  [ unary main_arg10 main_v115 ((extractStridedSlice S1x128 ![1, 0] · slices_S2x128_S1x128_1_0) : (⟨S2x128, .f32⟩ : BufTy).Contents (Elt F) → (⟨S1x128, .f32⟩ : BufTy).Contents (Elt F)),
    reshape main_v115 main_v116 rfl shapeCasts_S1x128_S128,
    unary main_v116 main_v117 (broadcastInDim S1x128 ![1] bcast_S128_S1x128_1 : (⟨S128, .f32⟩ : BufTy).Contents (Elt F) → (⟨S1x128, .f32⟩ : BufTy).Contents (Elt F)),
    unary main_v117 main_v118 (broadcastInDim S100000x128 ![0, 1] bcast_S1x128_S100000x128_0_1 : (⟨S1x128, .f32⟩ : BufTy).Contents (Elt F) → (⟨S100000x128, .f32⟩ : BufTy).Contents (Elt F)),
    binary main_v114 main_v118 main_v119 (addf : (⟨S100000x128, .f32⟩ : BufTy).Contents (Elt F) → (⟨S100000x128, .f32⟩ : BufTy).Contents (Elt F) → (⟨S100000x128, .f32⟩ : BufTy).Contents (Elt F)),
    TRef.nullary (TRef.of (T := ⟨S_, .f32⟩) main_call3_cst) (constant S_ .f32 0x00000000#32),
    TRef.unary (TRef.of (T := ⟨S_, .f32⟩) main_call3_cst) (TRef.of (T := ⟨S100000x128, .f32⟩) main_call3_v0) (broadcastInDim S100000x128 ![] bcast_S_S100000x128),
    TRef.binary (TRef.of (T := ⟨S100000x128, .f32⟩) main_v119) (TRef.of (T := ⟨S100000x128, .f32⟩) main_call3_v0) (TRef.of (T := ⟨S100000x128, .f32⟩) main_v120) maximumf,
    unary main_arg11 main_v121 ((extractStridedSlice S1x128 ![1, 0] · slices_S2x128_S1x128_1_0) : (⟨S2x128, .f32⟩ : BufTy).Contents (Elt F) → (⟨S1x128, .f32⟩ : BufTy).Contents (Elt F)),
    reshape main_v121 main_v122 rfl shapeCasts_S1x128_S128,
    unary main_arg12 main_v123 ((extractStridedSlice S1x128 ![1, 0] · slices_S2x128_S1x128_1_0) : (⟨S2x128, .f32⟩ : BufTy).Contents (Elt F) → (⟨S1x128, .f32⟩ : BufTy).Contents (Elt F)),
    reshape main_v123 main_v124 rfl shapeCasts_S1x128_S128,
    unary main_arg13 main_v125 ((extractStridedSlice S1x128 ![1, 0] · slices_S2x128_S1x128_1_0) : (⟨S2x128, .f32⟩ : BufTy).Contents (Elt F) → (⟨S1x128, .f32⟩ : BufTy).Contents (Elt F)),
    reshape main_v125 main_v126 rfl shapeCasts_S1x128_S128,
    unary main_arg14 main_v127 ((extractStridedSlice S1x128 ![1, 0] · slices_S2x128_S1x128_1_0) : (⟨S2x128, .f32⟩ : BufTy).Contents (Elt F) → (⟨S1x128, .f32⟩ : BufTy).Contents (Elt F)),
    reshape main_v127 main_v128 rfl shapeCasts_S1x128_S128,
    unary main_v126 main_v129 (broadcastInDim S1x128 ![1] bcast_S128_S1x128_1 : (⟨S128, .f32⟩ : BufTy).Contents (Elt F) → (⟨S1x128, .f32⟩ : BufTy).Contents (Elt F)),
    unary main_v129 main_v130 (broadcastInDim S100000x128 ![0, 1] bcast_S1x128_S100000x128_0_1 : (⟨S1x128, .f32⟩ : BufTy).Contents (Elt F) → (⟨S100000x128, .f32⟩ : BufTy).Contents (Elt F)),
    binary main_v120 main_v130 main_v131 (subf : (⟨S100000x128, .f32⟩ : BufTy).Contents (Elt F) → (⟨S100000x128, .f32⟩ : BufTy).Contents (Elt F) → (⟨S100000x128, .f32⟩ : BufTy).Contents (Elt F)),
    nullary main_cst_15 (constant S_ .f32 0x3727C5AC#32),
    unary main_cst_15 main_v132 (broadcastInDim S128 ![] bcast_S_S128 : (⟨S_, .f32⟩ : BufTy).Contents (Elt F) → (⟨S128, .f32⟩ : BufTy).Contents (Elt F)),
    binary main_v128 main_v132 main_v133 (addf : (⟨S128, .f32⟩ : BufTy).Contents (Elt F) → (⟨S128, .f32⟩ : BufTy).Contents (Elt F) → (⟨S128, .f32⟩ : BufTy).Contents (Elt F)),
    unary main_v133 main_v134 (Host.rsqrt : (⟨S128, .f32⟩ : BufTy).Contents (Elt F) → (⟨S128, .f32⟩ : BufTy).Contents (Elt F)),
    unary main_v134 main_v135 (broadcastInDim S1x128 ![1] bcast_S128_S1x128_1 : (⟨S128, .f32⟩ : BufTy).Contents (Elt F) → (⟨S1x128, .f32⟩ : BufTy).Contents (Elt F)),
    unary main_v135 main_v136 (broadcastInDim S100000x128 ![0, 1] bcast_S1x128_S100000x128_0_1 : (⟨S1x128, .f32⟩ : BufTy).Contents (Elt F) → (⟨S100000x128, .f32⟩ : BufTy).Contents (Elt F)),
    binary main_v131 main_v136 main_v137 (mulf : (⟨S100000x128, .f32⟩ : BufTy).Contents (Elt F) → (⟨S100000x128, .f32⟩ : BufTy).Contents (Elt F) → (⟨S100000x128, .f32⟩ : BufTy).Contents (Elt F)),
    unary main_v122 main_v138 (broadcastInDim S1x128 ![1] bcast_S128_S1x128_1 : (⟨S128, .f32⟩ : BufTy).Contents (Elt F) → (⟨S1x128, .f32⟩ : BufTy).Contents (Elt F)),
    unary main_v138 main_v139 (broadcastInDim S100000x128 ![0, 1] bcast_S1x128_S100000x128_0_1 : (⟨S1x128, .f32⟩ : BufTy).Contents (Elt F) → (⟨S100000x128, .f32⟩ : BufTy).Contents (Elt F)),
    binary main_v137 main_v139 main_v140 (mulf : (⟨S100000x128, .f32⟩ : BufTy).Contents (Elt F) → (⟨S100000x128, .f32⟩ : BufTy).Contents (Elt F) → (⟨S100000x128, .f32⟩ : BufTy).Contents (Elt F)),
    unary main_v124 main_v141 (broadcastInDim S1x128 ![1] bcast_S128_S1x128_1 : (⟨S128, .f32⟩ : BufTy).Contents (Elt F) → (⟨S1x128, .f32⟩ : BufTy).Contents (Elt F)),
    unary main_v141 main_v142 (broadcastInDim S100000x128 ![0, 1] bcast_S1x128_S100000x128_0_1 : (⟨S1x128, .f32⟩ : BufTy).Contents (Elt F) → (⟨S100000x128, .f32⟩ : BufTy).Contents (Elt F)),
    binary main_v140 main_v142 main_v143 (addf : (⟨S100000x128, .f32⟩ : BufTy).Contents (Elt F) → (⟨S100000x128, .f32⟩ : BufTy).Contents (Elt F) → (⟨S100000x128, .f32⟩ : BufTy).Contents (Elt F)) ]
/-- The buffers these operations write. -/
abbrev segF_W : List (Ref sig .tc) := [main_v115, main_v116, main_v117, main_v118, main_v119, main_call3_cst, main_call3_v0, main_v120, main_v121, main_v122, main_v123, main_v124, main_v125, main_v126, main_v127, main_v128, main_v129, main_v130, main_v131, main_cst_15, main_v132, main_v133, main_v134, main_v135, main_v136, main_v137, main_v138, main_v139, main_v140, main_v141, main_v142, main_v143]

/-- The output head: product, bias, and the row-wise log-softmax. -/
abbrev segG : List (HloOp τ sig (Elt F)) :=
  [ binary main_v143 main_arg15 main_v144 ((fun l r => Host.dotGeneral dot_S100000x128_S128x40_S100000x40_1_0_0_1_n_n none l r) : (⟨S100000x128, .f32⟩ : BufTy).Contents (Elt F) → (⟨S128x40, .f32⟩ : BufTy).Contents (Elt F) → (⟨S100000x40, .f32⟩ : BufTy).Contents (Elt F)),
    unary main_arg16 main_v145 (broadcastInDim S1x40 ![1] bcast_S40_S1x40_1 : (⟨S40, .f32⟩ : BufTy).Contents (Elt F) → (⟨S1x40, .f32⟩ : BufTy).Contents (Elt F)),
    unary main_v145 main_v146 (broadcastInDim S100000x40 ![0, 1] bcast_S1x40_S100000x40_0_1 : (⟨S1x40, .f32⟩ : BufTy).Contents (Elt F) → (⟨S100000x40, .f32⟩ : BufTy).Contents (Elt F)),
    binary main_v144 main_v146 main_v147 (addf : (⟨S100000x40, .f32⟩ : BufTy).Contents (Elt F) → (⟨S100000x40, .f32⟩ : BufTy).Contents (Elt F) → (⟨S100000x40, .f32⟩ : BufTy).Contents (Elt F)),
    TRef.nullary (TRef.of (T := ⟨S_, .f32⟩) main_call4_cst) (constant S_ .f32 0xFF800000#32),
    TRef.binary (TRef.of (T := ⟨S100000x40, .f32⟩) main_v147) (TRef.of (T := ⟨S_, .f32⟩) main_call4_cst) (TRef.of (T := ⟨S100000, .f32⟩) main_call4_v0) (fun x v => Host.reduce FloatOps.maximumf x v reducesTo_S100000x40_S100000_d1 h_S_),
    TRef.nullary (TRef.of (T := ⟨S_, .f32⟩) main_call4_cst_0) (constant S_ .f32 0xFF800000#32),
    TRef.unary (TRef.of (T := ⟨S_, .f32⟩) main_call4_cst_0) (TRef.of (T := ⟨S100000, .f32⟩) main_call4_v1) (broadcastInDim S100000 ![] bcast_S_S100000),
    TRef.binary (TRef.of (T := ⟨S100000, .f32⟩) main_call4_v1) (TRef.of (T := ⟨S100000, .f32⟩) main_call4_v0) (TRef.of (T := ⟨S100000, .f32⟩) main_call4_v2) maximumf,
    TRef.unary (TRef.of (T := ⟨S100000, .f32⟩) main_call4_v2) (TRef.of (T := ⟨S100000x1, .f32⟩) main_call4_v3) (broadcastInDim S100000x1 ![0] bcast_S100000_S100000x1_0),
    TRef.unary (TRef.of (T := ⟨S100000x1, .f32⟩) main_call4_v3) (TRef.of (T := ⟨S100000x40, .f32⟩) main_call4_v4) (broadcastInDim S100000x40 ![0, 1] bcast_S100000x1_S100000x40_0_1),
    TRef.binary (TRef.of (T := ⟨S100000x40, .f32⟩) main_v147) (TRef.of (T := ⟨S100000x40, .f32⟩) main_call4_v4) (TRef.of (T := ⟨S100000x40, .f32⟩) main_call4_v5) subf,
    TRef.unary (TRef.of (T := ⟨S100000x40, .f32⟩) main_call4_v5) (TRef.of (T := ⟨S100000x40, .f32⟩) main_call4_v6) Host.exp,
    TRef.nullary (TRef.of (T := ⟨S_, .f32⟩) main_call4_cst_1) (constant S_ .f32 0x00000000#32),
    TRef.binary (TRef.of (T := ⟨S100000x40, .f32⟩) main_call4_v6) (TRef.of (T := ⟨S_, .f32⟩) main_call4_cst_1) (TRef.of (T := ⟨S100000, .f32⟩) main_call4_v7) (fun x v => Host.reduceAdd x v reducesTo_S100000x40_S100000_d1 h_S_),
    TRef.unary (TRef.of (T := ⟨S100000, .f32⟩) main_call4_v7) (TRef.of (T := ⟨S100000x1, .f32⟩) main_call4_v8) (broadcastInDim S100000x1 ![0] bcast_S100000_S100000x1_0),
    TRef.unary (TRef.of (T := ⟨S100000x1, .f32⟩) main_call4_v8) (TRef.of (T := ⟨S100000x1, .f32⟩) main_call4_v9) Host.log,
    TRef.unary (TRef.of (T := ⟨S100000x1, .f32⟩) main_call4_v9) (TRef.of (T := ⟨S100000x40, .f32⟩) main_call4_v10) (broadcastInDim S100000x40 ![0, 1] bcast_S100000x1_S100000x40_0_1),
    TRef.binary (TRef.of (T := ⟨S100000x40, .f32⟩) main_call4_v5) (TRef.of (T := ⟨S100000x40, .f32⟩) main_call4_v10) (TRef.of (T := ⟨S100000x40, .f32⟩) main_v148) subf ]
/-- The buffers these operations write. -/
abbrev segG_W : List (Ref sig .tc) := [main_v144, main_v145, main_v146, main_v147, main_call4_cst, main_call4_v0, main_call4_cst_0, main_call4_v1, main_call4_v2, main_call4_v3, main_call4_v4, main_call4_v5, main_call4_v6, main_call4_cst_1, main_call4_v7, main_call4_v8, main_call4_v9, main_call4_v10, main_v148]

set_option maxRecDepth 8192 in
/-- The program is these stretches in a row. -/
theorem ops_split : (ops : List (HloOp τ sig (Elt F))) = segA1 ++ (segA2 ++ (segB ++ (segC ++ (segD ++ (segE ++ (segF ++ segG)))))) := rfl

/-! ## Which buffers a stretch writes -/

/-- Every operation of the stretch writes into the listed buffers. -/
theorem segA1_writes : (segA1 : List (HloOp τ sig (Elt F))).Forall fun op =>
    op.writes ⊆ (segA1_W.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_, ?_, ?_⟩ <;>
    (simp only [nullary_writes, unary_writes, binary_writes, ternary_writes, quaternary_writes, reshape_writes,
      binaryIndexed_writes, nary_writes, unaryIndexed_writes, Finset.singleton_subset_iff, List.mem_toFinset]
     exact List.mem_map_of_mem (by decide))

/-- Every operation of the stretch writes into the listed buffers. -/
theorem segA2_writes : (segA2 : List (HloOp τ sig (Elt F))).Forall fun op =>
    op.writes ⊆ (segA2_W.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_⟩ <;>
    (simp only [nullary_writes, unary_writes, binary_writes, ternary_writes, quaternary_writes, reshape_writes,
      binaryIndexed_writes, nary_writes, unaryIndexed_writes, Finset.singleton_subset_iff, List.mem_toFinset]
     exact List.mem_map_of_mem (by decide))

/-- Every operation of the stretch writes into the listed buffers. -/
theorem segB_writes : (segB : List (HloOp τ sig (Elt F))).Forall fun op =>
    op.writes ⊆ (segB_W.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_, ?_, ?_, ?_⟩ <;>
    (simp only [nullary_writes, unary_writes, binary_writes, ternary_writes, quaternary_writes, reshape_writes,
      binaryIndexed_writes, nary_writes, unaryIndexed_writes, Finset.singleton_subset_iff, List.mem_toFinset]
     exact List.mem_map_of_mem (by decide))

/-- Every operation of the stretch writes into the listed buffers. -/
theorem segC_writes : (segC : List (HloOp τ sig (Elt F))).Forall fun op =>
    op.writes ⊆ (segC_W.map (Proc.devRef (τ := τ) .tc)).toFinset := by
  simp only [List.Forall]
  refine ⟨?_, ?_, ?_, ?_, ?_, ?_, ?_, ?_, ?_, ?_, ?_, ?_, ?_, ?_, ?_, ?_⟩ <;>
    (simp only [nullary_writes, unary_writes, binary_writes, ternary_writes, quaternary_writes, reshape_writes,
      binaryIndexed_writes, nary_writes, unaryIndexed_writes, Finset.singleton_subset_iff, List.mem_toFinset]
     exact List.mem_map_of_mem (by decide))

/-- Every operation of the stretch writes into the listed buffers. -/
theorem segD_writes : (segD : List (HloOp τ sig (Elt F))).Forall fun op =>
    op.writes ⊆ (segD_W.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;>
    (simp only [nullary_writes, unary_writes, binary_writes, ternary_writes, quaternary_writes, reshape_writes,
      binaryIndexed_writes, nary_writes, unaryIndexed_writes, Finset.singleton_subset_iff, List.mem_toFinset]
     exact List.mem_map_of_mem (by decide))

/-- Every operation of the stretch writes into the listed buffers. -/
theorem segE_writes : (segE : List (HloOp τ sig (Elt F))).Forall fun op =>
    op.writes ⊆ (segE_W.map (Proc.devRef (τ := τ) .tc)).toFinset := by
  simp only [List.Forall]
  refine ⟨?_, ?_, ?_, ?_, ?_, ?_, ?_, ?_, ?_, ?_, ?_, ?_, ?_, ?_, ?_, ?_, ?_, ?_, ?_⟩ <;>
    (simp only [nullary_writes, unary_writes, binary_writes, ternary_writes, quaternary_writes, reshape_writes,
      binaryIndexed_writes, nary_writes, unaryIndexed_writes, Finset.singleton_subset_iff, List.mem_toFinset]
     exact List.mem_map_of_mem (by decide))

/-- Every operation of the stretch writes into the listed buffers. -/
theorem segF_writes : (segF : List (HloOp τ sig (Elt F))).Forall fun op =>
    op.writes ⊆ (segF_W.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;>
    (simp only [nullary_writes, unary_writes, binary_writes, ternary_writes, quaternary_writes, reshape_writes,
      binaryIndexed_writes, nary_writes, unaryIndexed_writes, Finset.singleton_subset_iff, List.mem_toFinset]
     exact List.mem_map_of_mem (by decide))

/-- Every operation of the stretch writes into the listed buffers. -/
theorem segG_writes : (segG : List (HloOp τ sig (Elt F))).Forall fun op =>
    op.writes ⊆ (segG_W.map (Proc.devRef (τ := τ) .tc)).toFinset := by
  simp only [List.Forall]
  refine ⟨?_, ?_, ?_, ?_, ?_, ?_, ?_, ?_, ?_, ?_, ?_, ?_, ?_, ?_, ?_, ?_, ?_, ?_, ?_⟩ <;>
    (simp only [nullary_writes, unary_writes, binary_writes, ternary_writes, quaternary_writes, reshape_writes,
      binaryIndexed_writes, nary_writes, unaryIndexed_writes, Finset.singleton_subset_iff, List.mem_toFinset]
     exact List.mem_map_of_mem (by decide))

/-! ## The buffer contents after each stretch -/

variable (V0 : Valuation τ sig (Elt F))

/-- The buffer contents after the stretch `segA1`, from launch contents `V0`. -/
def atA1 : Valuation τ sig (Elt F) := after segA1 V0

/-- The buffer contents after the stretch `segA2`, from launch contents `V0`. -/
def atA2 : Valuation τ sig (Elt F) := after segA2 (atA1 V0)

/-- The buffer contents after the stretch `segB`, from launch contents `V0`. -/
def atB : Valuation τ sig (Elt F) := after segB (atA2 V0)

/-- The buffer contents after the stretch `segC`, from launch contents `V0`. -/
def atC : Valuation τ sig (Elt F) := after segC (atB V0)

/-- The buffer contents after the stretch `segD`, from launch contents `V0`. -/
def atD : Valuation τ sig (Elt F) := after segD (atC V0)

/-- The buffer contents after the stretch `segE`, from launch contents `V0`. -/
def atE : Valuation τ sig (Elt F) := after segE (atD V0)

/-- The buffer contents after the stretch `segF`, from launch contents `V0`. -/
def atF : Valuation τ sig (Elt F) := after segF (atE V0)

/-- The buffer contents after the stretch `segG`, from launch contents `V0`. -/
def atG : Valuation τ sig (Elt F) := after segG (atF V0)

/-- The whole program's fold is the last of these. -/
theorem after_ops : after ops V0 = atG V0 := by
  rw [ops_split, after_append, after_append, after_append, after_append, after_append, after_append, after_append]
  rfl

/-! ## A buffer no stretch so far has written holds its launch contents -/

theorem keepA1 (r : Ref sig .tc) (h0 : r ∉ segA1_W) :
    atA1 V0 (Proc.devRef .tc r) = V0 (Proc.devRef .tc r) :=
  (after_of_writes_sub segA1 _ segA1_writes h0)

theorem keepA2 (r : Ref sig .tc) (h0 : r ∉ segA1_W) (h1 : r ∉ segA2_W) :
    atA2 V0 (Proc.devRef .tc r) = V0 (Proc.devRef .tc r) :=
  (after_of_writes_sub segA2 _ segA2_writes h1).trans (keepA1 V0 r h0)

theorem keepB (r : Ref sig .tc) (h0 : r ∉ segA1_W) (h1 : r ∉ segA2_W) (h2 : r ∉ segB_W) :
    atB V0 (Proc.devRef .tc r) = V0 (Proc.devRef .tc r) :=
  (after_of_writes_sub segB _ segB_writes h2).trans (keepA2 V0 r h0 h1)

theorem keepC (r : Ref sig .tc) (h0 : r ∉ segA1_W) (h1 : r ∉ segA2_W) (h2 : r ∉ segB_W) (h3 : r ∉ segC_W) :
    atC V0 (Proc.devRef .tc r) = V0 (Proc.devRef .tc r) :=
  (after_of_writes_sub segC _ segC_writes h3).trans (keepB V0 r h0 h1 h2)

theorem keepD (r : Ref sig .tc) (h0 : r ∉ segA1_W) (h1 : r ∉ segA2_W) (h2 : r ∉ segB_W) (h3 : r ∉ segC_W) (h4 : r ∉ segD_W) :
    atD V0 (Proc.devRef .tc r) = V0 (Proc.devRef .tc r) :=
  (after_of_writes_sub segD _ segD_writes h4).trans (keepC V0 r h0 h1 h2 h3)

theorem keepE (r : Ref sig .tc) (h0 : r ∉ segA1_W) (h1 : r ∉ segA2_W) (h2 : r ∉ segB_W) (h3 : r ∉ segC_W) (h4 : r ∉ segD_W) (h5 : r ∉ segE_W) :
    atE V0 (Proc.devRef .tc r) = V0 (Proc.devRef .tc r) :=
  (after_of_writes_sub segE _ segE_writes h5).trans (keepD V0 r h0 h1 h2 h3 h4)

theorem keepF (r : Ref sig .tc) (h0 : r ∉ segA1_W) (h1 : r ∉ segA2_W) (h2 : r ∉ segB_W) (h3 : r ∉ segC_W) (h4 : r ∉ segD_W) (h5 : r ∉ segE_W) (h6 : r ∉ segF_W) :
    atF V0 (Proc.devRef .tc r) = V0 (Proc.devRef .tc r) :=
  (after_of_writes_sub segF _ segF_writes h6).trans (keepE V0 r h0 h1 h2 h3 h4 h5)

theorem keepG (r : Ref sig .tc) (h0 : r ∉ segA1_W) (h1 : r ∉ segA2_W) (h2 : r ∉ segB_W) (h3 : r ∉ segC_W) (h4 : r ∉ segD_W) (h5 : r ∉ segE_W) (h6 : r ∉ segF_W) (h7 : r ∉ segG_W) :
    atG V0 (Proc.devRef .tc r) = V0 (Proc.devRef .tc r) :=
  (after_of_writes_sub segG _ segG_writes h7).trans (keepF V0 r h0 h1 h2 h3 h4 h5 h6)

end Cert.Gcn.RefRun

end
-- ==== Proof.ReferenceRun.lean ====
/-
  The reference's run, read back a stretch at a time.

  Each buffer the reference writes has a stage: the one operation that writes it, applied to the stages of the buffers
  it reads, down to the arguments. After the first stretch the buffers it leaves for later hold their stages of the
  launch contents of the arguments; if the buffers a stretch reads hold their stages, then so do the buffers it
  leaves, because its operations are those stages' definitions unfolded one level each. Going through the eight
  stretches in order, the result buffer holds the last stage — the row-wise log-softmax of the output head — of the
  arguments' launch contents, and no operation writes an argument.
-/
import proofs.«171350_j70119636075235_2_alg».proof.Proof.ReferenceStretches
import proofs.«171350_j70119636075235_2_alg».proof.Proof.ReferenceReadPatched

noncomputable section

namespace Cert.Gcn.RefRun

open Cert.ReferenceIdeal Cert.ReferenceIdeal.Gen Cert.ReferenceIdeal.Value Cert.ReferenceIdeal.Read
open Idealize.ShloMosaic Idealize.ShloMosaic.TcCoe Idealize.SL.Sem Idealize.ShloMosaic.StableHlo

variable {F : FTy → Type} [FloatOps F]

/-- A value stored in a typed buffer and read back at its type is the value. -/
theorem ofBuf_toBuf {T : BufTy} (x : TRef sig T) (v : T.Contents (Elt F)) : x.ofBuf (x.toBuf v) = v := by
  obtain ⟨r, h, hd, hs⟩ := x
  subst h
  rfl

variable (V0 : Valuation τ sig (Elt F))

/-! ## What each stretch leaves, as the stages of the reference read one operation at a time

Each lemma reads ONE stretch: the buffers it reads hold stages, or launch contents, by the lemmas before it; the
operations of the stretch applied to those are, one definition at a time, the stage of the buffer it ends in. -/

set_option maxHeartbeats 2000000 in
theorem atA1_v3 : atA1 V0 (no_index (Proc.devRef .tc main_v3)) = val_main_v3 (F := F) (V0 (Proc.devRef .tc main_arg1)) := by
  unfold atA1
  simp only [segA1]
  after_results_simp
  rfl

set_option maxHeartbeats 2000000 in
theorem atA1_v6 : atA1 V0 (no_index (Proc.devRef .tc main_v6)) = val_main_v6 (F := F) (V0 (Proc.devRef .tc main_arg1)) := by
  unfold atA1
  simp only [segA1]
  after_results_simp
  rfl

set_option maxHeartbeats 2000000 in
theorem atA1_v8 : atA1 V0 (no_index (Proc.devRef .tc main_v8)) = val_main_v8 (F := F) (V0 (Proc.devRef .tc main_arg2)) := by
  unfold atA1
  simp only [segA1]
  after_results_simp
  rfl

set_option maxHeartbeats 2000000 in
theorem atA1_v17 : atA1 V0 (no_index (Proc.devRef .tc main_v17)) = val_main_v17 (F := F) (V0 (Proc.devRef .tc main_arg1)) (V0 (Proc.devRef .tc main_arg2)) := by
  unfold atA1
  simp only [segA1]
  after_results_simp
  rfl

theorem atA2_v3 : atA2 V0 (no_index (Proc.devRef .tc main_v3)) = val_main_v3 (F := F) (V0 (Proc.devRef .tc main_arg1)) :=
  (after_of_writes_sub segA2 _ segA2_writes (by decide)).trans (atA1_v3 V0)

theorem atA2_v6 : atA2 V0 (no_index (Proc.devRef .tc main_v6)) = val_main_v6 (F := F) (V0 (Proc.devRef .tc main_arg1)) :=
  (after_of_writes_sub segA2 _ segA2_writes (by decide)).trans (atA1_v6 V0)

set_option maxHeartbeats 2000000 in
theorem atA2_v33 : atA2 V0 (no_index (Proc.devRef .tc main_v33)) = val_main_v33 (F := F) (V0 (Proc.devRef .tc main_arg1)) (V0 (Proc.devRef .tc main_arg2)) := by
  unfold atA2
  simp only [segA2]
  after_results_simp
  simp only [atA1_v3 V0,
    atA1_v6 V0,
    atA1_v8 V0,
    atA1_v17 V0]
  rfl

theorem atB_v3 : atB V0 (no_index (Proc.devRef .tc main_v3)) = val_main_v3 (F := F) (V0 (Proc.devRef .tc main_arg1)) :=
  (after_of_writes_sub segB _ segB_writes (by decide)).trans (atA2_v3 V0)

theorem atB_v6 : atB V0 (no_index (Proc.devRef .tc main_v6)) = val_main_v6 (F := F) (V0 (Proc.devRef .tc main_arg1)) :=
  (after_of_writes_sub segB _ segB_writes (by decide)).trans (atA2_v6 V0)

theorem atB_v33 : atB V0 (no_index (Proc.devRef .tc main_v33)) = val_main_v33 (F := F) (V0 (Proc.devRef .tc main_arg1)) (V0 (Proc.devRef .tc main_arg2)) :=
  (after_of_writes_sub segB _ segB_writes (by decide)).trans (atA2_v33 V0)

set_option maxHeartbeats 2000000 in
theorem atB_v56 : atB V0 (no_index (Proc.devRef .tc main_v56)) = val_main_v56 (F := F) (V0 (Proc.devRef .tc main_arg0)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) := by
  unfold atB
  simp only [segB]
  after_results_simp
  simp only [keepA2 V0 main_arg0 (by decide) (by decide),
    keepA2 V0 main_arg3 (by decide) (by decide),
    keepA2 V0 main_arg4 (by decide) (by decide),
    keepA2 V0 main_arg5 (by decide) (by decide),
    keepA2 V0 main_arg6 (by decide) (by decide),
    keepA2 V0 main_arg7 (by decide) (by decide),
    keepA2 V0 main_arg8 (by decide) (by decide),
    keepA2 V0 main_arg9 (by decide) (by decide)]
  rfl

theorem atC_v3 : atC V0 (no_index (Proc.devRef .tc main_v3)) = val_main_v3 (F := F) (V0 (Proc.devRef .tc main_arg1)) :=
  (after_of_writes_sub segC _ segC_writes (by decide)).trans (atB_v3 V0)

theorem atC_v6 : atC V0 (no_index (Proc.devRef .tc main_v6)) = val_main_v6 (F := F) (V0 (Proc.devRef .tc main_arg1)) :=
  (after_of_writes_sub segC _ segC_writes (by decide)).trans (atB_v6 V0)

theorem atC_v33 : atC V0 (no_index (Proc.devRef .tc main_v33)) = val_main_v33 (F := F) (V0 (Proc.devRef .tc main_arg1)) (V0 (Proc.devRef .tc main_arg2)) :=
  (after_of_writes_sub segC _ segC_writes (by decide)).trans (atB_v33 V0)

set_option maxHeartbeats 2000000 in
theorem atC_v69 : atC V0 (no_index (Proc.devRef .tc main_v69)) = val_main_v69 (F := F) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) := by
  unfold atC
  simp only [segC]
  after_results_simp
  simp only [atB_v3 V0,
    atB_v6 V0,
    atB_v33 V0,
    atB_v56 V0]
  rfl

theorem atD_v3 : atD V0 (no_index (Proc.devRef .tc main_v3)) = val_main_v3 (F := F) (V0 (Proc.devRef .tc main_arg1)) :=
  (after_of_writes_sub segD _ segD_writes (by decide)).trans (atC_v3 V0)

theorem atD_v6 : atD V0 (no_index (Proc.devRef .tc main_v6)) = val_main_v6 (F := F) (V0 (Proc.devRef .tc main_arg1)) :=
  (after_of_writes_sub segD _ segD_writes (by decide)).trans (atC_v6 V0)

theorem atD_v33 : atD V0 (no_index (Proc.devRef .tc main_v33)) = val_main_v33 (F := F) (V0 (Proc.devRef .tc main_arg1)) (V0 (Proc.devRef .tc main_arg2)) :=
  (after_of_writes_sub segD _ segD_writes (by decide)).trans (atC_v33 V0)

set_option maxHeartbeats 2000000 in
theorem atD_v98 : atD V0 (no_index (Proc.devRef .tc main_v98)) = val_main_v98 (F := F) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13)) (V0 (Proc.devRef .tc main_arg14)) := by
  unfold atD
  simp only [segD]
  after_results_simp
  simp only [atC_v69 V0,
    keepC V0 main_arg10 (by decide) (by decide) (by decide) (by decide),
    keepC V0 main_arg11 (by decide) (by decide) (by decide) (by decide),
    keepC V0 main_arg12 (by decide) (by decide) (by decide) (by decide),
    keepC V0 main_arg13 (by decide) (by decide) (by decide) (by decide),
    keepC V0 main_arg14 (by decide) (by decide) (by decide) (by decide)]
  rfl

set_option maxHeartbeats 2000000 in
theorem atE_v114 : atE V0 (no_index (Proc.devRef .tc main_v114)) = val_main_v114 (F := F) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13)) (V0 (Proc.devRef .tc main_arg14)) := by
  unfold atE
  simp only [segE]
  after_results_simp
  simp only [atD_v3 V0,
    atD_v6 V0,
    atD_v33 V0,
    atD_v98 V0,
    keepD V0 main_arg9 (by decide) (by decide) (by decide) (by decide) (by decide)]
  rfl

set_option maxHeartbeats 2000000 in
theorem atF_v143 : atF V0 (no_index (Proc.devRef .tc main_v143)) = val_main_v143 (F := F) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13)) (V0 (Proc.devRef .tc main_arg14)) := by
  unfold atF
  simp only [segF]
  after_results_simp
  simp only [atE_v114 V0,
    keepE V0 main_arg10 (by decide) (by decide) (by decide) (by decide) (by decide) (by decide),
    keepE V0 main_arg11 (by decide) (by decide) (by decide) (by decide) (by decide) (by decide),
    keepE V0 main_arg12 (by decide) (by decide) (by decide) (by decide) (by decide) (by decide),
    keepE V0 main_arg13 (by decide) (by decide) (by decide) (by decide) (by decide) (by decide),
    keepE V0 main_arg14 (by decide) (by decide) (by decide) (by decide) (by decide) (by decide)]
  rfl

set_option maxHeartbeats 2000000 in
theorem atG_v148 : atG V0 (no_index (Proc.devRef .tc main_v148)) = val_main_v148 (F := F) (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13)) (V0 (Proc.devRef .tc main_arg14)) (V0 (Proc.devRef .tc main_arg15)) (V0 (Proc.devRef .tc main_arg16)) := by
  unfold atG
  simp only [segG]
  after_results_simp
  simp only [atF_v143 V0,
    keepF V0 main_arg15 (by decide) (by decide) (by decide) (by decide) (by decide) (by decide) (by decide),
    keepF V0 main_arg16 (by decide) (by decide) (by decide) (by decide) (by decide) (by decide) (by decide)]
  simp only [ofBuf_toBuf]
  rfl

/-! ## The run -/

/-- On every device, for any float values, from any memory with zero counters: every weakly fair execution of the
    reference terminates with its result at the last stage of the arguments' launch contents, and the arguments
    unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v148) = val_main_v148 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16) :=
  (θ_run defs _ _).mono (fun _ h c =>
    ⟨(h c main_v148).trans ((congrFun (after_ops (launchContents m c)) _).trans (atG_v148 (launchContents m c))),
      (h c main_arg0).trans ((congrFun (after_ops (launchContents m c)) _).trans (keepG (launchContents m c) main_arg0 (by decide) (by decide) (by decide) (by decide) (by decide) (by decide) (by decide) (by decide))),
      (h c main_arg1).trans ((congrFun (after_ops (launchContents m c)) _).trans (keepG (launchContents m c) main_arg1 (by decide) (by decide) (by decide) (by decide) (by decide) (by decide) (by decide) (by decide))),
      (h c main_arg2).trans ((congrFun (after_ops (launchContents m c)) _).trans (keepG (launchContents m c) main_arg2 (by decide) (by decide) (by decide) (by decide) (by decide) (by decide) (by decide) (by decide))),
      (h c main_arg3).trans ((congrFun (after_ops (launchContents m c)) _).trans (keepG (launchContents m c) main_arg3 (by decide) (by decide) (by decide) (by decide) (by decide) (by decide) (by decide) (by decide))),
      (h c main_arg4).trans ((congrFun (after_ops (launchContents m c)) _).trans (keepG (launchContents m c) main_arg4 (by decide) (by decide) (by decide) (by decide) (by decide) (by decide) (by decide) (by decide))),
      (h c main_arg5).trans ((congrFun (after_ops (launchContents m c)) _).trans (keepG (launchContents m c) main_arg5 (by decide) (by decide) (by decide) (by decide) (by decide) (by decide) (by decide) (by decide))),
      (h c main_arg6).trans ((congrFun (after_ops (launchContents m c)) _).trans (keepG (launchContents m c) main_arg6 (by decide) (by decide) (by decide) (by decide) (by decide) (by decide) (by decide) (by decide))),
      (h c main_arg7).trans ((congrFun (after_ops (launchContents m c)) _).trans (keepG (launchContents m c) main_arg7 (by decide) (by decide) (by decide) (by decide) (by decide) (by decide) (by decide) (by decide))),
      (h c main_arg8).trans ((congrFun (after_ops (launchContents m c)) _).trans (keepG (launchContents m c) main_arg8 (by decide) (by decide) (by decide) (by decide) (by decide) (by decide) (by decide) (by decide))),
      (h c main_arg9).trans ((congrFun (after_ops (launchContents m c)) _).trans (keepG (launchContents m c) main_arg9 (by decide) (by decide) (by decide) (by decide) (by decide) (by decide) (by decide) (by decide))),
      (h c main_arg10).trans ((congrFun (after_ops (launchContents m c)) _).trans (keepG (launchContents m c) main_arg10 (by decide) (by decide) (by decide) (by decide) (by decide) (by decide) (by decide) (by decide))),
      (h c main_arg11).trans ((congrFun (after_ops (launchContents m c)) _).trans (keepG (launchContents m c) main_arg11 (by decide) (by decide) (by decide) (by decide) (by decide) (by decide) (by decide) (by decide))),
      (h c main_arg12).trans ((congrFun (after_ops (launchContents m c)) _).trans (keepG (launchContents m c) main_arg12 (by decide) (by decide) (by decide) (by decide) (by decide) (by decide) (by decide) (by decide))),
      (h c main_arg13).trans ((congrFun (after_ops (launchContents m c)) _).trans (keepG (launchContents m c) main_arg13 (by decide) (by decide) (by decide) (by decide) (by decide) (by decide) (by decide) (by decide))),
      (h c main_arg14).trans ((congrFun (after_ops (launchContents m c)) _).trans (keepG (launchContents m c) main_arg14 (by decide) (by decide) (by decide) (by decide) (by decide) (by decide) (by decide) (by decide))),
      (h c main_arg15).trans ((congrFun (after_ops (launchContents m c)) _).trans (keepG (launchContents m c) main_arg15 (by decide) (by decide) (by decide) (by decide) (by decide) (by decide) (by decide) (by decide))),
      (h c main_arg16).trans ((congrFun (after_ops (launchContents m c)) _).trans (keepG (launchContents m c) main_arg16 (by decide) (by decide) (by decide) (by decide) (by decide) (by decide) (by decide) (by decide)))⟩)
    (run_seq scopedRefs_eq scopedSems_eq defs main (fun _ => ops) main_eq (fun _ => ops_sub) m ρ)

end Cert.Gcn.RefRun

end
-- ==== Proof.LibPlainDot.lean ====
/-
  A plain matrix product read at an index, for any extents.

  For the dimension numbers of an `[M, K]` by `[K, N]` product (contract the left operand's columns with the right
  operand's rows, no batch axis), both the kernel's matrix unit accumulating into zero and the host's `dot_general`,
  read at the extended reals at entry `(r, c)`, are the sum over `k` of `lhs (r, k) * rhs (k, c)`.
-/
import Idealize.ShloMosaic.Lib.ValueIdx
import Idealize.ShloMosaic.PureOps.Ideal.Laws

noncomputable section

namespace Cert.Sage

open Idealize.ShloMosaic Idealize.ShloMosaic.ValueIdx

/-- The left operand's row coordinate is the result's row. -/
theorem plain_lhs_row {M K N : ℕ} (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- The right operand's column coordinate is the result's column. -/
theorem plain_rhs_col {M K N : ℕ} (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The left operand's index at result entry `(r, c)` and the contraction index carrying `k` is `(r, k)`. -/
theorem plain_lhsIdx {M K N : ℕ} (r : Fin M) (c : Fin N) (k : Fin K) :
    (DotDims.plain M K N).lhsIdx (ix2 r c) ((contrEquiv1 (DotDims.plain M K N) K rfl rfl).symm k) = ix2 r k := by
  have hk := contrEquiv1_symm_val (DotDims.plain M K N) K rfl rfl k
  funext a
  refine Fin.ext ?_
  match a with
  | ⟨0, _⟩ => exact plain_lhs_row _ _
  | ⟨1, _⟩ => exact ((DotDims.plain M K N).lhsIdx_val_of_single rfl (ix2 r c) _).trans hk

/-- The right operand's index at result entry `(r, c)` and the contraction index carrying `k` is `(k, c)`. -/
theorem plain_rhsIdx {M K N : ℕ} (r : Fin M) (c : Fin N) (k : Fin K) :
    (DotDims.plain M K N).rhsIdx (ix2 r c) ((contrEquiv1 (DotDims.plain M K N) K rfl rfl).symm k) = ix2 k c := by
  have hk := contrEquiv1_symm_val (DotDims.plain M K N) K rfl rfl k
  funext a
  refine Fin.ext ?_
  match a with
  | ⟨0, _⟩ => exact ((DotDims.plain M K N).rhsIdx_val_of_single rfl (ix2 r c) _).trans hk
  | ⟨1, _⟩ => exact plain_rhs_col _ _

/-- The contraction sum of a plain product at entry `(r, c)`, re-indexed by the contracted coordinate. -/
theorem plain_contraction {M K N : ℕ} (lhs : (⟨2, ![M, K]⟩ : Shape).Idx → EReal) (rhs : (⟨2, ![K, N]⟩ : Shape).Idx → EReal)
    (r : Fin M) (c : Fin N) :
    (∑ q : (DotDims.plain M K N).contr.Idx,
        lhs ((DotDims.plain M K N).lhsIdx (ix2 r c) q) * rhs ((DotDims.plain M K N).rhsIdx (ix2 r c) q))
      = ∑ k : Fin K, lhs (ix2 r k) * rhs (ix2 k c) := by
  rw [← Equiv.sum_comp (contrEquiv1 (DotDims.plain M K N) K rfl rfl).symm]
  refine Finset.sum_congr rfl fun k _ => ?_
  rw [plain_lhsIdx, plain_rhsIdx]

/-- The matrix unit accumulating into the zero splat, at entry `(r, c)`. -/
theorem matmul_plain_zero_apply {M K N : ℕ} {φ₁ φ₂ : FTy} (prec : Option ContractPrecision)
    (lhs : FVec Ideal ⟨2, ![M, K]⟩ φ₁) (rhs : FVec Ideal ⟨2, ![K, N]⟩ φ₂) (r : Fin M) (c : Fin N) :
    FloatOps.matmul (DotDims.plain M K N) prec lhs rhs (constant (F := Ideal) ⟨2, ![M, N]⟩ .f32 0x00000000#32) (ix2 r c)
      = ∑ k : Fin K, lhs (ix2 r k) * rhs (ix2 k c) :=
  (Ideal.matmul_constant_zero_apply (DotDims.plain M K N) prec lhs rhs (ix2 r c)).trans (plain_contraction lhs rhs r c)

/-- The host's `dot_general`, at entry `(r, c)`. -/
theorem dotGeneral_plain_apply {M K N : ℕ} {φ₁ φ₂ : FTy} (prec : Option ContractPrecision) (sched : HostSchedule)
    (lhs : FVec Ideal ⟨2, ![M, K]⟩ φ₁) (rhs : FVec Ideal ⟨2, ![K, N]⟩ φ₂) (r : Fin M) (c : Fin N) :
    FloatOps.dotGeneral (DotDims.plain M K N) prec sched lhs rhs (ix2 r c)
      = ∑ k : Fin K, lhs (ix2 r k) * rhs (ix2 k c) :=
  (Ideal.dotGeneral_apply (DotDims.plain M K N) prec sched lhs rhs (ix2 r c)).trans (plain_contraction lhs rhs r c)

end Cert.Sage

end
-- ==== Proof.LibMatProduct.lean ====
/-
  A matrix product as one whole-array function of its two factors, for any extents.

  `prod x w` is the `[M, N]` array whose entry `(r, c)` is the sum over `k` of `x (r, k) · w (k, c)`, on the extended reals.
  Both the kernel's matrix unit accumulating into zero and the host's `dot_general`, for the dimension numbers of a plain
  `[M, K]` by `[K, N]` product, are this function: each is that sum at every entry. A kernel that computes a product block
  of rows by block of rows and a reference that computes it whole can then both be stated with the one term `prod x w`.
-/
import proofs.«171350_j70119636075235_2_alg».proof.Proof.LibPlainDot

noncomputable section

namespace Cert.MatProduct

open Idealize.ShloMosaic Idealize.ShloMosaic.ValueIdx

/-- The row of a rank-2 index, as a number below the row count. -/
def rowOf {M N : ℕ} (y : (⟨2, ![M, N]⟩ : Shape).Idx) : Fin M := ⟨(y 0).val, (y 0).isLt⟩
/-- The column of a rank-2 index, as a number below the column count. -/
def colOf {M N : ℕ} (y : (⟨2, ![M, N]⟩ : Shape).Idx) : Fin N := ⟨(y 1).val, (y 1).isLt⟩

theorem eq_row_col {M N : ℕ} (y : (⟨2, ![M, N]⟩ : Shape).Idx) : y = ix2 (rowOf y) (colOf y) := eq_ix2 y

/-- The product of an `[M, K]` and a `[K, N]` array of extended reals, entry by entry. -/
def prod {M K N : ℕ} (x : (⟨2, ![M, K]⟩ : Shape).Idx → EReal) (w : (⟨2, ![K, N]⟩ : Shape).Idx → EReal) :
    (⟨2, ![M, N]⟩ : Shape).Idx → EReal :=
  fun y => ∑ k : Fin K, x (ix2 (rowOf y) k) * w (ix2 k (colOf y))

/-- The matrix unit accumulating into the zero splat is the product. -/
theorem matmul_zero_eq_prod {M K N : ℕ} {φ₁ φ₂ : FTy} (prec : Option ContractPrecision)
    (lhs : FVec Ideal ⟨2, ![M, K]⟩ φ₁) (rhs : FVec Ideal ⟨2, ![K, N]⟩ φ₂) :
    FloatOps.matmul (DotDims.plain M K N) prec lhs rhs (constant (F := Ideal) ⟨2, ![M, N]⟩ .f32 0x00000000#32) = prod lhs rhs := by
  funext y
  rw [eq_row_col y]
  exact Cert.Sage.matmul_plain_zero_apply prec lhs rhs (rowOf y) (colOf y)

/-- The host's `dot_general` is the product. -/
theorem dotGeneral_eq_prod {M K N : ℕ} {φ₁ φ₂ : FTy} (prec : Option ContractPrecision) (sched : HostSchedule)
    (lhs : FVec Ideal ⟨2, ![M, K]⟩ φ₁) (rhs : FVec Ideal ⟨2, ![K, N]⟩ φ₂) :
    FloatOps.dotGeneral (DotDims.plain M K N) prec sched lhs rhs = prod lhs rhs := by
  funext y
  rw [eq_row_col y]
  exact Cert.Sage.dotGeneral_plain_apply prec sched lhs rhs (rowOf y) (colOf y)

end Cert.MatProduct

end
-- ==== Proof.LibRowBlocks.lean ====
/-
  Rows of a block and rows of the whole array.

  The kernel works on blocks of consecutive rows; the reference works on the whole array. Every step of the
  dense stack acts on each row by itself: a product with a fixed matrix on the right, the addition of a fixed
  bias row, a function applied entry by entry, the sum of two arrays. So if a block holds the rows
  o, o + 1, … of a taller array before such a step, it holds the same rows of the taller result after it.
  This file states that relation (`RowsAt`) and proves that each kind of step keeps it.
-/
import Idealize.ShloMosaic.Lib.ValueIdx
import Idealize.ShloMosaic.PureOps.Ideal.Laws
import proofs.«171350_j70119636075235_2_alg».proof.Proof.LibMatProduct

noncomputable section

namespace Cert.Bridge

open Idealize.ShloMosaic Idealize.ShloMosaic.ValueIdx

/-- The array `hk` of `M` rows is the stretch of `hr` that starts at row `o`: row `p` of `hk` is row `o + p` of `hr`. -/
def RowsAt {α : Type} {M R N : ℕ} (o : ℕ) (hk : (⟨2, ![M, N]⟩ : Shape).Idx → α) (hr : (⟨2, ![R, N]⟩ : Shape).Idx → α) : Prop :=
  ∀ (p : Fin M) (r : Fin R) (j : Fin N), r.val = o + p.val → hk (ix2 p j) = hr (ix2 r j)

variable {α β γ δ : Type} {M R N : ℕ} {o : ℕ}

/-- A function applied entry by entry keeps the relation. -/
theorem RowsAt.map (f : α → β) {a : (⟨2, ![M, N]⟩ : Shape).Idx → α} {a' : (⟨2, ![R, N]⟩ : Shape).Idx → α}
    (h : RowsAt o a a') : RowsAt o (fun i => f (a i)) (fun i => f (a' i)) :=
  fun p r j e => congrArg f (h p r j e)

/-- A function of two arrays applied entry by entry keeps the relation. -/
theorem RowsAt.map₂ (f : α → β → γ) {a : (⟨2, ![M, N]⟩ : Shape).Idx → α} {a' : (⟨2, ![R, N]⟩ : Shape).Idx → α}
    {b : (⟨2, ![M, N]⟩ : Shape).Idx → β} {b' : (⟨2, ![R, N]⟩ : Shape).Idx → β}
    (ha : RowsAt o a a') (hb : RowsAt o b b') : RowsAt o (fun i => f (a i) (b i)) (fun i => f (a' i) (b' i)) :=
  fun p r j e => by
    show f (a (ix2 p j)) (b (ix2 p j)) = f (a' (ix2 r j)) (b' (ix2 r j))
    rw [ha p r j e, hb p r j e]

/-- A function of three arrays applied entry by entry keeps the relation. -/
theorem RowsAt.map₃ (f : α → β → γ → δ) {a : (⟨2, ![M, N]⟩ : Shape).Idx → α} {a' : (⟨2, ![R, N]⟩ : Shape).Idx → α}
    {b : (⟨2, ![M, N]⟩ : Shape).Idx → β} {b' : (⟨2, ![R, N]⟩ : Shape).Idx → β}
    {c : (⟨2, ![M, N]⟩ : Shape).Idx → γ} {c' : (⟨2, ![R, N]⟩ : Shape).Idx → γ}
    (ha : RowsAt o a a') (hb : RowsAt o b b') (hc : RowsAt o c c') :
    RowsAt o (fun i => f (a i) (b i) (c i)) (fun i => f (a' i) (b' i) (c' i)) :=
  fun p r j e => by
    show f (a (ix2 p j)) (b (ix2 p j)) (c (ix2 p j)) = f (a' (ix2 r j)) (b' (ix2 r j)) (c' (ix2 r j))
    rw [ha p r j e, hb p r j e, hc p r j e]

/-- Two arrays that hold one value everywhere are related. -/
theorem RowsAt.const (v : α) : RowsAt (M := M) (R := R) (N := N) o (fun _ => v) (fun _ => v) :=
  fun _ _ _ _ => rfl

/-- Two arrays whose entries depend on the column only, through one function, are related. -/
theorem RowsAt.ofCols (g : Fin N → α) {a : (⟨2, ![M, N]⟩ : Shape).Idx → α} {a' : (⟨2, ![R, N]⟩ : Shape).Idx → α}
    (ha : ∀ p j, a (ix2 p j) = g j) (ha' : ∀ r j, a' (ix2 r j) = g j) : RowsAt o a a' :=
  fun p r j _ => (ha p j).trans (ha' r j).symm

/-- The product with a fixed matrix on the right keeps the relation: row `p` of the product only reads row `p`
    of the left factor. -/
theorem RowsAt.prod {K : ℕ} {x : (⟨2, ![M, K]⟩ : Shape).Idx → EReal} {x' : (⟨2, ![R, K]⟩ : Shape).Idx → EReal}
    (h : RowsAt o x x') (w : (⟨2, ![K, N]⟩ : Shape).Idx → EReal) :
    RowsAt o (Cert.MatProduct.prod x w) (Cert.MatProduct.prod x' w) :=
  fun p r j e => by
    show (∑ k : Fin K, x (ix2 p k) * w (ix2 k j)) = ∑ k : Fin K, x' (ix2 r k) * w (ix2 k j)
    exact Finset.sum_congr rfl fun k _ => by rw [h p r k e]

/-- Related arrays are equal where the taller one is read at the related row. -/
theorem RowsAt.apply {a : (⟨2, ![M, N]⟩ : Shape).Idx → α} {a' : (⟨2, ![R, N]⟩ : Shape).Idx → α}
    (h : RowsAt o a a') (p : Fin M) (r : Fin R) (j : Fin N) (e : r.val = o + p.val) : a (ix2 p j) = a' (ix2 r j) :=
  h p r j e

end Cert.Bridge

end
-- ==== Proof.LibRowBias.lean ====
/-
  A bias row added to every row of an array, with or without a floor, as one whole-array function.

  `addRow x b` is the `[R, N]` array whose entry `(r, c)` is `x (r, c) + b (0, c)`, on the extended reals, for a one-row
  array `b` of shape `[1, N]`; `addRowMax x b z` is the same floored at `z`, entry by entry. A vector unit that spreads
  the row down the rows, adds, and takes the maximum with a splat computes exactly these, for any extents; and both
  functions act on each row by itself, so they keep the relation "a block is a stretch of consecutive rows of a
  taller array".
-/
import Idealize.ShloMosaic.Lib.ValueIdx
import Idealize.ShloMosaic.Lib.Pipeline.Value
import Idealize.ShloMosaic.PureOps.Ideal.Laws
import proofs.«171350_j70119636075235_2_alg».proof.Proof.LibMatProduct

noncomputable section

namespace Cert.RowBias

open Idealize.ShloMosaic Idealize.ShloMosaic.ValueIdx
open Cert.MatProduct (rowOf colOf)

/-- Every row of `x` plus the one row of `b`, entry by entry. -/
def addRow {R N : ℕ} (x : (⟨2, ![R, N]⟩ : Shape).Idx → EReal) (b : (⟨2, ![1, N]⟩ : Shape).Idx → EReal) :
    (⟨2, ![R, N]⟩ : Shape).Idx → EReal :=
  fun y => x y + b (ix2 0 (colOf y))

/-- Every row of `x` plus the one row of `b`, floored at `z`, entry by entry. -/
def addRowMax {R N : ℕ} (x : (⟨2, ![R, N]⟩ : Shape).Idx → EReal) (b : (⟨2, ![1, N]⟩ : Shape).Idx → EReal) (z : EReal) :
    (⟨2, ![R, N]⟩ : Shape).Idx → EReal :=
  fun y => max (x y + b (ix2 0 (colOf y))) z

/-- A one-row array spread down `R` rows reads, at `(r, c)`, the row's entry `c`. -/
theorem spreadRow_apply {R N : ℕ} (b : (⟨2, ![1, N]⟩ : Shape).Idx → EReal)
    (h : (⟨2, ![1, N]⟩ : Shape).Broadcasts ⟨2, ![R, N]⟩) (y : (⟨2, ![R, N]⟩ : Shape).Idx) :
    broadcastTo ⟨2, ![R, N]⟩ b h y = b (ix2 0 (colOf y)) := by
  refine broadcastTo_apply b h y (ix2 0 (colOf y)) fun a => ?_
  match a with
  | ⟨0, _⟩ => exact (if_pos rfl).symm
  | ⟨1, _⟩ =>
    show (y 1).val = if N = 1 then 0 else (y 1).val
    have hy : (y 1).val < N := (y 1).isLt
    split_ifs with hN
    · omega
    · rfl

/-- The vector unit's `x + spread b`, through the identity casts the lowering leaves around both operands. -/
theorem vec_addRow {R N : ℕ} (x : FVec Ideal ⟨2, ![R, N]⟩ .f32) (b : FVec Ideal ⟨2, ![1, N]⟩ .f32)
    (h0 : (⟨2, ![R, N]⟩ : Shape).ShapeCasts ⟨2, ![R, N]⟩) (h1 h2 : (⟨2, ![1, N]⟩ : Shape).ShapeCasts ⟨2, ![1, N]⟩)
    (hb : (⟨2, ![1, N]⟩ : Shape).Broadcasts ⟨2, ![R, N]⟩) :
    addf (shapeCast ⟨2, ![R, N]⟩ x h0) (broadcastTo ⟨2, ![R, N]⟩ (shapeCast ⟨2, ![1, N]⟩ (shapeCast ⟨2, ![1, N]⟩ b h1) h2) hb)
      = addRow x b := by
  rw [shapeCast_self, shapeCast_self, shapeCast_self]
  funext y
  rw [addf_apply, spreadRow_apply]
  rfl

/-- The same floored at a splat of `z`. -/
theorem vec_addRowMax {R N : ℕ} (x : FVec Ideal ⟨2, ![R, N]⟩ .f32) (b : FVec Ideal ⟨2, ![1, N]⟩ .f32)
    (h0 : (⟨2, ![R, N]⟩ : Shape).ShapeCasts ⟨2, ![R, N]⟩) (h1 h2 : (⟨2, ![1, N]⟩ : Shape).ShapeCasts ⟨2, ![1, N]⟩)
    (hb : (⟨2, ![1, N]⟩ : Shape).Broadcasts ⟨2, ![R, N]⟩) (z : Ideal .f32) :
    maximumf (addf (shapeCast ⟨2, ![R, N]⟩ x h0) (broadcastTo ⟨2, ![R, N]⟩ (shapeCast ⟨2, ![1, N]⟩ (shapeCast ⟨2, ![1, N]⟩ b h1) h2) hb))
        (broadcast ⟨2, ![R, N]⟩ z)
      = addRowMax x b z := by
  rw [vec_addRow]
  funext y
  rw [maximumf_apply, broadcast_apply]
  rfl

/-- Two products agree at two entries when the rows and the columns those entries read agree. -/
theorem prod_entry_congr {M M' K N N' : ℕ} {x : (⟨2, ![M, K]⟩ : Shape).Idx → EReal} {x' : (⟨2, ![M', K]⟩ : Shape).Idx → EReal}
    {w : (⟨2, ![K, N]⟩ : Shape).Idx → EReal} {w' : (⟨2, ![K, N']⟩ : Shape).Idx → EReal}
    (y : (⟨2, ![M, N]⟩ : Shape).Idx) (y' : (⟨2, ![M', N']⟩ : Shape).Idx)
    (hx : ∀ k : Fin K, x (ix2 (rowOf y) k) = x' (ix2 (rowOf y') k))
    (hw : ∀ k : Fin K, w (ix2 k (colOf y)) = w' (ix2 k (colOf y'))) :
    Cert.MatProduct.prod x w y = Cert.MatProduct.prod x' w' y' :=
  Finset.sum_congr rfl fun k _ => by rw [hx k, hw k]

/-- `addRow` agrees at two entries when the entries and the bias entries they read agree. -/
theorem addRow_entry_congr {R R' N N' : ℕ} {x : (⟨2, ![R, N]⟩ : Shape).Idx → EReal} {x' : (⟨2, ![R', N']⟩ : Shape).Idx → EReal}
    {b : (⟨2, ![1, N]⟩ : Shape).Idx → EReal} {b' : (⟨2, ![1, N']⟩ : Shape).Idx → EReal}
    (y : (⟨2, ![R, N]⟩ : Shape).Idx) (y' : (⟨2, ![R', N']⟩ : Shape).Idx)
    (hx : x y = x' y') (hb : b (ix2 0 (colOf y)) = b' (ix2 0 (colOf y'))) :
    addRow x b y = addRow x' b' y' := by
  show x y + b (ix2 0 (colOf y)) = x' y' + b' (ix2 0 (colOf y'))
  rw [hx, hb]

/-- `addRowMax` agrees at two entries when the entries and the bias entries they read agree. -/
theorem addRowMax_entry_congr {R R' N N' : ℕ} {x : (⟨2, ![R, N]⟩ : Shape).Idx → EReal} {x' : (⟨2, ![R', N']⟩ : Shape).Idx → EReal}
    {b : (⟨2, ![1, N]⟩ : Shape).Idx → EReal} {b' : (⟨2, ![1, N']⟩ : Shape).Idx → EReal} (z : EReal)
    (y : (⟨2, ![R, N]⟩ : Shape).Idx) (y' : (⟨2, ![R', N']⟩ : Shape).Idx)
    (hx : x y = x' y') (hb : b (ix2 0 (colOf y)) = b' (ix2 0 (colOf y'))) :
    addRowMax x b z y = addRowMax x' b' z y' := by
  show max (x y + b (ix2 0 (colOf y))) z = max (x' y' + b' (ix2 0 (colOf y'))) z
  rw [hx, hb]

/-- A length-`N` vector regarded as one row reads, at `(0, c)`, the vector's entry `c`. -/
theorem vecRow_apply {α : Type} {N : ℕ} (b : (⟨1, ![N]⟩ : Shape).Idx → α)
    (h : (⟨1, ![N]⟩ : Shape).ShapeCasts ⟨2, ![1, N]⟩) (c : Fin N) :
    shapeCast ⟨2, ![1, N]⟩ b h (ix2 (0 : Fin 1) c) = b (ix1 c) := by
  refine shapeCast_apply b h (ix2 (0 : Fin 1) c) (ix1 c) ?_
  rw [Shape.rowMajor_val_one, Shape.rowMajor_val_two]
  show c.val = 0 * N + c.val
  omega

end Cert.RowBias

end
-- ==== Proof.DenseSteps.lean ====
/-
  The dense steps of a graph-convolution network, as whole-array functions on the extended reals.

  Between two neighbourhood sums the network applies, to an array with one row per node: a product with a weight
  matrix, the addition of a bias row, the maximum with zero, and a normalisation by running statistics
  `(a - mean) * rsqrt (var + eps) * gamma + beta`, the four statistics one row each; at the end, a row-wise
  log-softmax `z - log (sum (exp z))` with `z = a - max (row of a)`. Each of these acts on every row by itself.
  So a block of consecutive rows of the input gives the same rows of the output: the relation "the block is
  the stretch of the taller array that starts at row o" is kept by every step. That is all a computation tiled
  over rows needs in order to agree with the same computation done on the whole array at once.
-/
import Idealize.ShloMosaic.Lib.ValueIdx
import Idealize.ShloMosaic.PureOps.Ideal.Laws
import proofs.«171350_j70119636075235_2_alg».proof.Proof.LibMatProduct
import proofs.«171350_j70119636075235_2_alg».proof.Proof.LibRowBlocks
import proofs.«171350_j70119636075235_2_alg».proof.Proof.LibRowBias

noncomputable section

namespace Cert.Gcn

open Idealize.ShloMosaic Idealize.ShloMosaic.ValueIdx
open Cert.MatProduct (rowOf colOf prod)
open Cert.RowBias (addRow addRowMax)
open Cert.Bridge (RowsAt)

/-- An array of extended reals with `R` rows and `N` columns. -/
abbrev Mat (R N : ℕ) : Type := (⟨2, ![R, N]⟩ : Shape).Idx → EReal

variable {R M N K C : ℕ}

theorem rowOf_ix2 (p : Fin R) (j : Fin N) : rowOf (ix2 p j) = p := Fin.ext rfl
theorem colOf_ix2 (p : Fin R) (j : Fin N) : colOf (ix2 p j) = j := Fin.ext rfl

/-- The epsilon added to a running variance: the single-precision number nearest 1e-5, as both programs spell it. -/
def epsVal : EReal := Ideal.ofBits .f32 0x3727C5AC#32
/-- The floor of the rectifier: zero, as both programs spell it. -/
def zeroVal : EReal := Ideal.ofBits .f32 0x00000000#32
/-- Where a running maximum starts: minus infinity, as both programs spell it. -/
def negInf : EReal := Ideal.ofBits .f32 0xFF800000#32

/-- Normalisation by running statistics, entry `(r, c)`: `(a(r,c) - mean c) * rsqrt (var c + eps) * gamma c + beta c`. -/
def normRows (a : Mat R N) (mean var gamma beta : Mat 1 N) : Mat R N := fun y =>
  (a y - mean (ix2 0 (colOf y))) * Ideal.rsqrt (var (ix2 0 (colOf y)) + epsVal) * gamma (ix2 0 (colOf y))
    + beta (ix2 0 (colOf y))

/-- The largest entry of row `r`. -/
def rowMax (a : Mat R C) (r : Fin R) : EReal := (Finset.univ : Finset (Fin C)).fold max negInf fun k => a (ix2 r k)

/-- Row-wise log-softmax: with `z = a - rowMax`, entry `(r, c)` is `z(r,c) - log (sum over k of exp z(r,k))`. -/
def logSoftmaxRows (a : Mat R C) : Mat R C := fun y =>
  (a y - rowMax a (rowOf y)) - Ideal.log (∑ k : Fin C, Ideal.exp (a (ix2 (rowOf y) k) - rowMax a (rowOf y)))

/-- The first layer: `norm (max (x · w + b) 0)`. -/
def firstLayer (x : Mat R K) (w : Mat K N) (b mean var gamma beta : Mat 1 N) : Mat R N :=
  normRows (addRowMax (prod x w) b zeroVal) mean var gamma beta

/-- What follows a neighbourhood sum: `norm (max (agg + b) 0)`. -/
def afterSum (agg : Mat R N) (b mean var gamma beta : Mat 1 N) : Mat R N :=
  normRows (addRowMax agg b zeroVal) mean var gamma beta

/-- The output head: `logSoftmax (h · w + b)`. -/
def head (h : Mat R K) (w : Mat K C) (b : Mat 1 C) : Mat R C := logSoftmaxRows (addRow (prod h w) b)

/-! ## Each step reads a row of its input only through that row -/

variable {o : ℕ}

theorem RowsAt.addRow {a : Mat M N} {a' : Mat R N} (h : RowsAt o a a') (b : Mat 1 N) :
    RowsAt o (addRow a b) (addRow a' b) := fun p r j e => by
  show a (ix2 p j) + b (ix2 0 (colOf (ix2 p j))) = a' (ix2 r j) + b (ix2 0 (colOf (ix2 r j)))
  rw [h p r j e, colOf_ix2, colOf_ix2]

theorem RowsAt.addRowMax {a : Mat M N} {a' : Mat R N} (h : RowsAt o a a') (b : Mat 1 N) (z : EReal) :
    RowsAt o (addRowMax a b z) (addRowMax a' b z) := fun p r j e => by
  show max (a (ix2 p j) + b (ix2 0 (colOf (ix2 p j)))) z = max (a' (ix2 r j) + b (ix2 0 (colOf (ix2 r j)))) z
  rw [h p r j e, colOf_ix2, colOf_ix2]

theorem RowsAt.normRows {a : Mat M N} {a' : Mat R N} (h : RowsAt o a a') (mean var gamma beta : Mat 1 N) :
    RowsAt o (normRows a mean var gamma beta) (normRows a' mean var gamma beta) := fun p r j e => by
  unfold Cert.Gcn.normRows
  rw [h p r j e, colOf_ix2, colOf_ix2]

theorem rowMax_congr {a : Mat M C} {a' : Mat R C} (h : RowsAt o a a') (p : Fin M) (r : Fin R) (e : r.val = o + p.val) :
    rowMax a p = rowMax a' r := by
  unfold rowMax
  exact congrArg (Finset.fold max negInf · Finset.univ) (funext fun k => h p r k e)

theorem RowsAt.logSoftmaxRows {a : Mat M C} {a' : Mat R C} (h : RowsAt o a a') :
    RowsAt o (logSoftmaxRows a) (logSoftmaxRows a') := fun p r j e => by
  unfold Cert.Gcn.logSoftmaxRows
  rw [rowOf_ix2, rowOf_ix2, rowMax_congr h p r e, h p r j e]
  exact congrArg (fun s => a' (ix2 r j) - rowMax a' r - Ideal.log s)
    (Finset.sum_congr rfl fun k _ => by rw [h p r k e])

theorem RowsAt.firstLayer {x : Mat M K} {x' : Mat R K} (h : RowsAt o x x') (w : Mat K N) (b mean var gamma beta : Mat 1 N) :
    RowsAt o (firstLayer x w b mean var gamma beta) (firstLayer x' w b mean var gamma beta) :=
  RowsAt.normRows (RowsAt.addRowMax (Cert.Bridge.RowsAt.prod h w) b zeroVal) mean var gamma beta

theorem RowsAt.afterSum {a : Mat M N} {a' : Mat R N} (h : RowsAt o a a') (b mean var gamma beta : Mat 1 N) :
    RowsAt o (afterSum a b mean var gamma beta) (afterSum a' b mean var gamma beta) :=
  RowsAt.normRows (RowsAt.addRowMax h b zeroVal) mean var gamma beta

theorem RowsAt.head {x : Mat M K} {x' : Mat R K} (h : RowsAt o x x') (w : Mat K C) (b : Mat 1 C) :
    RowsAt o (head x w b) (head x' w b) :=
  RowsAt.logSoftmaxRows (RowsAt.addRow (Cert.Bridge.RowsAt.prod h w) b)

end Cert.Gcn

end
-- ==== Proof.LibHostRow.lean ====
/-
  A bias row spread over the rows of a matrix, and a scalar spread over an array, on the host.

  To add a length-`d` vector to every row of an `[n, d]` array the host first regards the vector as one row `[1, d]`
  and then repeats that row `n` times (two `broadcast_in_dim`s, with dimension maps `[1]` and `[0, 1]`): entry (r, q) of
  the result is entry q of the vector. A scalar spread to any shape (dimension map `[]`) reads the scalar everywhere.
  All three steps are stated for arbitrary extents.
-/
import Idealize.ShloMosaic.Lib.Pipeline.Value
import Idealize.ShloMosaic.Lib.ValueIdx

noncomputable section

namespace Cert.LibHostRow

open Idealize.ShloMosaic Idealize.ShloMosaic.ValueIdx

/-- A vector regarded as one row reads, at (0, q), the vector's entry q. -/
theorem row_apply {α : Type} {d : ℕ} (x : (⟨1, ![d]⟩ : Shape).Idx → α)
    (h : (⟨1, ![d]⟩ : Shape).BroadcastsInDim ⟨2, ![1, d]⟩ (![1] : Fin 1 → Fin 2)) (u : Fin 1) (q : Fin d) :
    broadcastInDim ⟨2, ![1, d]⟩ ![1] h x (ix2 u q) = x (ix1 q) := by
  refine broadcastInDim_apply _ h x (ix2 u q) (ix1 q) fun a => ?_
  match a with
  | ⟨0, _⟩ =>
    show q.val = if d = 1 then 0 else q.val
    split
    · have := q.isLt; omega
    · rfl

/-- One row repeated down the rows reads, at (r, q), the row's entry q. -/
theorem rows_apply {α : Type} {n d : ℕ} (x : (⟨2, ![1, d]⟩ : Shape).Idx → α)
    (h : (⟨2, ![1, d]⟩ : Shape).BroadcastsInDim ⟨2, ![n, d]⟩ (![0, 1] : Fin 2 → Fin 2)) (r : Fin n) (q : Fin d) :
    broadcastInDim ⟨2, ![n, d]⟩ ![0, 1] h x (ix2 r q) = x (ix2 (0 : Fin 1) q) := by
  refine broadcastInDim_apply _ h x (ix2 r q) (ix2 (0 : Fin 1) q) fun a => ?_
  match a with
  | ⟨0, _⟩ => rfl
  | ⟨1, _⟩ =>
    show q.val = if d = 1 then 0 else q.val
    split
    · have := q.isLt; omega
    · rfl

/-- A scalar spread to any shape reads, everywhere, the scalar. -/
theorem scalar_apply {α : Type} {t : Shape} (x : (⟨0, ![]⟩ : Shape).Idx → α)
    (h : (⟨0, ![]⟩ : Shape).BroadcastsInDim t (![] : Fin 0 → Fin t.rank)) (j : t.Idx) :
    broadcastInDim t ![] h x j = x ix0 :=
  broadcastInDim_apply _ h x j ix0 fun a => a.elim0

end Cert.LibHostRow

end
-- ==== Proof.LibHostColumn.lean ====
/-
  A row statistic spread back over the rows, on the host; and a fold that does not mind its starting value twice.

  A host reduction along the rows of an `[n, d]` array comes back as an `[n]` vector. To combine it with the array again
  the host spreads it into a column `[n, 1]` and the column along the rows to `[n, d]` (two `broadcast_in_dim`s, with
  dimension maps `[0]` and `[0, 1]`): entry (r, q) of the result is entry r of the vector. Both steps are stated for
  arbitrary extents. The last lemma: the maximum of a value with a fold of the maximum that started from that same value is
  the fold (what `max(x, axis, initial=-inf)` adds to a reduce that already started from −∞).
-/
import Idealize.ShloMosaic.Lib.Pipeline.Value
import Idealize.ShloMosaic.Lib.ValueIdx
import Idealize.ShloMosaic.PureOps.Ideal

noncomputable section

namespace Cert.LibHostColumn

open Idealize.ShloMosaic Idealize.ShloMosaic.ValueIdx

/-- A vector spread into a column reads, at (r, 0), the vector's entry r. -/
theorem column_apply {α : Type} {n : ℕ} (x : (⟨1, ![n]⟩ : Shape).Idx → α)
    (h : (⟨1, ![n]⟩ : Shape).BroadcastsInDim ⟨2, ![n, 1]⟩ (![0] : Fin 1 → Fin 2)) (r : Fin n) (u : Fin 1) :
    broadcastInDim ⟨2, ![n, 1]⟩ ![0] h x (ix2 r u) = x (ix1 r) := by
  refine broadcastInDim_apply _ h x (ix2 r u) (ix1 r) fun a => ?_
  match a with
  | ⟨0, _⟩ =>
    show r.val = if n = 1 then 0 else r.val
    split
    · have := r.isLt; omega
    · rfl

/-- A column spread along the rows reads, at (r, q), the column's entry r. -/
theorem spread_apply {α : Type} {n d : ℕ} (x : (⟨2, ![n, 1]⟩ : Shape).Idx → α)
    (h : (⟨2, ![n, 1]⟩ : Shape).BroadcastsInDim ⟨2, ![n, d]⟩ (![0, 1] : Fin 2 → Fin 2)) (r : Fin n) (q : Fin d) :
    broadcastInDim ⟨2, ![n, d]⟩ ![0, 1] h x (ix2 r q) = x (ix2 r (0 : Fin 1)) := by
  refine broadcastInDim_apply _ h x (ix2 r q) (ix2 r (0 : Fin 1)) fun a => ?_
  match a with
  | ⟨0, _⟩ =>
    show r.val = if n = 1 then 0 else r.val
    split
    · have := r.isLt; omega
    · rfl
  | ⟨1, _⟩ => rfl

/-- One more maximum with the fold's starting value changes nothing. -/
theorem max_start_fold {ι : Type} (s : Finset ι) (a : EReal) (f : ι → EReal) : max a (s.fold max a f) = s.fold max a f :=
  max_eq_right (Finset.le_fold_max a |>.mpr (Or.inl le_rfl))

end Cert.LibHostColumn

end
-- ==== Proof.LibHostRowMax.lean ====
/-
  A host reduction by maximum along the rows of a matrix, read at a row.

  For any extents: the one-operand host reduction of an `[n, d]` array along its second axis with the maximum as its body
  is, at row `p`, the fold of the maximum from the initial value over the row's `d` entries.
-/
import Idealize.ShloMosaic.PureOps.Ideal.Laws
import Idealize.ShloMosaic.PureOps.Reduce
import Idealize.ShloMosaic.Lib.ValueIdx

noncomputable section

namespace Cert.LibHostRowMax

open Idealize.ShloMosaic Idealize.ShloMosaic.ValueIdx

/-- Row `p` with the column coordinate `k` inserted is the entry `(p, k)`. -/
theorem lift_row {n d : ℕ} (hR : (⟨2, ![n, d]⟩ : Shape).Reduces [1] ⟨1, ![n]⟩) (p : Fin n) (k : Fin d) :
    hR.lift (ix1 p) k = ix2 p k := by
  funext a
  match a with
  | ⟨0, _⟩ => rfl
  | ⟨1, _⟩ => rfl

/-- The host's row maximum at row `p`: the fold of the maximum over the row from the initial value. -/
theorem reduce_max_row {n d : ℕ} {u : Shape} (A : (⟨2, ![n, d]⟩ : Shape).Idx → EReal) (init : u.Idx → EReal)
    (h' : (⟨2, ![n, d]⟩ : Shape).ReducesTo [1] ⟨1, ![n]⟩) (hR : (⟨2, ![n, d]⟩ : Shape).Reduces [1] ⟨1, ![n]⟩)
    (hu : 0 < u.numel) (p : Fin n) :
    Host.reduce (FloatOps.maximumf (F := Ideal) (φ := .f32)) A init h' hu (ix1 p)
      = (Finset.univ : Finset (Fin d)).fold max (init (Shape.Idx.first hu)) fun k => A (ix2 p k) := by
  refine (Host.reduce_eq_fold_single (α := Ideal .f32) FloatOps.maximumf A init h' hR hu (ix1 p)).trans ?_
  refine congrArg (Finset.fold max (init (Shape.Idx.first hu)) · Finset.univ) ?_
  funext k
  exact congrArg A (lift_row hR p k)

end Cert.LibHostRowMax

end
-- ==== Proof.LibHostRowSum.lean ====
/-
  A host sum along the rows of a matrix, and the host's pointwise exponential and logarithm, read at an entry.

  For any extents: the host reduction of an `[n, d]` array along its second axis with addition as its body is, at row
  `p` and at the exact values, the initial value plus the sum of the row's `d` entries. The host's exponential and
  logarithm of an array are, entry by entry, the exact exponential and logarithm.
-/
import proofs.«171350_j70119636075235_2_alg».proof.Proof.LibHostRowMax
import Idealize.ShloMosaic.PureOps.Ideal.Laws
import Idealize.ShloMosaic.Lib.ValueIdx

noncomputable section

namespace Cert.LibHostRowSum

open Idealize.ShloMosaic Idealize.ShloMosaic.ValueIdx

/-- The host's row sum at row `p`: the initial value plus the sum over the row. -/
theorem reduceAdd_row {n d : ℕ} {u : Shape} (A : (⟨2, ![n, d]⟩ : Shape).Idx → EReal) (init : u.Idx → EReal)
    (h' : (⟨2, ![n, d]⟩ : Shape).ReducesTo [1] ⟨1, ![n]⟩) (hR : (⟨2, ![n, d]⟩ : Shape).Reduces [1] ⟨1, ![n]⟩)
    (hu : 0 < u.numel) (p : Fin n) :
    Host.reduceAdd (F := Ideal) (φ := .f32) A init h' hu (ix1 p)
      = init (Shape.Idx.first hu) + ∑ k : Fin d, A (ix2 p k) := by
  unfold Host.reduceAdd
  rw [Ideal.hostReduceAdd_def, Ideal.hostReduceAdd_single h' hR]
  refine congrArg (init (Shape.Idx.first hu) + ·) (Finset.sum_congr rfl fun k _ => ?_)
  exact congrArg A (Cert.LibHostRowMax.lift_row hR p k)

/-- The host's exponential of an array, at an entry. -/
theorem hostExp_apply {s : Shape} (v : FVec Ideal s .f32) (i : s.Idx) : Host.exp v i = Ideal.exp (v i) := rfl

/-- The host's logarithm of an array, at an entry. -/
theorem hostLog_apply {s : Shape} (v : FVec Ideal s .f32) (i : s.Idx) : Host.log v i = Ideal.log (v i) := rfl

end Cert.LibHostRowSum

end
-- ==== Proof.HostLayerForms.lean ====
/-
  The reference's host operations, composed the way each layer composes them, are the whole-array dense steps.

  On the host a length-`d` vector meets an `[n, d]` array by being made one row `[1, d]` and that row being repeated
  down the `n` rows; a scalar constant meets it by being spread everywhere; a row statistic `[n]` comes back as a column
  `[n, 1]` spread along the rows. Read at an entry `(r, c)` each of these is one entry of the small operand, so the chains
  "add the bias row, floor at zero, subtract the mean row, scale by rsqrt (var + eps), scale by gamma, add beta" and
  "subtract the row maximum, subtract the log of the row sum of exponentials" are, entry by entry, the functions
  `afterSum` and `logSoftmaxRows`. Everything is stated for arbitrary extents and over plain variables.
-/
import Idealize.ShloMosaic.Lib.ValueIdx
import Idealize.ShloMosaic.Lib.Pipeline.Value
import Idealize.ShloMosaic.PureOps.Ideal.Laws
import proofs.«171350_j70119636075235_2_alg».proof.Proof.DenseSteps
import proofs.«171350_j70119636075235_2_alg».proof.Proof.LibHostRow
import proofs.«171350_j70119636075235_2_alg».proof.Proof.LibHostColumn
import proofs.«171350_j70119636075235_2_alg».proof.Proof.LibHostRowMax
import proofs.«171350_j70119636075235_2_alg».proof.Proof.LibHostRowSum

noncomputable section

namespace Cert.Gcn.Ref

open Idealize.ShloMosaic Idealize.ShloMosaic.ValueIdx
open Cert.MatProduct (rowOf colOf prod)
open Cert.RowBias (addRow addRowMax)

variable {n d : ℕ}

/-- The chain of host operations that follows a neighbourhood sum (or the first product) is `afterSum`:
    the bias, mean, variance, gamma and beta vectors each enter as one row repeated down the rows, the floor as a
    spread zero, and the epsilon as a spread scalar added to the variance vector before the reciprocal square root. -/
theorem normalise_eq (a : FVec Ideal ⟨2, ![n, d]⟩ .f32) (b mean var gamma beta : FVec Ideal ⟨1, ![d]⟩ .f32)
    (hr : (⟨1, ![d]⟩ : Shape).BroadcastsInDim ⟨2, ![1, d]⟩ (![1] : Fin 1 → Fin 2))
    (hs : (⟨2, ![1, d]⟩ : Shape).BroadcastsInDim ⟨2, ![n, d]⟩ (![0, 1] : Fin 2 → Fin 2))
    (hz : (⟨0, ![]⟩ : Shape).BroadcastsInDim ⟨2, ![n, d]⟩ (![] : Fin 0 → Fin 2))
    (he : (⟨0, ![]⟩ : Shape).BroadcastsInDim ⟨1, ![d]⟩ (![] : Fin 0 → Fin 1)) :
    addf (mulf (mulf (subf
        (maximumf (addf a (broadcastInDim ⟨2, ![n, d]⟩ ![0, 1] hs (broadcastInDim ⟨2, ![1, d]⟩ ![1] hr b)))
          (broadcastInDim ⟨2, ![n, d]⟩ ![] hz (constant (F := Ideal) ⟨0, ![]⟩ .f32 0x00000000#32)))
        (broadcastInDim ⟨2, ![n, d]⟩ ![0, 1] hs (broadcastInDim ⟨2, ![1, d]⟩ ![1] hr mean)))
        (broadcastInDim ⟨2, ![n, d]⟩ ![0, 1] hs (broadcastInDim ⟨2, ![1, d]⟩ ![1] hr
          (Host.rsqrt (addf var (broadcastInDim ⟨1, ![d]⟩ ![] he (constant (F := Ideal) ⟨0, ![]⟩ .f32 0x3727C5AC#32)))))))
        (broadcastInDim ⟨2, ![n, d]⟩ ![0, 1] hs (broadcastInDim ⟨2, ![1, d]⟩ ![1] hr gamma)))
        (broadcastInDim ⟨2, ![n, d]⟩ ![0, 1] hs (broadcastInDim ⟨2, ![1, d]⟩ ![1] hr beta))
      = Cert.Gcn.afterSum a (broadcastInDim ⟨2, ![1, d]⟩ ![1] hr b) (broadcastInDim ⟨2, ![1, d]⟩ ![1] hr mean)
          (broadcastInDim ⟨2, ![1, d]⟩ ![1] hr var) (broadcastInDim ⟨2, ![1, d]⟩ ![1] hr gamma)
          (broadcastInDim ⟨2, ![1, d]⟩ ![1] hr beta) := by
  funext y
  obtain ⟨p, q, rfl⟩ : ∃ p q, y = ix2 p q := ⟨_, _, eq_ix2 y⟩
  rw [addf_apply, mulf_apply, mulf_apply, subf_apply, maximumf_apply, addf_apply]
  rw [Cert.LibHostRow.rows_apply, Cert.LibHostRow.rows_apply, Cert.LibHostRow.rows_apply, Cert.LibHostRow.rows_apply,
    Cert.LibHostRow.rows_apply, Cert.LibHostRow.scalar_apply, Cert.LibHostRow.row_apply (Host.rsqrt _) hr 0 q]
  unfold Cert.Gcn.afterSum Cert.Gcn.normRows Cert.RowBias.addRowMax
  rw [Cert.Gcn.colOf_ix2, Cert.LibHostRow.row_apply var hr 0 q]
  rfl

/-- A bias vector added to every row, the host's way (one row, repeated down the rows, added), is `addRow`. -/
theorem biasRow_eq (a : FVec Ideal ⟨2, ![n, d]⟩ .f32) (b : FVec Ideal ⟨1, ![d]⟩ .f32)
    (hr : (⟨1, ![d]⟩ : Shape).BroadcastsInDim ⟨2, ![1, d]⟩ (![1] : Fin 1 → Fin 2))
    (hs : (⟨2, ![1, d]⟩ : Shape).BroadcastsInDim ⟨2, ![n, d]⟩ (![0, 1] : Fin 2 → Fin 2)) :
    addf a (broadcastInDim ⟨2, ![n, d]⟩ ![0, 1] hs (broadcastInDim ⟨2, ![1, d]⟩ ![1] hr b))
      = addRow a (broadcastInDim ⟨2, ![1, d]⟩ ![1] hr b) := by
  funext y
  obtain ⟨p, q, rfl⟩ : ∃ p q, y = ix2 p q := ⟨_, _, eq_ix2 y⟩
  rw [addf_apply, Cert.LibHostRow.rows_apply]
  unfold Cert.RowBias.addRow
  rw [Cert.Gcn.colOf_ix2]

/-- The row maximum the way a log-softmax takes it on the host — a reduction by maximum that starts from minus
    infinity, then one more maximum with minus infinity spread over the rows — is `rowMax`. -/
theorem hostRowMax_eq (a : FVec Ideal ⟨2, ![n, d]⟩ .f32)
    (h' : (⟨2, ![n, d]⟩ : Shape).ReducesTo [1] ⟨1, ![n]⟩) (hu : 0 < (⟨0, ![]⟩ : Shape).numel)
    (hm : (⟨0, ![]⟩ : Shape).BroadcastsInDim ⟨1, ![n]⟩ (![] : Fin 0 → Fin 1)) (p : Fin n) :
    maximumf (broadcastInDim ⟨1, ![n]⟩ ![] hm (constant (F := Ideal) ⟨0, ![]⟩ .f32 0xFF800000#32))
        (Host.reduce (FloatOps.maximumf (F := Ideal) (φ := .f32)) a (constant (F := Ideal) ⟨0, ![]⟩ .f32 0xFF800000#32) h' hu)
        (ix1 p)
      = Cert.Gcn.rowMax a p := by
  have hR : (⟨2, ![n, d]⟩ : Shape).Reduces [1] ⟨1, ![n]⟩ := ⟨h'.1, Nat.one_pos, h'.2⟩
  rw [maximumf_apply, Cert.LibHostRow.scalar_apply, Cert.LibHostRowMax.reduce_max_row a _ h' hR hu p]
  exact Cert.LibHostColumn.max_start_fold Finset.univ Cert.Gcn.negInf fun k => a (ix2 p k)

/-- The host's row-wise log-softmax — subtract the row maximum spread back as a column, exponentiate, sum each row from
    zero, take the logarithm of the column of sums, spread it back and subtract — is `logSoftmaxRows`. -/
theorem logSoftmax_eq (a : FVec Ideal ⟨2, ![n, d]⟩ .f32)
    (h' : (⟨2, ![n, d]⟩ : Shape).ReducesTo [1] ⟨1, ![n]⟩) (hu : 0 < (⟨0, ![]⟩ : Shape).numel)
    (hm : (⟨0, ![]⟩ : Shape).BroadcastsInDim ⟨1, ![n]⟩ (![] : Fin 0 → Fin 1))
    (hc : (⟨1, ![n]⟩ : Shape).BroadcastsInDim ⟨2, ![n, 1]⟩ (![0] : Fin 1 → Fin 2))
    (hs : (⟨2, ![n, 1]⟩ : Shape).BroadcastsInDim ⟨2, ![n, d]⟩ (![0, 1] : Fin 2 → Fin 2)) :
    subf
        (subf a (broadcastInDim ⟨2, ![n, d]⟩ ![0, 1] hs (broadcastInDim ⟨2, ![n, 1]⟩ ![0] hc
          (maximumf (broadcastInDim ⟨1, ![n]⟩ ![] hm (constant (F := Ideal) ⟨0, ![]⟩ .f32 0xFF800000#32))
            (Host.reduce (FloatOps.maximumf (F := Ideal) (φ := .f32)) a (constant (F := Ideal) ⟨0, ![]⟩ .f32 0xFF800000#32) h' hu)))))
        (broadcastInDim ⟨2, ![n, d]⟩ ![0, 1] hs (Host.log (broadcastInDim ⟨2, ![n, 1]⟩ ![0] hc
          (Host.reduceAdd (F := Ideal) (φ := .f32)
            (Host.exp (subf a (broadcastInDim ⟨2, ![n, d]⟩ ![0, 1] hs (broadcastInDim ⟨2, ![n, 1]⟩ ![0] hc
              (maximumf (broadcastInDim ⟨1, ![n]⟩ ![] hm (constant (F := Ideal) ⟨0, ![]⟩ .f32 0xFF800000#32))
                (Host.reduce (FloatOps.maximumf (F := Ideal) (φ := .f32)) a (constant (F := Ideal) ⟨0, ![]⟩ .f32 0xFF800000#32) h' hu))))))
            (constant (F := Ideal) ⟨0, ![]⟩ .f32 0x00000000#32) h' hu))))
      = Cert.Gcn.logSoftmaxRows a := by
  have hR : (⟨2, ![n, d]⟩ : Shape).Reduces [1] ⟨1, ![n]⟩ := ⟨h'.1, Nat.one_pos, h'.2⟩
  -- the shifted entries of row `p`
  have hz : ∀ (p : Fin n) (k : Fin d),
      subf a (broadcastInDim ⟨2, ![n, d]⟩ ![0, 1] hs (broadcastInDim ⟨2, ![n, 1]⟩ ![0] hc
          (maximumf (broadcastInDim ⟨1, ![n]⟩ ![] hm (constant (F := Ideal) ⟨0, ![]⟩ .f32 0xFF800000#32))
            (Host.reduce (FloatOps.maximumf (F := Ideal) (φ := .f32)) a (constant (F := Ideal) ⟨0, ![]⟩ .f32 0xFF800000#32) h' hu))))
        (ix2 p k) = a (ix2 p k) - Cert.Gcn.rowMax a p := fun p k => by
    rw [subf_apply, Cert.LibHostColumn.spread_apply, Cert.LibHostColumn.column_apply, hostRowMax_eq]
  funext y
  obtain ⟨p, q, rfl⟩ : ∃ p q, y = ix2 p q := ⟨_, _, eq_ix2 y⟩
  rw [subf_apply, hz p q, Cert.LibHostColumn.spread_apply, Cert.LibHostRowSum.hostLog_apply,
    Cert.LibHostColumn.column_apply, Cert.LibHostRowSum.reduceAdd_row _ _ h' hR hu p, constant_apply,
    Ideal.ofBits_zero_f32, zero_add]
  unfold Cert.Gcn.logSoftmaxRows
  rw [Cert.Gcn.rowOf_ix2]
  refine congrArg (fun s => a (ix2 p q) - Cert.Gcn.rowMax a p - Ideal.log s) (Finset.sum_congr rfl fun k _ => ?_)
  rw [Cert.LibHostRowSum.hostExp_apply, hz p k]

end Cert.Gcn.Ref

end
-- ==== Proof.ReferenceLayers.lean ====
/-
  The reference's dense layers are the whole-array dense steps, and its two neighbourhood sums are one function.

  The reference computes the network on whole arrays, one operation per stage. Between the stage that enters a
  layer and the layer's last stage there are only operations that act entry by entry, vectors spread as rows,
  scalar constants spread everywhere, and (in the head) two row reductions spread back as columns. Each such stretch is
  identified here with one function of the dense steps applied to the entering stage: the first layer and the two
  products feeding the neighbourhood sums, the two normalisations that follow the sums, and the log-softmax head. What
  enters a layer is never opened. The neighbourhood sums themselves are opened one level, so that the array they gather
  from is visible: both are the same gather, scale by edge weight and scatter-add, over the same edge stages.
-/
import proofs.«171350_j70119636075235_2_alg».proof.Proof.ReferenceReadPatched
import proofs.«171350_j70119636075235_2_alg».proof.Proof.DenseSteps
import proofs.«171350_j70119636075235_2_alg».proof.Proof.HostLayerForms
import proofs.«171350_j70119636075235_2_alg».proof.Proof.LibMatProduct

noncomputable section

namespace Cert.Gcn.Ref

open Cert.ReferenceIdeal Cert.ReferenceIdeal.Gen Cert.ReferenceIdeal.Read
open Idealize.ShloMosaic Idealize.ShloMosaic.ValueIdx

/-- A length-128 vector as one row `[1, 128]`, the way the reference makes it. -/
abbrev row (v : (⟨S128, .f32⟩ : BufTy).Contents (Elt Ideal)) : (⟨S1x128, .f32⟩ : BufTy).Contents (Elt Ideal) :=
  broadcastInDim S1x128 ![1] bcast_S128_S1x128_1 v

/-- A length-40 vector as one row `[1, 40]`, the way the reference makes it. -/
abbrev row40 (v : (⟨S40, .f32⟩ : BufTy).Contents (Elt Ideal)) : (⟨S1x40, .f32⟩ : BufTy).Contents (Elt Ideal) :=
  broadcastInDim S1x40 ![1] bcast_S40_S1x40_1 v

/-! ## The three products -/

/-- The reference's `[100000, 512]` by `[512, 128]` product is the product. -/
theorem product512_eq (lhs : FVec Ideal S100000x512 .f32) (rhs : FVec Ideal S512x128 .f32) :
    Host.dotGeneral (F := Ideal) dot_S100000x512_S512x128_S100000x128_1_0_0_1_n_n none lhs rhs = Cert.MatProduct.prod lhs rhs :=
  Cert.MatProduct.dotGeneral_eq_prod none .single lhs rhs

/-- The reference's `[100000, 128]` by `[128, 128]` product is the product. -/
theorem product128_eq (lhs : FVec Ideal S100000x128 .f32) (rhs : FVec Ideal S128x128 .f32) :
    Host.dotGeneral (F := Ideal) dot_S100000x128_S128x128_S100000x128_1_0_0_1_n_n none lhs rhs = Cert.MatProduct.prod lhs rhs :=
  Cert.MatProduct.dotGeneral_eq_prod none .single lhs rhs

/-- The reference's `[100000, 128]` by `[128, 40]` product is the product. -/
theorem product40_eq (lhs : FVec Ideal S100000x128 .f32) (rhs : FVec Ideal S128x40 .f32) :
    Host.dotGeneral (F := Ideal) dot_S100000x128_S128x40_S100000x40_1_0_0_1_n_n none lhs rhs = Cert.MatProduct.prod lhs rhs :=
  Cert.MatProduct.dotGeneral_eq_prod none .single lhs rhs

/-! ## The layers -/

/-- The first layer: product with the input weights, bias, floor at zero, normalisation. -/
theorem firstLayer_eq (x0 : (⟨S100000x512, .f32⟩ : BufTy).Contents (Elt Ideal)) (x3 : (⟨S512x128, .f32⟩ : BufTy).Contents (Elt Ideal))
    (x4 x5 x6 x7 x8 : (⟨S128, .f32⟩ : BufTy).Contents (Elt Ideal)) :
    val_main_v53 (F := Ideal) x0 x3 x4 x5 x6 x7 x8
      = Cert.Gcn.firstLayer x0 x3 (row x4) (row x7) (row x8) (row x5) (row x6) := by
  unfold val_main_v53 val_main_v50 val_main_v47 val_main_v41 val_main_v38 val_main_v37 val_main_v52 val_main_v51
    val_main_v49 val_main_v48 val_main_v46 val_main_v45 val_main_v44 val_main_v43 val_main_v42 val_main_cst_7 val_main_v40
    val_main_v39 val_main_call1_v0 val_main_call1_cst val_main_v36 val_main_v35 val_main_v34
  rw [product512_eq]
  exact normalise_eq _ x4 x7 x8 x5 x6 bcast_S128_S1x128_1 bcast_S1x128_S100000x128_0_1 bcast_S_S100000x128 bcast_S_S128

/-- What the first neighbourhood sum gathers from: the first layer's output times the first convolution weights. -/
theorem product0_eq (x0 : (⟨S100000x512, .f32⟩ : BufTy).Contents (Elt Ideal)) (x3 : (⟨S512x128, .f32⟩ : BufTy).Contents (Elt Ideal))
    (x4 x5 x6 x7 x8 : (⟨S128, .f32⟩ : BufTy).Contents (Elt Ideal)) (x9 : (⟨S2x128x128, .f32⟩ : BufTy).Contents (Elt Ideal)) :
    val_main_v56 (F := Ideal) x0 x3 x4 x5 x6 x7 x8 x9
      = Cert.MatProduct.prod (val_main_v53 (F := Ideal) x0 x3 x4 x5 x6 x7 x8) (val_main_v55 (F := Ideal) x9) := by
  unfold val_main_v56
  exact product128_eq _ _

/-- After the first neighbourhood sum: bias, floor at zero, normalisation, with the first rows of the five statistics. -/
theorem afterSum0_eq (x0 : (⟨S100000x512, .f32⟩ : BufTy).Contents (Elt Ideal)) (x1 : (⟨S2x1600000, .i32⟩ : BufTy).Contents (Elt Ideal))
    (x2 : (⟨S1600000, .f32⟩ : BufTy).Contents (Elt Ideal)) (x3 : (⟨S512x128, .f32⟩ : BufTy).Contents (Elt Ideal))
    (x4 x5 x6 x7 x8 : (⟨S128, .f32⟩ : BufTy).Contents (Elt Ideal)) (x9 : (⟨S2x128x128, .f32⟩ : BufTy).Contents (Elt Ideal))
    (x10 x11 x12 x13 x14 : (⟨S2x128, .f32⟩ : BufTy).Contents (Elt Ideal)) :
    val_main_v98 (F := Ideal) x0 x1 x2 x3 x4 x5 x6 x7 x8 x9 x10 x11 x12 x13 x14
      = Cert.Gcn.afterSum (val_main_v69 (F := Ideal) x0 x1 x2 x3 x4 x5 x6 x7 x8 x9) (row (val_main_v71 (F := Ideal) x10))
          (row (val_main_v81 (F := Ideal) x13)) (row (val_main_v83 (F := Ideal) x14)) (row (val_main_v77 (F := Ideal) x11))
          (row (val_main_v79 (F := Ideal) x12)) := by
  unfold val_main_v98 val_main_v95 val_main_v92 val_main_v86 val_main_v75 val_main_v74 val_main_v97 val_main_v96
    val_main_v94 val_main_v93 val_main_v91 val_main_v90 val_main_v89 val_main_v88 val_main_v87 val_main_cst_11 val_main_v85
    val_main_v84 val_main_call2_v0 val_main_call2_cst val_main_v73 val_main_v72
  exact normalise_eq _ _ _ _ _ _ bcast_S128_S1x128_1 bcast_S1x128_S100000x128_0_1 bcast_S_S100000x128 bcast_S_S128

/-- What the second neighbourhood sum gathers from. -/
theorem product1_eq (x0 : (⟨S100000x512, .f32⟩ : BufTy).Contents (Elt Ideal)) (x1 : (⟨S2x1600000, .i32⟩ : BufTy).Contents (Elt Ideal))
    (x2 : (⟨S1600000, .f32⟩ : BufTy).Contents (Elt Ideal)) (x3 : (⟨S512x128, .f32⟩ : BufTy).Contents (Elt Ideal))
    (x4 x5 x6 x7 x8 : (⟨S128, .f32⟩ : BufTy).Contents (Elt Ideal)) (x9 : (⟨S2x128x128, .f32⟩ : BufTy).Contents (Elt Ideal))
    (x10 x11 x12 x13 x14 : (⟨S2x128, .f32⟩ : BufTy).Contents (Elt Ideal)) :
    val_main_v101 (F := Ideal) x0 x1 x2 x3 x4 x5 x6 x7 x8 x9 x10 x11 x12 x13 x14
      = Cert.MatProduct.prod (val_main_v98 (F := Ideal) x0 x1 x2 x3 x4 x5 x6 x7 x8 x9 x10 x11 x12 x13 x14) (val_main_v100 (F := Ideal) x9) := by
  unfold val_main_v101
  exact product128_eq _ _

/-- After the second neighbourhood sum: the same, with the second rows of the five statistics. -/
theorem afterSum1_eq (x0 : (⟨S100000x512, .f32⟩ : BufTy).Contents (Elt Ideal)) (x1 : (⟨S2x1600000, .i32⟩ : BufTy).Contents (Elt Ideal))
    (x2 : (⟨S1600000, .f32⟩ : BufTy).Contents (Elt Ideal)) (x3 : (⟨S512x128, .f32⟩ : BufTy).Contents (Elt Ideal))
    (x4 x5 x6 x7 x8 : (⟨S128, .f32⟩ : BufTy).Contents (Elt Ideal)) (x9 : (⟨S2x128x128, .f32⟩ : BufTy).Contents (Elt Ideal))
    (x10 x11 x12 x13 x14 : (⟨S2x128, .f32⟩ : BufTy).Contents (Elt Ideal)) :
    val_main_v143 (F := Ideal) x0 x1 x2 x3 x4 x5 x6 x7 x8 x9 x10 x11 x12 x13 x14
      = Cert.Gcn.afterSum (val_main_v114 (F := Ideal) x0 x1 x2 x3 x4 x5 x6 x7 x8 x9 x10 x11 x12 x13 x14) (row (val_main_v116 (F := Ideal) x10))
          (row (val_main_v126 (F := Ideal) x13)) (row (val_main_v128 (F := Ideal) x14)) (row (val_main_v122 (F := Ideal) x11))
          (row (val_main_v124 (F := Ideal) x12)) := by
  unfold val_main_v143 val_main_v140 val_main_v137 val_main_v131 val_main_v120 val_main_v119 val_main_v142 val_main_v141
    val_main_v139 val_main_v138 val_main_v136 val_main_v135 val_main_v134 val_main_v133 val_main_v132 val_main_cst_15
    val_main_v130 val_main_v129 val_main_call3_v0 val_main_call3_cst val_main_v118 val_main_v117
  exact normalise_eq _ _ _ _ _ _ bcast_S128_S1x128_1 bcast_S1x128_S100000x128_0_1 bcast_S_S100000x128 bcast_S_S128

/-- The logits: product with the output weights plus the output bias row. -/
theorem logits_eq (x0 : (⟨S100000x512, .f32⟩ : BufTy).Contents (Elt Ideal)) (x1 : (⟨S2x1600000, .i32⟩ : BufTy).Contents (Elt Ideal))
    (x2 : (⟨S1600000, .f32⟩ : BufTy).Contents (Elt Ideal)) (x3 : (⟨S512x128, .f32⟩ : BufTy).Contents (Elt Ideal))
    (x4 x5 x6 x7 x8 : (⟨S128, .f32⟩ : BufTy).Contents (Elt Ideal)) (x9 : (⟨S2x128x128, .f32⟩ : BufTy).Contents (Elt Ideal))
    (x10 x11 x12 x13 x14 : (⟨S2x128, .f32⟩ : BufTy).Contents (Elt Ideal))
    (x15 : (⟨S128x40, .f32⟩ : BufTy).Contents (Elt Ideal)) (x16 : (⟨S40, .f32⟩ : BufTy).Contents (Elt Ideal)) :
    val_main_v147 (F := Ideal) x0 x1 x2 x3 x4 x5 x6 x7 x8 x9 x10 x11 x12 x13 x14 x15 x16
      = Cert.RowBias.addRow (Cert.MatProduct.prod (val_main_v143 (F := Ideal) x0 x1 x2 x3 x4 x5 x6 x7 x8 x9 x10 x11 x12 x13 x14) x15) (row40 x16) := by
  unfold val_main_v147 val_main_v146 val_main_v145 val_main_v144
  rw [product40_eq]
  exact biasRow_eq _ x16 bcast_S40_S1x40_1 bcast_S1x40_S100000x40_0_1

/-- The output head: the row-wise log-softmax of the logits. -/
theorem head_eq (x0 : (⟨S100000x512, .f32⟩ : BufTy).Contents (Elt Ideal)) (x1 : (⟨S2x1600000, .i32⟩ : BufTy).Contents (Elt Ideal))
    (x2 : (⟨S1600000, .f32⟩ : BufTy).Contents (Elt Ideal)) (x3 : (⟨S512x128, .f32⟩ : BufTy).Contents (Elt Ideal))
    (x4 x5 x6 x7 x8 : (⟨S128, .f32⟩ : BufTy).Contents (Elt Ideal)) (x9 : (⟨S2x128x128, .f32⟩ : BufTy).Contents (Elt Ideal))
    (x10 x11 x12 x13 x14 : (⟨S2x128, .f32⟩ : BufTy).Contents (Elt Ideal))
    (x15 : (⟨S128x40, .f32⟩ : BufTy).Contents (Elt Ideal)) (x16 : (⟨S40, .f32⟩ : BufTy).Contents (Elt Ideal)) :
    val_main_v148 (F := Ideal) x0 x1 x2 x3 x4 x5 x6 x7 x8 x9 x10 x11 x12 x13 x14 x15 x16
      = Cert.Gcn.head (val_main_v143 (F := Ideal) x0 x1 x2 x3 x4 x5 x6 x7 x8 x9 x10 x11 x12 x13 x14) x15 (row40 x16) := by
  unfold val_main_v148 val_main_call4_v10 val_main_call4_v9 val_main_call4_v8 val_main_call4_v7 val_main_call4_v6
    val_main_call4_v5 val_main_call4_v4 val_main_call4_v3 val_main_call4_v2 val_main_call4_v1 val_main_call4_v0
    val_main_call4_cst val_main_call4_cst_0 val_main_call4_cst_1
  rw [logits_eq]
  exact logSoftmax_eq _ reducesTo_S100000x40_S100000_d1 h_S_ bcast_S_S100000 bcast_S100000_S100000x1_0
    bcast_S100000x1_S100000x40_0_1

/-! ## The neighbourhood sums, one level opened -/

/-- The neighbourhood sum of an array `t` with one row per node: gather the row of each edge's source (every node is
    also its own neighbour), scale it by the edge's weight, and add it into the row of the edge's target, starting from
    zero. The edge lists and weights are stages of the reference that depend on the edge arguments only. -/
def neighbourSum (t : (⟨S100000x128, .f32⟩ : BufTy).Contents (Elt Ideal)) (x1 : (⟨S2x1600000, .i32⟩ : BufTy).Contents (Elt Ideal))
    (x2 : (⟨S1600000, .f32⟩ : BufTy).Contents (Elt Ideal)) : (⟨S100000x128, .f32⟩ : BufTy).Contents (Elt Ideal) :=
  Host.scatterAdd (F := Ideal) (φ := .f32) scatter_S100000x128_S1700000x1_S1700000x128_1_0_0_1 (val_main_v67 (F := Ideal))
    (val_main_v68 (F := Ideal) x1)
    (mulf (F := Ideal) (φ := .f32)
      (Host.gather gather_S100000x128_S1700000x1_S1700000x128_1_0_n_n_0_1_1128 t (val_main_v62 (F := Ideal) x1))
      (val_main_v65 (F := Ideal) x1 x2))

/-- The first neighbourhood sum is `neighbourSum` of the first product. -/
theorem sum0_eq (x0 : (⟨S100000x512, .f32⟩ : BufTy).Contents (Elt Ideal)) (x1 : (⟨S2x1600000, .i32⟩ : BufTy).Contents (Elt Ideal))
    (x2 : (⟨S1600000, .f32⟩ : BufTy).Contents (Elt Ideal)) (x3 : (⟨S512x128, .f32⟩ : BufTy).Contents (Elt Ideal))
    (x4 x5 x6 x7 x8 : (⟨S128, .f32⟩ : BufTy).Contents (Elt Ideal)) (x9 : (⟨S2x128x128, .f32⟩ : BufTy).Contents (Elt Ideal)) :
    val_main_v69 (F := Ideal) x0 x1 x2 x3 x4 x5 x6 x7 x8 x9
      = neighbourSum (val_main_v56 (F := Ideal) x0 x3 x4 x5 x6 x7 x8 x9) x1 x2 := by
  unfold val_main_v69 val_main_v66 val_main_v63 neighbourSum
  rfl

/-- The second neighbourhood sum is `neighbourSum` of the second product: its edge lists, weights and zero start are the
    same operations on the same arguments as the first one's, printed a second time. -/
theorem sum1_eq (x0 : (⟨S100000x512, .f32⟩ : BufTy).Contents (Elt Ideal)) (x1 : (⟨S2x1600000, .i32⟩ : BufTy).Contents (Elt Ideal))
    (x2 : (⟨S1600000, .f32⟩ : BufTy).Contents (Elt Ideal)) (x3 : (⟨S512x128, .f32⟩ : BufTy).Contents (Elt Ideal))
    (x4 x5 x6 x7 x8 : (⟨S128, .f32⟩ : BufTy).Contents (Elt Ideal)) (x9 : (⟨S2x128x128, .f32⟩ : BufTy).Contents (Elt Ideal))
    (x10 x11 x12 x13 x14 : (⟨S2x128, .f32⟩ : BufTy).Contents (Elt Ideal)) :
    val_main_v114 (F := Ideal) x0 x1 x2 x3 x4 x5 x6 x7 x8 x9 x10 x11 x12 x13 x14
      = neighbourSum (val_main_v101 (F := Ideal) x0 x1 x2 x3 x4 x5 x6 x7 x8 x9 x10 x11 x12 x13 x14) x1 x2 := by
  have e1 : val_main_v112 (F := Ideal) = val_main_v67 (F := Ideal) := rfl
  have e2 : val_main_v113 (F := Ideal) x1 = val_main_v68 (F := Ideal) x1 := rfl
  have e3 : val_main_v107 (F := Ideal) x1 = val_main_v62 (F := Ideal) x1 := rfl
  have e4 : val_main_v110 (F := Ideal) x1 x2 = val_main_v65 (F := Ideal) x1 x2 := rfl
  unfold val_main_v114 val_main_v111 val_main_v108 neighbourSum
  rw [e1, e2, e3, e4]

end Cert.Gcn.Ref

end
-- ==== Proof.Carried.lean ====
/-
  What the stretches of the kernel's program carry along.

  The program is fourteen stretches: host operations and tiled kernels in turn. A tiled kernel changes only its
  own arrays, and a host operation only the buffer it writes; every other buffer is carried along unchanged. So the
  index arrays and the edge normalisation, computed once by the first host stretch, are still there when the two
  neighbourhood sums read them, and each argument array is still as launched wherever it is read.
-/
import proofs.«171350_j70119636075235_2_alg».proof.Proof.Gen.KernelIdeal.Frame

set_option maxRecDepth 16384

noncomputable section

namespace Cert.Gcn.Carried

open Idealize.ShloMosaic Idealize.ShloMosaic.TcCoe Idealize.SL.Sem
open Cert.KernelIdeal Cert.KernelIdeal.Gen

variable {F : FTy → Type} [FloatOps F]
variable (m : (ℓ : Loc nD τ sig) → Buf (Elt F) ℓ) (ρ : Dev nD → PrngReg) (c : Dev nD)

/-- A stretch of host operations none of which writes the buffer leaves it as it was. -/
local macro "keeps " ops:ident : term =>
  `(StableHlo.after_of_forall_not_mem _ _ (List.forall_iff_forall_mem.mp (by
      simp only [$ops:ident, List.flatten_cons, List.flatten_nil, List.append_nil, List.cons_append,
        List.nil_append, List.Forall, StableHlo.nullary_writes, StableHlo.unary_writes, StableHlo.binary_writes,
        StableHlo.ternary_writes, StableHlo.quaternary_writes, StableHlo.reshape_writes, StableHlo.binaryIndexed_writes,
        Finset.mem_singleton]
      repeat' apply And.intro
      all_goals exact StableHlo.devRef_ne_of_ne (by decide))))

/-! ## The arguments between the launch and the first kernel -/

theorem W3_main_arg0 : W3 m ρ c (Proc.devRef .tc main_arg0) = m ((c : Thread nD τ).loc main_arg0) :=
  calc W3 m ρ c (Proc.devRef .tc main_arg0)
    _ = W2 m ρ c (Proc.devRef .tc main_arg0) := (keeps hostOps0_2)
    _ = W1 m ρ c (Proc.devRef .tc main_arg0) := (keeps hostOps0_1)
    _ = W0 m ρ c (Proc.devRef .tc main_arg0) := (keeps hostOps0)
    _ = m ((c : Thread nD τ).loc main_arg0) := rfl

theorem W3_main_arg1 : W3 m ρ c (Proc.devRef .tc main_arg1) = m ((c : Thread nD τ).loc main_arg1) :=
  calc W3 m ρ c (Proc.devRef .tc main_arg1)
    _ = W2 m ρ c (Proc.devRef .tc main_arg1) := (keeps hostOps0_2)
    _ = W1 m ρ c (Proc.devRef .tc main_arg1) := (keeps hostOps0_1)
    _ = W0 m ρ c (Proc.devRef .tc main_arg1) := (keeps hostOps0)
    _ = m ((c : Thread nD τ).loc main_arg1) := rfl

theorem W3_main_arg2 : W3 m ρ c (Proc.devRef .tc main_arg2) = m ((c : Thread nD τ).loc main_arg2) :=
  calc W3 m ρ c (Proc.devRef .tc main_arg2)
    _ = W2 m ρ c (Proc.devRef .tc main_arg2) := (keeps hostOps0_2)
    _ = W1 m ρ c (Proc.devRef .tc main_arg2) := (keeps hostOps0_1)
    _ = W0 m ρ c (Proc.devRef .tc main_arg2) := (keeps hostOps0)
    _ = m ((c : Thread nD τ).loc main_arg2) := rfl

theorem W3_main_arg3 : W3 m ρ c (Proc.devRef .tc main_arg3) = m ((c : Thread nD τ).loc main_arg3) :=
  calc W3 m ρ c (Proc.devRef .tc main_arg3)
    _ = W2 m ρ c (Proc.devRef .tc main_arg3) := (keeps hostOps0_2)
    _ = W1 m ρ c (Proc.devRef .tc main_arg3) := (keeps hostOps0_1)
    _ = W0 m ρ c (Proc.devRef .tc main_arg3) := (keeps hostOps0)
    _ = m ((c : Thread nD τ).loc main_arg3) := rfl

theorem W3_main_arg9 : W3 m ρ c (Proc.devRef .tc main_arg9) = m ((c : Thread nD τ).loc main_arg9) :=
  calc W3 m ρ c (Proc.devRef .tc main_arg9)
    _ = W2 m ρ c (Proc.devRef .tc main_arg9) := (keeps hostOps0_2)
    _ = W1 m ρ c (Proc.devRef .tc main_arg9) := (keeps hostOps0_1)
    _ = W0 m ρ c (Proc.devRef .tc main_arg9) := (keeps hostOps0)
    _ = m ((c : Thread nD τ).loc main_arg9) := rfl

theorem W3_main_arg10 : W3 m ρ c (Proc.devRef .tc main_arg10) = m ((c : Thread nD τ).loc main_arg10) :=
  calc W3 m ρ c (Proc.devRef .tc main_arg10)
    _ = W2 m ρ c (Proc.devRef .tc main_arg10) := (keeps hostOps0_2)
    _ = W1 m ρ c (Proc.devRef .tc main_arg10) := (keeps hostOps0_1)
    _ = W0 m ρ c (Proc.devRef .tc main_arg10) := (keeps hostOps0)
    _ = m ((c : Thread nD τ).loc main_arg10) := rfl

theorem W3_main_arg11 : W3 m ρ c (Proc.devRef .tc main_arg11) = m ((c : Thread nD τ).loc main_arg11) :=
  calc W3 m ρ c (Proc.devRef .tc main_arg11)
    _ = W2 m ρ c (Proc.devRef .tc main_arg11) := (keeps hostOps0_2)
    _ = W1 m ρ c (Proc.devRef .tc main_arg11) := (keeps hostOps0_1)
    _ = W0 m ρ c (Proc.devRef .tc main_arg11) := (keeps hostOps0)
    _ = m ((c : Thread nD τ).loc main_arg11) := rfl

theorem W3_main_arg12 : W3 m ρ c (Proc.devRef .tc main_arg12) = m ((c : Thread nD τ).loc main_arg12) :=
  calc W3 m ρ c (Proc.devRef .tc main_arg12)
    _ = W2 m ρ c (Proc.devRef .tc main_arg12) := (keeps hostOps0_2)
    _ = W1 m ρ c (Proc.devRef .tc main_arg12) := (keeps hostOps0_1)
    _ = W0 m ρ c (Proc.devRef .tc main_arg12) := (keeps hostOps0)
    _ = m ((c : Thread nD τ).loc main_arg12) := rfl

theorem W3_main_arg13 : W3 m ρ c (Proc.devRef .tc main_arg13) = m ((c : Thread nD τ).loc main_arg13) :=
  calc W3 m ρ c (Proc.devRef .tc main_arg13)
    _ = W2 m ρ c (Proc.devRef .tc main_arg13) := (keeps hostOps0_2)
    _ = W1 m ρ c (Proc.devRef .tc main_arg13) := (keeps hostOps0_1)
    _ = W0 m ρ c (Proc.devRef .tc main_arg13) := (keeps hostOps0)
    _ = m ((c : Thread nD τ).loc main_arg13) := rfl

theorem W3_main_arg14 : W3 m ρ c (Proc.devRef .tc main_arg14) = m ((c : Thread nD τ).loc main_arg14) :=
  calc W3 m ρ c (Proc.devRef .tc main_arg14)
    _ = W2 m ρ c (Proc.devRef .tc main_arg14) := (keeps hostOps0_2)
    _ = W1 m ρ c (Proc.devRef .tc main_arg14) := (keeps hostOps0_1)
    _ = W0 m ρ c (Proc.devRef .tc main_arg14) := (keeps hostOps0)
    _ = m ((c : Thread nD τ).loc main_arg14) := rfl

theorem W2_main_arg4 : W2 m ρ c (Proc.devRef .tc main_arg4) = m ((c : Thread nD τ).loc main_arg4) :=
  calc W2 m ρ c (Proc.devRef .tc main_arg4)
    _ = W1 m ρ c (Proc.devRef .tc main_arg4) := (keeps hostOps0_1)
    _ = W0 m ρ c (Proc.devRef .tc main_arg4) := (keeps hostOps0)
    _ = m ((c : Thread nD τ).loc main_arg4) := rfl

theorem W2_main_arg5 : W2 m ρ c (Proc.devRef .tc main_arg5) = m ((c : Thread nD τ).loc main_arg5) :=
  calc W2 m ρ c (Proc.devRef .tc main_arg5)
    _ = W1 m ρ c (Proc.devRef .tc main_arg5) := (keeps hostOps0_1)
    _ = W0 m ρ c (Proc.devRef .tc main_arg5) := (keeps hostOps0)
    _ = m ((c : Thread nD τ).loc main_arg5) := rfl

theorem W2_main_arg6 : W2 m ρ c (Proc.devRef .tc main_arg6) = m ((c : Thread nD τ).loc main_arg6) :=
  calc W2 m ρ c (Proc.devRef .tc main_arg6)
    _ = W1 m ρ c (Proc.devRef .tc main_arg6) := (keeps hostOps0_1)
    _ = W0 m ρ c (Proc.devRef .tc main_arg6) := (keeps hostOps0)
    _ = m ((c : Thread nD τ).loc main_arg6) := rfl

theorem W2_main_arg7 : W2 m ρ c (Proc.devRef .tc main_arg7) = m ((c : Thread nD τ).loc main_arg7) :=
  calc W2 m ρ c (Proc.devRef .tc main_arg7)
    _ = W1 m ρ c (Proc.devRef .tc main_arg7) := (keeps hostOps0_1)
    _ = W0 m ρ c (Proc.devRef .tc main_arg7) := (keeps hostOps0)
    _ = m ((c : Thread nD τ).loc main_arg7) := rfl

theorem W2_main_arg8 : W2 m ρ c (Proc.devRef .tc main_arg8) = m ((c : Thread nD τ).loc main_arg8) :=
  calc W2 m ρ c (Proc.devRef .tc main_arg8)
    _ = W1 m ρ c (Proc.devRef .tc main_arg8) := (keeps hostOps0_1)
    _ = W0 m ρ c (Proc.devRef .tc main_arg8) := (keeps hostOps0)
    _ = m ((c : Thread nD τ).loc main_arg8) := rfl

/-! ## Past the first kernel and the first product -/

theorem W4_main_arg9 : W4 m ρ c (Proc.devRef .tc main_arg9) = m ((c : Thread nD τ).loc main_arg9) :=
  calc W4 m ρ c (Proc.devRef .tc main_arg9)
    _ = W3 m ρ c (Proc.devRef .tc main_arg9) := W4_of_ne m ρ c main_arg9 (by decide)
    _ = m ((c : Thread nD τ).loc main_arg9) := W3_main_arg9 m ρ c

theorem W6_main_arg10 : W6 m ρ c (Proc.devRef .tc main_arg10) = W3 m ρ c (Proc.devRef .tc main_arg10) :=
  calc W6 m ρ c (Proc.devRef .tc main_arg10)
    _ = W5 m ρ c (Proc.devRef .tc main_arg10) := W6_of_ne m ρ c main_arg10 (by decide)
    _ = W4 m ρ c (Proc.devRef .tc main_arg10) := (keeps hostOps1)
    _ = W3 m ρ c (Proc.devRef .tc main_arg10) := W4_of_ne m ρ c main_arg10 (by decide)

theorem W6_main_arg11 : W6 m ρ c (Proc.devRef .tc main_arg11) = W3 m ρ c (Proc.devRef .tc main_arg11) :=
  calc W6 m ρ c (Proc.devRef .tc main_arg11)
    _ = W5 m ρ c (Proc.devRef .tc main_arg11) := W6_of_ne m ρ c main_arg11 (by decide)
    _ = W4 m ρ c (Proc.devRef .tc main_arg11) := (keeps hostOps1)
    _ = W3 m ρ c (Proc.devRef .tc main_arg11) := W4_of_ne m ρ c main_arg11 (by decide)

theorem W6_main_arg12 : W6 m ρ c (Proc.devRef .tc main_arg12) = W3 m ρ c (Proc.devRef .tc main_arg12) :=
  calc W6 m ρ c (Proc.devRef .tc main_arg12)
    _ = W5 m ρ c (Proc.devRef .tc main_arg12) := W6_of_ne m ρ c main_arg12 (by decide)
    _ = W4 m ρ c (Proc.devRef .tc main_arg12) := (keeps hostOps1)
    _ = W3 m ρ c (Proc.devRef .tc main_arg12) := W4_of_ne m ρ c main_arg12 (by decide)

theorem W6_main_arg13 : W6 m ρ c (Proc.devRef .tc main_arg13) = W3 m ρ c (Proc.devRef .tc main_arg13) :=
  calc W6 m ρ c (Proc.devRef .tc main_arg13)
    _ = W5 m ρ c (Proc.devRef .tc main_arg13) := W6_of_ne m ρ c main_arg13 (by decide)
    _ = W4 m ρ c (Proc.devRef .tc main_arg13) := (keeps hostOps1)
    _ = W3 m ρ c (Proc.devRef .tc main_arg13) := W4_of_ne m ρ c main_arg13 (by decide)

theorem W6_main_arg14 : W6 m ρ c (Proc.devRef .tc main_arg14) = W3 m ρ c (Proc.devRef .tc main_arg14) :=
  calc W6 m ρ c (Proc.devRef .tc main_arg14)
    _ = W5 m ρ c (Proc.devRef .tc main_arg14) := W6_of_ne m ρ c main_arg14 (by decide)
    _ = W4 m ρ c (Proc.devRef .tc main_arg14) := (keeps hostOps1)
    _ = W3 m ρ c (Proc.devRef .tc main_arg14) := W4_of_ne m ρ c main_arg14 (by decide)

theorem W6_main_v33 : W6 m ρ c (Proc.devRef .tc main_v33) = W3 m ρ c (Proc.devRef .tc main_v33) :=
  calc W6 m ρ c (Proc.devRef .tc main_v33)
    _ = W5 m ρ c (Proc.devRef .tc main_v33) := W6_of_ne m ρ c main_v33 (by decide)
    _ = W4 m ρ c (Proc.devRef .tc main_v33) := (keeps hostOps1)
    _ = W3 m ρ c (Proc.devRef .tc main_v33) := W4_of_ne m ρ c main_v33 (by decide)

theorem W6_main_v3 : W6 m ρ c (Proc.devRef .tc main_v3) = W3 m ρ c (Proc.devRef .tc main_v3) :=
  calc W6 m ρ c (Proc.devRef .tc main_v3)
    _ = W5 m ρ c (Proc.devRef .tc main_v3) := W6_of_ne m ρ c main_v3 (by decide)
    _ = W4 m ρ c (Proc.devRef .tc main_v3) := (keeps hostOps1)
    _ = W3 m ρ c (Proc.devRef .tc main_v3) := W4_of_ne m ρ c main_v3 (by decide)

theorem W6_main_v6 : W6 m ρ c (Proc.devRef .tc main_v6) = W3 m ρ c (Proc.devRef .tc main_v6) :=
  calc W6 m ρ c (Proc.devRef .tc main_v6)
    _ = W5 m ρ c (Proc.devRef .tc main_v6) := W6_of_ne m ρ c main_v6 (by decide)
    _ = W4 m ρ c (Proc.devRef .tc main_v6) := (keeps hostOps1)
    _ = W3 m ρ c (Proc.devRef .tc main_v6) := W4_of_ne m ρ c main_v6 (by decide)

/-! ## Past the first neighbourhood sum and the second product -/

theorem W8_main_arg9 : W8 m ρ c (Proc.devRef .tc main_arg9) = m ((c : Thread nD τ).loc main_arg9) :=
  calc W8 m ρ c (Proc.devRef .tc main_arg9)
    _ = W7 m ρ c (Proc.devRef .tc main_arg9) := W8_of_ne m ρ c main_arg9 (by decide)
    _ = W6 m ρ c (Proc.devRef .tc main_arg9) := (keeps hostOps2)
    _ = W5 m ρ c (Proc.devRef .tc main_arg9) := W6_of_ne m ρ c main_arg9 (by decide)
    _ = W4 m ρ c (Proc.devRef .tc main_arg9) := (keeps hostOps1)
    _ = m ((c : Thread nD τ).loc main_arg9) := W4_main_arg9 m ρ c

theorem W10_main_arg10 : W10 m ρ c (Proc.devRef .tc main_arg10) = W3 m ρ c (Proc.devRef .tc main_arg10) :=
  calc W10 m ρ c (Proc.devRef .tc main_arg10)
    _ = W9 m ρ c (Proc.devRef .tc main_arg10) := W10_of_ne m ρ c main_arg10 (by decide)
    _ = W8 m ρ c (Proc.devRef .tc main_arg10) := (keeps hostOps3)
    _ = W7 m ρ c (Proc.devRef .tc main_arg10) := W8_of_ne m ρ c main_arg10 (by decide)
    _ = W6 m ρ c (Proc.devRef .tc main_arg10) := (keeps hostOps2)
    _ = W3 m ρ c (Proc.devRef .tc main_arg10) := W6_main_arg10 m ρ c

theorem W10_main_arg11 : W10 m ρ c (Proc.devRef .tc main_arg11) = W3 m ρ c (Proc.devRef .tc main_arg11) :=
  calc W10 m ρ c (Proc.devRef .tc main_arg11)
    _ = W9 m ρ c (Proc.devRef .tc main_arg11) := W10_of_ne m ρ c main_arg11 (by decide)
    _ = W8 m ρ c (Proc.devRef .tc main_arg11) := (keeps hostOps3)
    _ = W7 m ρ c (Proc.devRef .tc main_arg11) := W8_of_ne m ρ c main_arg11 (by decide)
    _ = W6 m ρ c (Proc.devRef .tc main_arg11) := (keeps hostOps2)
    _ = W3 m ρ c (Proc.devRef .tc main_arg11) := W6_main_arg11 m ρ c

theorem W10_main_arg12 : W10 m ρ c (Proc.devRef .tc main_arg12) = W3 m ρ c (Proc.devRef .tc main_arg12) :=
  calc W10 m ρ c (Proc.devRef .tc main_arg12)
    _ = W9 m ρ c (Proc.devRef .tc main_arg12) := W10_of_ne m ρ c main_arg12 (by decide)
    _ = W8 m ρ c (Proc.devRef .tc main_arg12) := (keeps hostOps3)
    _ = W7 m ρ c (Proc.devRef .tc main_arg12) := W8_of_ne m ρ c main_arg12 (by decide)
    _ = W6 m ρ c (Proc.devRef .tc main_arg12) := (keeps hostOps2)
    _ = W3 m ρ c (Proc.devRef .tc main_arg12) := W6_main_arg12 m ρ c

theorem W10_main_arg13 : W10 m ρ c (Proc.devRef .tc main_arg13) = W3 m ρ c (Proc.devRef .tc main_arg13) :=
  calc W10 m ρ c (Proc.devRef .tc main_arg13)
    _ = W9 m ρ c (Proc.devRef .tc main_arg13) := W10_of_ne m ρ c main_arg13 (by decide)
    _ = W8 m ρ c (Proc.devRef .tc main_arg13) := (keeps hostOps3)
    _ = W7 m ρ c (Proc.devRef .tc main_arg13) := W8_of_ne m ρ c main_arg13 (by decide)
    _ = W6 m ρ c (Proc.devRef .tc main_arg13) := (keeps hostOps2)
    _ = W3 m ρ c (Proc.devRef .tc main_arg13) := W6_main_arg13 m ρ c

theorem W10_main_arg14 : W10 m ρ c (Proc.devRef .tc main_arg14) = W3 m ρ c (Proc.devRef .tc main_arg14) :=
  calc W10 m ρ c (Proc.devRef .tc main_arg14)
    _ = W9 m ρ c (Proc.devRef .tc main_arg14) := W10_of_ne m ρ c main_arg14 (by decide)
    _ = W8 m ρ c (Proc.devRef .tc main_arg14) := (keeps hostOps3)
    _ = W7 m ρ c (Proc.devRef .tc main_arg14) := W8_of_ne m ρ c main_arg14 (by decide)
    _ = W6 m ρ c (Proc.devRef .tc main_arg14) := (keeps hostOps2)
    _ = W3 m ρ c (Proc.devRef .tc main_arg14) := W6_main_arg14 m ρ c

theorem W10_main_v33 : W10 m ρ c (Proc.devRef .tc main_v33) = W3 m ρ c (Proc.devRef .tc main_v33) :=
  calc W10 m ρ c (Proc.devRef .tc main_v33)
    _ = W9 m ρ c (Proc.devRef .tc main_v33) := W10_of_ne m ρ c main_v33 (by decide)
    _ = W8 m ρ c (Proc.devRef .tc main_v33) := (keeps hostOps3)
    _ = W7 m ρ c (Proc.devRef .tc main_v33) := W8_of_ne m ρ c main_v33 (by decide)
    _ = W6 m ρ c (Proc.devRef .tc main_v33) := (keeps hostOps2)
    _ = W3 m ρ c (Proc.devRef .tc main_v33) := W6_main_v33 m ρ c

theorem W10_main_v3 : W10 m ρ c (Proc.devRef .tc main_v3) = W3 m ρ c (Proc.devRef .tc main_v3) :=
  calc W10 m ρ c (Proc.devRef .tc main_v3)
    _ = W9 m ρ c (Proc.devRef .tc main_v3) := W10_of_ne m ρ c main_v3 (by decide)
    _ = W8 m ρ c (Proc.devRef .tc main_v3) := (keeps hostOps3)
    _ = W7 m ρ c (Proc.devRef .tc main_v3) := W8_of_ne m ρ c main_v3 (by decide)
    _ = W6 m ρ c (Proc.devRef .tc main_v3) := (keeps hostOps2)
    _ = W3 m ρ c (Proc.devRef .tc main_v3) := W6_main_v3 m ρ c

theorem W10_main_v6 : W10 m ρ c (Proc.devRef .tc main_v6) = W3 m ρ c (Proc.devRef .tc main_v6) :=
  calc W10 m ρ c (Proc.devRef .tc main_v6)
    _ = W9 m ρ c (Proc.devRef .tc main_v6) := W10_of_ne m ρ c main_v6 (by decide)
    _ = W8 m ρ c (Proc.devRef .tc main_v6) := (keeps hostOps3)
    _ = W7 m ρ c (Proc.devRef .tc main_v6) := W8_of_ne m ρ c main_v6 (by decide)
    _ = W6 m ρ c (Proc.devRef .tc main_v6) := (keeps hostOps2)
    _ = W3 m ρ c (Proc.devRef .tc main_v6) := W6_main_v6 m ρ c

/-! ## The head's weights and bias: as launched, read back from the end -/

theorem W12_main_arg16 : W12 m ρ c (Proc.devRef .tc main_arg16) = m ((c : Thread nD τ).loc main_arg16) :=
  ((W14_of_ne m ρ c main_arg16 (by decide)).trans (keeps hostOps5)).symm.trans (W14_main_arg16 m ρ c)

/-- The head's weight array is one of the last kernel's input arrays: an input array leaves a kernel as it entered. -/
theorem W13_main_arg15 : W13 m ρ c (Proc.devRef .tc main_arg15) = m ((c : Thread nD τ).loc main_arg15) :=
  ((W14_arr m ρ c 1).trans (((dat5 (V13 m ρ) c).arrAt_in 1 rfl _).trans (A_eq5 (V13 m ρ) c 1))).symm.trans (W14_main_arg15 m ρ c)

/-! ## A kernel's output array reaches the next kernel unchanged through the two-operation stretches -/

theorem W5_main_v39 : W5 m ρ c (Proc.devRef .tc main_v39) = W4 m ρ c (Proc.devRef .tc main_v39) := (keeps hostOps1)
theorem W9_main_v71 : W9 m ρ c (Proc.devRef .tc main_v71) = W8 m ρ c (Proc.devRef .tc main_v71) := (keeps hostOps3)
theorem W13_main_v103 : W13 m ρ c (Proc.devRef .tc main_v103) = W12 m ρ c (Proc.devRef .tc main_v103) := (keeps hostOps5)

end Cert.Gcn.Carried

end
-- ==== Proof.BridgeEntry.lean ====
/-
  Before the first kernel: the index arrays, the edge normalisation and the parameter rows.

  Both programs begin with the same host operations on the edge list and the edge weights: the source and
  destination of every edge with a self loop appended for each node, the weighted degree of every node by a
  scatter-add, its inverse square root where the degree is positive, and the normalisation
  dinv(source) * weight * dinv(destination) of every edge. Read stretch by stretch, the kernel program's buffers
  hold exactly the reference's stages of the same names' operations. The kernel program also lays each length-128
  parameter vector out as one row by a change of shape where the reference spreads it along a new leading axis:
  the same [1, 128] array.
-/
import proofs.«171350_j70119636075235_2_alg».proof.Proof.Gen.KernelIdeal.Frame
import proofs.«171350_j70119636075235_2_alg».proof.Proof.ReferenceLayers
import proofs.«171350_j70119636075235_2_alg».proof.Proof.Carried
import proofs.«171350_j70119636075235_2_alg».proof.Proof.LibRowBias
import proofs.«171350_j70119636075235_2_alg».proof.Proof.LibHostRow

set_option maxRecDepth 16384

noncomputable section

namespace Cert.Gcn.Bridge

open Idealize.ShloMosaic Idealize.ShloMosaic.ValueIdx Idealize.ShloMosaic.TcCoe Idealize.SL.Sem Idealize.ShloMosaic.StableHlo
open Cert.KernelIdeal Cert.KernelIdeal.Gen
open Cert.ReferenceIdeal.Read
open Cert.Gcn.Ref (row row40)

/-- A vector laid out as one row by a change of shape, and the same vector spread along a new leading axis of
    extent one: one array. -/
theorem row_forms {N : ℕ} (v : (⟨1, ![N]⟩ : Shape).Idx → EReal) (h : (⟨1, ![N]⟩ : Shape).ShapeCasts ⟨2, ![1, N]⟩)
    (h' : (⟨1, ![N]⟩ : Shape).BroadcastsInDim ⟨2, ![1, N]⟩ (![1] : Fin 1 → Fin 2)) :
    shapeCast ⟨2, ![1, N]⟩ v h = broadcastInDim ⟨2, ![1, N]⟩ ![1] h' v := by
  funext y
  obtain ⟨u, q, rfl⟩ : ∃ (u : Fin 1) (q : Fin N), y = ix2 u q := ⟨_, _, eq_ix2 y⟩
  obtain rfl : u = 0 := Subsingleton.elim _ _
  rw [Cert.RowBias.vecRow_apply v h q, Cert.LibHostRow.row_apply v h' 0 q]

/-- A stretch of host operations none of which writes the buffer leaves it as it was. -/
local macro "keeps " ops:ident : term =>
  `(StableHlo.after_of_forall_not_mem _ _ (List.forall_iff_forall_mem.mp (by
      simp only [$ops:ident, List.flatten_cons, List.flatten_nil, List.append_nil, List.cons_append,
        List.nil_append, List.Forall, StableHlo.nullary_writes, StableHlo.unary_writes, StableHlo.binary_writes,
        StableHlo.ternary_writes, StableHlo.quaternary_writes, StableHlo.reshape_writes, StableHlo.binaryIndexed_writes,
        Finset.mem_singleton]
      repeat' apply And.intro
      all_goals exact StableHlo.devRef_ne_of_ne (by decide))))

section Stretches

variable (W : Valuation τ sig (Elt Ideal))

/-! ## The first stretch, from any contents: sources, destinations, weights, and the degree's two readings -/

theorem first_sources : after hostOps0 W (Proc.devRef .tc main_v3) = val_main_v3 (F := Ideal) (W (Proc.devRef .tc main_arg1)) := by
  simp only [hostOps0]; after_results; rfl

theorem first_destinations : after hostOps0 W (Proc.devRef .tc main_v6) = val_main_v6 (F := Ideal) (W (Proc.devRef .tc main_arg1)) := by
  simp only [hostOps0]; after_results; rfl

theorem first_weights : after hostOps0 W (Proc.devRef .tc main_v8) = val_main_v8 (F := Ideal) (W (Proc.devRef .tc main_arg2)) := by
  simp only [hostOps0]; after_results; rfl

theorem first_positive : after hostOps0 W (Proc.devRef .tc main_v13)
    = val_main_v13 (F := Ideal) (W (Proc.devRef .tc main_arg1)) (W (Proc.devRef .tc main_arg2)) := by
  simp only [hostOps0]; after_results; rfl

theorem first_rsqrt : after hostOps0 W (Proc.devRef .tc main_v16)
    = val_main_v16 (F := Ideal) (W (Proc.devRef .tc main_arg1)) (W (Proc.devRef .tc main_arg2)) := by
  simp only [hostOps0]; after_results; rfl

theorem first_zero : after hostOps0 W (Proc.devRef .tc main_cst_3) = val_main_cst_3 (F := Ideal) := by
  simp only [hostOps0]; after_results; rfl

/-! ## The second stretch: the inverse square root of the degree where the degree is positive, zero elsewhere -/

theorem second_dinv (x1 : (⟨Cert.ReferenceIdeal.S2x1600000, .i32⟩ : BufTy).Contents (Elt Ideal))
    (x2 : (⟨Cert.ReferenceIdeal.S1600000, .f32⟩ : BufTy).Contents (Elt Ideal))
    (h13 : W (Proc.devRef .tc main_v13) = val_main_v13 (F := Ideal) x1 x2)
    (h16 : W (Proc.devRef .tc main_v16) = val_main_v16 (F := Ideal) x1 x2)
    (hz : W (Proc.devRef .tc main_cst_3) = val_main_cst_3 (F := Ideal)) :
    after hostOps0_1 W (Proc.devRef .tc main_v17) = val_main_v17 (F := Ideal) x1 x2 := by
  simp only [hostOps0_1]
  after_results
  show _ = select (val_main_v13 (F := Ideal) x1 x2) (val_main_v16 (F := Ideal) x1 x2)
    (broadcastInDim _ ![] _ (id (val_main_cst_3 (F := Ideal))))
  rw [← h13, ← h16, ← hz]
  rfl

/-! ## The third stretch: the edge normalisation, and the first layer's five parameter rows -/

set_option maxHeartbeats 8000000 in
theorem third_norm (x1 : (⟨Cert.ReferenceIdeal.S2x1600000, .i32⟩ : BufTy).Contents (Elt Ideal))
    (x2 : (⟨Cert.ReferenceIdeal.S1600000, .f32⟩ : BufTy).Contents (Elt Ideal))
    (h17 : W (Proc.devRef .tc main_v17) = val_main_v17 (F := Ideal) x1 x2)
    (h8 : W (Proc.devRef .tc main_v8) = val_main_v8 (F := Ideal) x2)
    (h3 : W (Proc.devRef .tc main_v3) = val_main_v3 (F := Ideal) x1)
    (h6 : W (Proc.devRef .tc main_v6) = val_main_v6 (F := Ideal) x1) :
    after hostOps0_2 W (Proc.devRef .tc main_v33) = val_main_v33 (F := Ideal) x1 x2 := by
  simp only [hostOps0_2]
  after_results
  rw [h17, h8, h3, h6]
  rfl

set_option maxHeartbeats 4000000 in
theorem third_row_main_v34 : after hostOps0_2 W (Proc.devRef .tc main_v34) = row (W (Proc.devRef .tc main_arg4)) := by
  simp only [hostOps0_2]; after_results; exact row_forms _ _ _

set_option maxHeartbeats 4000000 in
theorem third_row_main_v35 : after hostOps0_2 W (Proc.devRef .tc main_v35) = row (W (Proc.devRef .tc main_arg5)) := by
  simp only [hostOps0_2]; after_results; exact row_forms _ _ _

set_option maxHeartbeats 4000000 in
theorem third_row_main_v36 : after hostOps0_2 W (Proc.devRef .tc main_v36) = row (W (Proc.devRef .tc main_arg6)) := by
  simp only [hostOps0_2]; after_results; exact row_forms _ _ _

set_option maxHeartbeats 4000000 in
theorem third_row_main_v37 : after hostOps0_2 W (Proc.devRef .tc main_v37) = row (W (Proc.devRef .tc main_arg7)) := by
  simp only [hostOps0_2]; after_results; exact row_forms _ _ _

set_option maxHeartbeats 4000000 in
theorem third_row_main_v38 : after hostOps0_2 W (Proc.devRef .tc main_v38) = row (W (Proc.devRef .tc main_arg8)) := by
  simp only [hostOps0_2]; after_results; exact row_forms _ _ _

end Stretches

/-! ## What the first kernel finds -/

variable (m : (ℓ : Loc nD τ sig) → Buf (Elt Ideal) ℓ) (ρ : Dev nD → PrngReg) (c : Dev nD)

theorem entry_sources : W3 m ρ c (Proc.devRef .tc main_v3) = val_main_v3 (F := Ideal) (m ((c : Thread nD τ).loc main_arg1)) :=
  calc W3 m ρ c (Proc.devRef .tc main_v3)
    _ = W2 m ρ c (Proc.devRef .tc main_v3) := keeps hostOps0_2
    _ = W1 m ρ c (Proc.devRef .tc main_v3) := keeps hostOps0_1
    _ = _ := first_sources (W0 m ρ c)

theorem entry_destinations : W3 m ρ c (Proc.devRef .tc main_v6) = val_main_v6 (F := Ideal) (m ((c : Thread nD τ).loc main_arg1)) :=
  calc W3 m ρ c (Proc.devRef .tc main_v6)
    _ = W2 m ρ c (Proc.devRef .tc main_v6) := keeps hostOps0_2
    _ = W1 m ρ c (Proc.devRef .tc main_v6) := keeps hostOps0_1
    _ = _ := first_destinations (W0 m ρ c)

theorem entry_norm : W3 m ρ c (Proc.devRef .tc main_v33)
    = val_main_v33 (F := Ideal) (m ((c : Thread nD τ).loc main_arg1)) (m ((c : Thread nD τ).loc main_arg2)) :=
  third_norm (W2 m ρ c) _ _
    (second_dinv (W1 m ρ c) _ _ (first_positive (W0 m ρ c)) (first_rsqrt (W0 m ρ c)) (first_zero (W0 m ρ c)))
    ((keeps hostOps0_1 : W2 m ρ c (Proc.devRef .tc main_v8) = W1 m ρ c (Proc.devRef .tc main_v8)).trans (first_weights (W0 m ρ c)))
    ((keeps hostOps0_1 : W2 m ρ c (Proc.devRef .tc main_v3) = W1 m ρ c (Proc.devRef .tc main_v3)).trans (first_sources (W0 m ρ c)))
    ((keeps hostOps0_1 : W2 m ρ c (Proc.devRef .tc main_v6) = W1 m ρ c (Proc.devRef .tc main_v6)).trans (first_destinations (W0 m ρ c)))

theorem entry_row_main_v34 : W3 m ρ c (Proc.devRef .tc main_v34) = row (m ((c : Thread nD τ).loc main_arg4)) :=
  (third_row_main_v34 (W2 m ρ c)).trans (congrArg row (Cert.Gcn.Carried.W2_main_arg4 m ρ c))

theorem entry_row_main_v35 : W3 m ρ c (Proc.devRef .tc main_v35) = row (m ((c : Thread nD τ).loc main_arg5)) :=
  (third_row_main_v35 (W2 m ρ c)).trans (congrArg row (Cert.Gcn.Carried.W2_main_arg5 m ρ c))

theorem entry_row_main_v36 : W3 m ρ c (Proc.devRef .tc main_v36) = row (m ((c : Thread nD τ).loc main_arg6)) :=
  (third_row_main_v36 (W2 m ρ c)).trans (congrArg row (Cert.Gcn.Carried.W2_main_arg6 m ρ c))

theorem entry_row_main_v37 : W3 m ρ c (Proc.devRef .tc main_v37) = row (m ((c : Thread nD τ).loc main_arg7)) :=
  (third_row_main_v37 (W2 m ρ c)).trans (congrArg row (Cert.Gcn.Carried.W2_main_arg7 m ρ c))

theorem entry_row_main_v38 : W3 m ρ c (Proc.devRef .tc main_v38) = row (m ((c : Thread nD τ).loc main_arg8)) :=
  (third_row_main_v38 (W2 m ρ c)).trans (congrArg row (Cert.Gcn.Carried.W2_main_arg8 m ρ c))

end Cert.Gcn.Bridge

end
-- ==== Proof.BlockValues.lean ====
/-
  What each of the six kernel bodies leaves in its output block, as a whole-array function of its input blocks.

  Every body loads whole blocks, computes with whole-block vector operations and stores one whole block. At the
  exact values each of those vector operations is a simple function of the entries: a change of number format
  changes nothing; the matrix unit accumulating into zero gives the matrix product; a one-row block spread down the
  rows gives, at (r, c), the row's entry c; a reduction along the lanes gives, at row r, the fold of the maximum
  (from minus infinity) or the sum over that row's entries, and spreading that column back along the lanes gives the
  row's statistic at every (r, c). Composing these readings, the stored block is: for the first layer
  `norm (max (x · w + b) 0)`; for the two plain products `x · w`; after a neighbourhood sum
  `norm (max (agg + b) 0)`; for the head `logSoftmax (h · w + b)` — the dense steps applied to the blocks
  themselves. The statistics rows enter each body in the order bias, gamma, beta, mean, variance, while the
  normalisation reads them as mean, variance, gamma, beta: the statements below put each row in its place.
-/
import proofs.«171350_j70119636075235_2_alg».proof.Proof.Gen.KernelIdeal.Frame
import proofs.«171350_j70119636075235_2_alg».proof.Proof.DenseSteps
import proofs.«171350_j70119636075235_2_alg».proof.Proof.LibMatProduct
import proofs.«171350_j70119636075235_2_alg».proof.Proof.LibRowBias
import proofs.«171350_j70119636075235_2_alg».proof.Proof.LibHostRowMax
import Idealize.ShloMosaic.Lib.ValueIdx
import Idealize.ShloMosaic.Lib.Pipeline.Value
import Idealize.ShloMosaic.PureOps.Ideal.Laws

noncomputable section

namespace Cert.Gcn.Blocks

open Idealize.ShloMosaic Idealize.ShloMosaic.ValueIdx
open Cert.MatProduct (rowOf colOf prod eq_row_col)
open Cert.RowBias (addRow addRowMax spreadRow_apply)
open Cert.KernelIdeal Cert.KernelIdeal.Gen

variable {R N C : ℕ}

/-! ## The vector operations, read as whole-array functions -/

/-- A one-row block spread down the rows and added is the bias addition. -/
theorem spread_addRow (x : FVec Ideal ⟨2, ![R, N]⟩ .f32) (b : FVec Ideal ⟨2, ![1, N]⟩ .f32)
    (hb : (⟨2, ![1, N]⟩ : Shape).Broadcasts ⟨2, ![R, N]⟩) :
    addf x (broadcastTo ⟨2, ![R, N]⟩ b hb) = addRow x b := by
  funext y
  rw [addf_apply, spreadRow_apply]
  rfl

/-- The same followed by the maximum with a splat is the bias addition floored at the splat's value. -/
theorem spread_addRowMax (x : FVec Ideal ⟨2, ![R, N]⟩ .f32) (b : FVec Ideal ⟨2, ![1, N]⟩ .f32)
    (hb : (⟨2, ![1, N]⟩ : Shape).Broadcasts ⟨2, ![R, N]⟩) (z : Ideal .f32) :
    maximumf (addf x (broadcastTo ⟨2, ![R, N]⟩ b hb)) (broadcast ⟨2, ![R, N]⟩ z) = addRowMax x b z := by
  funext y
  rw [maximumf_apply, addf_apply, spreadRow_apply, broadcast_apply]
  rfl

/-- Four one-row blocks spread down the rows: subtract the mean, scale by `rsqrt (var + eps)` and by gamma, add beta. -/
theorem spread_normRows (a : FVec Ideal ⟨2, ![R, N]⟩ .f32) (mean var gamma beta : FVec Ideal ⟨2, ![1, N]⟩ .f32)
    (hb : (⟨2, ![1, N]⟩ : Shape).Broadcasts ⟨2, ![R, N]⟩) :
    addf (mulf (mulf (subf a (broadcastTo ⟨2, ![R, N]⟩ mean hb))
          (broadcastTo ⟨2, ![R, N]⟩
            (rsqrt (addf var (broadcast ⟨2, ![1, N]⟩ (Scalar.ofBits (F := Ideal) .f32 0x3727C5AC#32)))) hb))
        (broadcastTo ⟨2, ![R, N]⟩ gamma hb)) (broadcastTo ⟨2, ![R, N]⟩ beta hb)
      = normRows a mean var gamma beta := by
  funext y
  rw [addf_apply, mulf_apply, mulf_apply, subf_apply, spreadRow_apply, spreadRow_apply, spreadRow_apply,
    spreadRow_apply]
  rfl

/-- The maximum along the lanes, at row `p`: the fold of the maximum over the row, from the accumulator's value. -/
theorem laneMax_apply (a : FVec Ideal ⟨2, ![R, C]⟩ .f32) (acc : BitVec FTy.f32.bits)
    (hR : (⟨2, ![R, C]⟩ : Shape).Reduces [1] ⟨1, ![R]⟩) (hφ : FKind.Formats .f32)
    (hacc : acc = FKind.maximumf.neutral .f32 hφ) (p : Fin R) :
    multiReduction .maximumf [1] ⟨1, ![R]⟩ a acc hR hφ hacc (ix1 p)
      = (Finset.univ : Finset (Fin C)).fold max (Ideal.ofBits .f32 acc) fun k => a (ix2 p k) := by
  refine (Ideal.multiReduction_maximumf_single a acc hR hφ hacc (ix1 p)).trans ?_
  refine congrArg (Finset.fold max (Ideal.ofBits .f32 acc) · Finset.univ) ?_
  funext k
  exact congrArg a (Cert.LibHostRowMax.lift_row hR p k)

/-- The sum along the lanes, at row `p`: the sum over the row (the accumulator is the neutral element). -/
theorem laneSum_apply (a : FVec Ideal ⟨2, ![R, C]⟩ .f32) (acc : BitVec FTy.f32.bits)
    (hR : (⟨2, ![R, C]⟩ : Shape).Reduces [1] ⟨1, ![R]⟩) (hφ : FKind.Formats .f32)
    (hacc : acc = FKind.add.neutral .f32 hφ) (p : Fin R) :
    multiReduction .add [1] ⟨1, ![R]⟩ a acc hR hφ hacc (ix1 p) = ∑ k : Fin C, a (ix2 p k) := by
  refine (Ideal.multiReduction_add_single a acc hR hφ hacc (ix1 p)).trans ?_
  refine Finset.sum_congr rfl fun k _ => ?_
  exact congrArg a (Cert.LibHostRowMax.lift_row hR p k)

/-- A vector of row statistics stood up as a column reads, at `(p, 0)`, the statistic of row `p`. -/
theorem column_apply {α : Type} (v : (⟨1, ![R]⟩ : Shape).Idx → α)
    (hc : (⟨1, ![R]⟩ : Shape).ShapeCasts ⟨2, ![R, 1]⟩) (p : Fin R) :
    shapeCast ⟨2, ![R, 1]⟩ v hc (ix2 p (0 : Fin 1)) = v (ix1 p) := by
  refine shapeCast_apply v hc (ix2 p (0 : Fin 1)) (ix1 p) ?_
  rw [Shape.rowMajor_val_one, Shape.rowMajor_val_two]
  show p.val = p.val * 1 + 0
  omega

/-- A column spread along the lanes reads, at `(r, c)`, the column's entry `r`. -/
theorem spreadColumn_apply {α : Type} (c : (⟨2, ![R, 1]⟩ : Shape).Idx → α)
    (hb : (⟨2, ![R, 1]⟩ : Shape).Broadcasts ⟨2, ![R, C]⟩) (y : (⟨2, ![R, C]⟩ : Shape).Idx) :
    broadcastTo ⟨2, ![R, C]⟩ c hb y = c (ix2 (rowOf y) (0 : Fin 1)) := by
  refine broadcastTo_apply c hb y (ix2 (rowOf y) (0 : Fin 1)) fun a => ?_
  match a with
  | ⟨0, _⟩ =>
    show (y 0).val = if R = 1 then 0 else (y 0).val
    have hy : (y 0).val < R := (y 0).isLt
    split_ifs with hR
    · omega
    · rfl
  | ⟨1, _⟩ => exact (if_pos rfl).symm

/-- The matrix unit accumulating into the zero splat is the matrix product. -/
theorem matmul_zero_prod {M K : ℕ} {φ₁ φ₂ : FTy} (prec : Option ContractPrecision)
    (lhs : FVec Ideal ⟨2, ![M, K]⟩ φ₁) (rhs : FVec Ideal ⟨2, ![K, N]⟩ φ₂) :
    matmul (DotDims.plain M K N) prec lhs rhs (constant (F := Ideal) ⟨2, ![M, N]⟩ .f32 0x00000000#32) = prod lhs rhs :=
  Cert.MatProduct.matmul_zero_eq_prod prec lhs rhs

/-- The two lane reductions with their columns spread back: the row-wise log-softmax. -/
theorem lanes_logSoftmax (a : FVec Ideal ⟨2, ![R, C]⟩ .f32)
    (hR : (⟨2, ![R, C]⟩ : Shape).Reduces [1] ⟨1, ![R]⟩) (hφ : FKind.Formats .f32)
    (hmax : (0xFF800000#32 : BitVec FTy.f32.bits) = FKind.maximumf.neutral .f32 hφ)
    (hadd : (0x00000000#32 : BitVec FTy.f32.bits) = FKind.add.neutral .f32 hφ)
    (hc : (⟨1, ![R]⟩ : Shape).ShapeCasts ⟨2, ![R, 1]⟩) (hb : (⟨2, ![R, 1]⟩ : Shape).Broadcasts ⟨2, ![R, C]⟩) :
    subf
        (subf a (broadcastTo ⟨2, ![R, C]⟩
          (shapeCast ⟨2, ![R, 1]⟩ (multiReduction .maximumf [1] ⟨1, ![R]⟩ a 0xFF800000#32 hR hφ hmax) hc) hb))
        (broadcastTo ⟨2, ![R, C]⟩
          (log (shapeCast ⟨2, ![R, 1]⟩
            (multiReduction .add [1] ⟨1, ![R]⟩
              (exp (subf a (broadcastTo ⟨2, ![R, C]⟩
                (shapeCast ⟨2, ![R, 1]⟩ (multiReduction .maximumf [1] ⟨1, ![R]⟩ a 0xFF800000#32 hR hφ hmax) hc) hb)))
              0x00000000#32 hR hφ hadd) hc)) hb)
      = logSoftmaxRows a := by
  have hz : ∀ y : (⟨2, ![R, C]⟩ : Shape).Idx,
      subf a (broadcastTo ⟨2, ![R, C]⟩
          (shapeCast ⟨2, ![R, 1]⟩ (multiReduction .maximumf [1] ⟨1, ![R]⟩ a 0xFF800000#32 hR hφ hmax) hc) hb) y
        = a y - rowMax a (rowOf y) := fun y => by
    rw [subf_apply, spreadColumn_apply, column_apply, laneMax_apply]
    rfl
  funext y
  rw [subf_apply, hz y, spreadColumn_apply]
  show a y - rowMax a (rowOf y) - Ideal.log (shapeCast ⟨2, ![R, 1]⟩ _ hc (ix2 (rowOf y) (0 : Fin 1))) = _
  rw [column_apply, laneSum_apply]
  refine congrArg (fun s => a y - rowMax a (rowOf y) - Ideal.log s) (Finset.sum_congr rfl fun k _ => ?_)
  show Ideal.exp (subf a _ (ix2 (rowOf y) k)) = _
  rw [hz, Cert.Gcn.rowOf_ix2]

/-! ## The six bodies -/

/-- The zero offsets of a whole-block access, spelt as the constant function. -/
theorem zeroOffsets : (![0, 0] : Fin 2 → Nat) = fun _ => 0 := funext fun a => by fin_cases a <;> rfl

theorem product_block1 (x0 : Vec Ideal S2000x128 .f32) (x1 : Vec Ideal S128x128 .f32) :
    out1_2 (F := Ideal) x0 x1 = prod x0 x1 := by
  unfold out1_2
  rw [View.canon_unit_zero zeroOffsets]
  simp only [View.ld_unit_zero (S := S2000x128) zeroOffsets, View.ld_unit_zero (S := S128x128) zeroOffsets]
  unfold k1_pay1
  simp only [shapeCast_self]
  exact Cert.MatProduct.matmul_zero_eq_prod (M := 2000) (K := 128) (N := 128) none _ _

theorem firstLayer_block (x0 : Vec Ideal S2000x512 .f32) (x1 : Vec Ideal S512x128 .f32)
    (x2 x3 x4 x5 x6 : Vec Ideal S1x128 .f32) :
    out0_7 (F := Ideal) x0 x1 x2 x3 x4 x5 x6 = firstLayer x0 x1 x2 x5 x6 x3 x4 := by
  unfold out0_7
  rw [View.canon_unit_zero zeroOffsets]
  simp only [View.ld_unit_zero (S := S2000x512) zeroOffsets, View.ld_unit_zero (S := S512x128) zeroOffsets,
    View.ld_unit_zero (S := S1x128) zeroOffsets]
  unfold k0_pay1
  simp only [shapeCast_self]
  rw [show dot_S2000x512_S512x128_S2000x128_1_0_0_1_n_n = DotDims.plain 2000 512 128 from rfl,
    matmul_zero_prod, spread_addRowMax, spread_normRows]
  rfl

theorem afterSum_block2 (x0 : Vec Ideal S2000x128 .f32) (x1 x2 x3 x4 x5 : Vec Ideal S1x128 .f32) :
    out2_6 (F := Ideal) x0 x1 x2 x3 x4 x5 = afterSum x0 x1 x4 x5 x2 x3 := by
  unfold out2_6
  rw [View.canon_unit_zero zeroOffsets]
  simp only [View.ld_unit_zero (S := S2000x128) zeroOffsets, View.ld_unit_zero (S := S1x128) zeroOffsets]
  unfold k2_pay1
  simp only [shapeCast_self]
  rw [spread_addRowMax, spread_normRows]
  rfl

theorem product_block3 (x0 : Vec Ideal S2000x128 .f32) (x1 : Vec Ideal S128x128 .f32) :
    out3_2 (F := Ideal) x0 x1 = prod x0 x1 := by
  unfold out3_2
  rw [View.canon_unit_zero zeroOffsets]
  simp only [View.ld_unit_zero (S := S2000x128) zeroOffsets, View.ld_unit_zero (S := S128x128) zeroOffsets]
  unfold k3_pay1
  simp only [shapeCast_self]
  exact Cert.MatProduct.matmul_zero_eq_prod (M := 2000) (K := 128) (N := 128) none _ _

theorem afterSum_block4 (x0 : Vec Ideal S2000x128 .f32) (x1 x2 x3 x4 x5 : Vec Ideal S1x128 .f32) :
    out4_6 (F := Ideal) x0 x1 x2 x3 x4 x5 = afterSum x0 x1 x4 x5 x2 x3 := by
  unfold out4_6
  rw [View.canon_unit_zero zeroOffsets]
  simp only [View.ld_unit_zero (S := S2000x128) zeroOffsets, View.ld_unit_zero (S := S1x128) zeroOffsets]
  unfold k4_pay1
  simp only [shapeCast_self]
  rw [spread_addRowMax, spread_normRows]
  rfl

theorem head_block (x0 : Vec Ideal S2000x128 .f32) (x1 : Vec Ideal S128x40 .f32) (x2 : Vec Ideal S1x40 .f32) :
    out5_3 (F := Ideal) x0 x1 x2 = head x0 x1 x2 := by
  unfold out5_3
  rw [View.canon_unit_zero zeroOffsets]
  simp only [View.ld_unit_zero (S := S2000x128) zeroOffsets, View.ld_unit_zero (S := S128x40) zeroOffsets,
    View.ld_unit_zero (S := S1x40) zeroOffsets]
  unfold k5_pay1
  simp only [shapeCast_self]
  rw [show dot_S2000x128_S128x40_S2000x40_1_0_0_1_n_n = DotDims.plain 2000 128 40 from rfl,
    matmul_zero_prod, spread_addRow]
  exact lanes_logSoftmax _ _ _ _ _ _ _

end Cert.Gcn.Blocks

end
-- ==== Proof.FirstLayerArray.lean ====
/-
  The first layer, tiled: the array it leaves is the first layer of the whole input.

  At block t the kernel reads rows 2000 t … 2000 t + 1999 of the [100000, 512] input and the whole of the weights, the bias row and the
  four rows of running statistics, and writes block t of the [100000, 128] output. Row p of block t is row 2000 t + p of the array, the step
  reads a row of its input only through that row, and the fifty blocks tile the output: so the output array is the step
  applied to the whole arrays.
-/
import proofs.«171350_j70119636075235_2_alg».proof.Proof.Gen.KernelIdeal.Frame
import proofs.«171350_j70119636075235_2_alg».proof.Proof.DenseSteps
import proofs.«171350_j70119636075235_2_alg».proof.Proof.BlockValues

set_option maxRecDepth 16384

noncomputable section

namespace Cert.Gcn.Arrays

open Idealize.ShloMosaic Idealize.ShloMosaic.ValueIdx Idealize.ShloMosaic.TcCoe Idealize.SL.Sem
open Idealize.ShloMosaic.Pipeline (Dat)
open Cert.KernelIdeal Cert.KernelIdeal.Gen
open Cert.Bridge (RowsAt)

variable (V : (c : Dev nD) → (b : Ref sig .tc) → Buf (Elt Ideal) ((c : Thread nD τ).loc b))

/-- Where each window's block sits at grid point `t`: the row blocks follow the point, everything else stays put. -/
theorem place0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = t.val ∧ win0_7.index t (1 : Fin 2) = 0 :=
  (by decide +kernel : ∀ t : Fin grid0.N, _)

/-- The input block at point `t` is the stretch of the input array that starts at row `2000 t`. -/
theorem rows0 (c : Dev nD) (t : Fin cfg0.N) :
    RowsAt (M := 2000) (R := 100000) (N := 512) (2000 * t.val) (iblk0 V c 0 t) (V c main_arg0) := fun p r j e => by
  obtain ⟨e0, e1, -, -, -, -, -, -, -, -, -, -, -, -, -, -⟩ := place0 t
  show V c main_arg0 (((cfg0.win 0).blk t).view.emb (ix2 p j)) = V c main_arg0 (ix2 r j)
  congr 1
  funext a
  apply Fin.ext
  match a with
  | ⟨0, _⟩ => show win0_0.index t (0 : Fin 2) * 2000 + 1 * p.val = r.val; omega
  | ⟨1, _⟩ => show win0_0.index t (1 : Fin 2) * 512 + 1 * j.val = j.val; omega

/-- Window 1's block at every point is the whole of its [512, 128] array. -/
theorem whole0_1 (c : Dev nD) (t : Fin cfg0.N) : iblk0 V c 1 t = V c main_arg3 := funext fun y => by
  obtain ⟨-, -, e2, e3, -, -, -, -, -, -, -, -, -, -, -, -⟩ := place0 t
  show V c main_arg3 (((cfg0.win 1).blk t).view.emb y) = V c main_arg3 y
  congr 1
  funext a
  apply Fin.ext
  match a with
  | ⟨0, _⟩ => show win0_1.index t (0 : Fin 2) * 512 + 1 * (y 0).val = (y 0).val; omega
  | ⟨1, _⟩ => show win0_1.index t (1 : Fin 2) * 128 + 1 * (y 1).val = (y 1).val; omega

/-- Window 2's block at every point is the whole of its [1, 128] array. -/
theorem whole0_2 (c : Dev nD) (t : Fin cfg0.N) : iblk0 V c 2 t = V c main_v34 := funext fun y => by
  obtain ⟨-, -, -, -, e4, e5, -, -, -, -, -, -, -, -, -, -⟩ := place0 t
  show V c main_v34 (((cfg0.win 2).blk t).view.emb y) = V c main_v34 y
  congr 1
  funext a
  apply Fin.ext
  match a with
  | ⟨0, _⟩ => show win0_2.index t (0 : Fin 2) * 1 + 1 * (y 0).val = (y 0).val; omega
  | ⟨1, _⟩ => show win0_2.index t (1 : Fin 2) * 128 + 1 * (y 1).val = (y 1).val; omega

/-- Window 3's block at every point is the whole of its [1, 128] array. -/
theorem whole0_3 (c : Dev nD) (t : Fin cfg0.N) : iblk0 V c 3 t = V c main_v35 := funext fun y => by
  obtain ⟨-, -, -, -, -, -, e6, e7, -, -, -, -, -, -, -, -⟩ := place0 t
  show V c main_v35 (((cfg0.win 3).blk t).view.emb y) = V c main_v35 y
  congr 1
  funext a
  apply Fin.ext
  match a with
  | ⟨0, _⟩ => show win0_3.index t (0 : Fin 2) * 1 + 1 * (y 0).val = (y 0).val; omega
  | ⟨1, _⟩ => show win0_3.index t (1 : Fin 2) * 128 + 1 * (y 1).val = (y 1).val; omega

/-- Window 4's block at every point is the whole of its [1, 128] array. -/
theorem whole0_4 (c : Dev nD) (t : Fin cfg0.N) : iblk0 V c 4 t = V c main_v36 := funext fun y => by
  obtain ⟨-, -, -, -, -, -, -, -, e8, e9, -, -, -, -, -, -⟩ := place0 t
  show V c main_v36 (((cfg0.win 4).blk t).view.emb y) = V c main_v36 y
  congr 1
  funext a
  apply Fin.ext
  match a with
  | ⟨0, _⟩ => show win0_4.index t (0 : Fin 2) * 1 + 1 * (y 0).val = (y 0).val; omega
  | ⟨1, _⟩ => show win0_4.index t (1 : Fin 2) * 128 + 1 * (y 1).val = (y 1).val; omega

/-- Window 5's block at every point is the whole of its [1, 128] array. -/
theorem whole0_5 (c : Dev nD) (t : Fin cfg0.N) : iblk0 V c 5 t = V c main_v37 := funext fun y => by
  obtain ⟨-, -, -, -, -, -, -, -, -, -, e10, e11, -, -, -, -⟩ := place0 t
  show V c main_v37 (((cfg0.win 5).blk t).view.emb y) = V c main_v37 y
  congr 1
  funext a
  apply Fin.ext
  match a with
  | ⟨0, _⟩ => show win0_5.index t (0 : Fin 2) * 1 + 1 * (y 0).val = (y 0).val; omega
  | ⟨1, _⟩ => show win0_5.index t (1 : Fin 2) * 128 + 1 * (y 1).val = (y 1).val; omega

/-- Window 6's block at every point is the whole of its [1, 128] array. -/
theorem whole0_6 (c : Dev nD) (t : Fin cfg0.N) : iblk0 V c 6 t = V c main_v38 := funext fun y => by
  obtain ⟨-, -, -, -, -, -, -, -, -, -, -, -, e12, e13, -, -⟩ := place0 t
  show V c main_v38 (((cfg0.win 6).blk t).view.emb y) = V c main_v38 y
  congr 1
  funext a
  apply Fin.ext
  match a with
  | ⟨0, _⟩ => show win0_6.index t (0 : Fin 2) * 1 + 1 * (y 0).val = (y 0).val; omega
  | ⟨1, _⟩ => show win0_6.index t (1 : Fin 2) * 128 + 1 * (y 1).val = (y 1).val; omega

/-- What point `t` writes back is block `t` of the step applied to the whole arrays. -/
theorem flushed0 (c : Dev nD) (t : Fin cfg0.N) :
    (dat0 V c).flushed 7 t = ((cfg0.win 7).blk t).view.read (Elt Ideal) (Cert.Gcn.firstLayer (K := 512) (V c main_arg0) (V c main_arg3) (V c main_v34) (V c main_v37) (V c main_v38) (V c main_v35) (V c main_v36)) := by
  show (cfg0.win 7).cut (grid0.coords t) ((dat0 V c).after 7 t) = _
  rw [after0_7, Cert.Gcn.Blocks.firstLayer_block, whole0_1, whole0_2, whole0_3, whole0_4, whole0_5, whole0_6]
  obtain ⟨-, -, -, -, -, -, -, -, -, -, -, -, -, -, e14, e15⟩ := place0 t
  have ht : t.val < 50 := t.isLt
  funext y
  obtain ⟨p, q, rfl⟩ : ∃ (p : Fin 2000) (q : Fin 128), y = ix2 p q := ⟨_, _, eq_ix2 y⟩
  have hemb : ((cfg0.win 7).blk t).view.emb (ix2 p q) = ix2 (⟨2000 * t.val + p.val, by omega⟩ : Fin 100000) q := by
    funext a
    apply Fin.ext
    match a with
    | ⟨0, _⟩ => show win0_7.index t (0 : Fin 2) * 2000 + 1 * p.val = 2000 * t.val + p.val; omega
    | ⟨1, _⟩ => show win0_7.index t (1 : Fin 2) * 128 + 1 * q.val = q.val; omega
  show Cert.Gcn.firstLayer (K := 512) (iblk0 V c 0 t) (V c main_arg3) (V c main_v34) (V c main_v37) (V c main_v38) (V c main_v35) (V c main_v36) (ix2 p q)
    = Cert.Gcn.firstLayer (K := 512) (V c main_arg0) (V c main_arg3) (V c main_v34) (V c main_v37) (V c main_v38) (V c main_v35) (V c main_v36) (((cfg0.win 7).blk t).view.emb (ix2 p q))
  rw [hemb]
  exact (Cert.Gcn.RowsAt.firstLayer (rows0 V c t) (V c main_arg3) (V c main_v34) (V c main_v37) (V c main_v38) (V c main_v35) (V c main_v36)).apply p _ q rfl

/-- An index of the output array lies in point `t`'s block iff each coordinate lies in the block's range. -/
theorem mem_block0 (t : Fin cfg0.N) (i : S100000x128.Idx) :
    i ∈ ((cfg0.win 7).blk t).view.set ↔ ∀ a : Fin 2, win0_7.index t a * S2000x128.size a ≤ (i a).val
      ∧ (i a).val < win0_7.index t a * S2000x128.size a + S2000x128.size a := by
  show i ∈ ((View.whole main_v39).slice (win0_7.rect t)).set ↔ _
  rw [View.set_slice_whole, Rect.mem_set_unit]
  exact Iff.rfl

/-- Every index of the output array is in the block of the point its row falls in. -/
theorem cover0 (i : S100000x128.Idx) : ∃ t : Fin cfg0.N, (cfg0.win 7).flush t = true ∧ i ∈ ((cfg0.win 7).blk t).view.set := by
  have hi0 : (i 0).val < 100000 := (i 0).isLt
  have hi1 : (i 1).val < 128 := (i 1).isLt
  have hlt : (i 0).val / 2000 < 50 := by omega
  refine ⟨⟨(i 0).val / 2000, hlt⟩, flush0_7 _, ?_⟩
  obtain ⟨-, -, -, -, -, -, -, -, -, -, -, -, -, -, e14, e15⟩ := place0 ⟨(i 0).val / 2000, hlt⟩
  rw [mem_block0]
  intro a
  match a with
  | ⟨0, _⟩ =>
    show win0_7.index ⟨(i 0).val / 2000, hlt⟩ (0 : Fin 2) * 2000 ≤ (i 0).val
      ∧ (i 0).val < win0_7.index ⟨(i 0).val / 2000, hlt⟩ (0 : Fin 2) * 2000 + 2000
    rw [e14]
    show (i 0).val / 2000 * 2000 ≤ (i 0).val ∧ (i 0).val < (i 0).val / 2000 * 2000 + 2000
    omega
  | ⟨1, _⟩ =>
    show win0_7.index ⟨(i 0).val / 2000, hlt⟩ (1 : Fin 2) * 128 ≤ (i 1).val
      ∧ (i 1).val < win0_7.index ⟨(i 0).val / 2000, hlt⟩ (1 : Fin 2) * 128 + 128
    rw [e15]
    omega

/-- The array the kernel leaves: the step applied to the whole arrays it found. -/
theorem firstLayer_array (c : Dev nD) : (dat0 V c).arrAt 7 cfg0.N = Cert.Gcn.firstLayer (K := 512) (V c main_arg0) (V c main_arg3) (V c main_v34) (V c main_v37) (V c main_v38) (V c main_v35) (V c main_v36) :=
  (dat0 V c).arrAt_eq_of_cover 7 _ (fun t _ => flushed0 V c t) cover0

end Cert.Gcn.Arrays

end
-- ==== Proof.ProductArray1.lean ====
/-
  The first per-layer product, tiled: the array it leaves is the product of the whole input with the weights.

  At block t the kernel multiplies rows 2000 t … 2000 t + 1999 of the [100000, 128] input by the whole [128, 128] weight matrix and
  writes block t of the [100000, 128] output. Row p of block t is row 2000 t + p of the array, the step
  reads a row of its input only through that row, and the fifty blocks tile the output: so the output array is the step
  applied to the whole arrays.
-/
import proofs.«171350_j70119636075235_2_alg».proof.Proof.Gen.KernelIdeal.Frame
import proofs.«171350_j70119636075235_2_alg».proof.Proof.DenseSteps
import proofs.«171350_j70119636075235_2_alg».proof.Proof.BlockValues

set_option maxRecDepth 16384

noncomputable section

namespace Cert.Gcn.Arrays

open Idealize.ShloMosaic Idealize.ShloMosaic.ValueIdx Idealize.ShloMosaic.TcCoe Idealize.SL.Sem
open Idealize.ShloMosaic.Pipeline (Dat)
open Cert.KernelIdeal Cert.KernelIdeal.Gen
open Cert.Bridge (RowsAt)

variable (V : (c : Dev nD) → (b : Ref sig .tc) → Buf (Elt Ideal) ((c : Thread nD τ).loc b))

/-- Where each window's block sits at grid point `t`: the row blocks follow the point, everything else stays put. -/
theorem place1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- The input block at point `t` is the stretch of the input array that starts at row `2000 t`. -/
theorem rows1 (c : Dev nD) (t : Fin cfg1.N) :
    RowsAt (M := 2000) (R := 100000) (N := 128) (2000 * t.val) (iblk1 V c 0 t) (V c main_v39) := fun p r j e => by
  obtain ⟨e0, e1, -, -, -, -⟩ := place1 t
  show V c main_v39 (((cfg1.win 0).blk t).view.emb (ix2 p j)) = V c main_v39 (ix2 r j)
  congr 1
  funext a
  apply Fin.ext
  match a with
  | ⟨0, _⟩ => show win1_0.index t (0 : Fin 2) * 2000 + 1 * p.val = r.val; omega
  | ⟨1, _⟩ => show win1_0.index t (1 : Fin 2) * 128 + 1 * j.val = j.val; omega

/-- Window 1's block at every point is the whole of its [128, 128] array. -/
theorem whole1_1 (c : Dev nD) (t : Fin cfg1.N) : iblk1 V c 1 t = V c main_v41 := funext fun y => by
  obtain ⟨-, -, e2, e3, -, -⟩ := place1 t
  show V c main_v41 (((cfg1.win 1).blk t).view.emb y) = V c main_v41 y
  congr 1
  funext a
  apply Fin.ext
  match a with
  | ⟨0, _⟩ => show win1_1.index t (0 : Fin 2) * 128 + 1 * (y 0).val = (y 0).val; omega
  | ⟨1, _⟩ => show win1_1.index t (1 : Fin 2) * 128 + 1 * (y 1).val = (y 1).val; omega

/-- What point `t` writes back is block `t` of the step applied to the whole arrays. -/
theorem flushed1 (c : Dev nD) (t : Fin cfg1.N) :
    (dat1 V c).flushed 2 t = ((cfg1.win 2).blk t).view.read (Elt Ideal) (Cert.MatProduct.prod (K := 128) (V c main_v39) (V c main_v41)) := by
  show (cfg1.win 2).cut (grid1.coords t) ((dat1 V c).after 2 t) = _
  rw [after1_2, Cert.Gcn.Blocks.product_block1, whole1_1]
  obtain ⟨-, -, -, -, e4, e5⟩ := place1 t
  have ht : t.val < 50 := t.isLt
  funext y
  obtain ⟨p, q, rfl⟩ : ∃ (p : Fin 2000) (q : Fin 128), y = ix2 p q := ⟨_, _, eq_ix2 y⟩
  have hemb : ((cfg1.win 2).blk t).view.emb (ix2 p q) = ix2 (⟨2000 * t.val + p.val, by omega⟩ : Fin 100000) q := by
    funext a
    apply Fin.ext
    match a with
    | ⟨0, _⟩ => show win1_2.index t (0 : Fin 2) * 2000 + 1 * p.val = 2000 * t.val + p.val; omega
    | ⟨1, _⟩ => show win1_2.index t (1 : Fin 2) * 128 + 1 * q.val = q.val; omega
  show Cert.MatProduct.prod (K := 128) (iblk1 V c 0 t) (V c main_v41) (ix2 p q)
    = Cert.MatProduct.prod (K := 128) (V c main_v39) (V c main_v41) (((cfg1.win 2).blk t).view.emb (ix2 p q))
  rw [hemb]
  exact (Cert.Bridge.RowsAt.prod (rows1 V c t) (V c main_v41)).apply p _ q rfl

/-- An index of the output array lies in point `t`'s block iff each coordinate lies in the block's range. -/
theorem mem_block1 (t : Fin cfg1.N) (i : S100000x128.Idx) :
    i ∈ ((cfg1.win 2).blk t).view.set ↔ ∀ a : Fin 2, win1_2.index t a * S2000x128.size a ≤ (i a).val
      ∧ (i a).val < win1_2.index t a * S2000x128.size a + S2000x128.size a := by
  show i ∈ ((View.whole main_v42).slice (win1_2.rect t)).set ↔ _
  rw [View.set_slice_whole, Rect.mem_set_unit]
  exact Iff.rfl

/-- Every index of the output array is in the block of the point its row falls in. -/
theorem cover1 (i : S100000x128.Idx) : ∃ t : Fin cfg1.N, (cfg1.win 2).flush t = true ∧ i ∈ ((cfg1.win 2).blk t).view.set := by
  have hi0 : (i 0).val < 100000 := (i 0).isLt
  have hi1 : (i 1).val < 128 := (i 1).isLt
  have hlt : (i 0).val / 2000 < 50 := by omega
  refine ⟨⟨(i 0).val / 2000, hlt⟩, flush1_2 _, ?_⟩
  obtain ⟨-, -, -, -, e4, e5⟩ := place1 ⟨(i 0).val / 2000, hlt⟩
  rw [mem_block1]
  intro a
  match a with
  | ⟨0, _⟩ =>
    show win1_2.index ⟨(i 0).val / 2000, hlt⟩ (0 : Fin 2) * 2000 ≤ (i 0).val
      ∧ (i 0).val < win1_2.index ⟨(i 0).val / 2000, hlt⟩ (0 : Fin 2) * 2000 + 2000
    rw [e4]
    show (i 0).val / 2000 * 2000 ≤ (i 0).val ∧ (i 0).val < (i 0).val / 2000 * 2000 + 2000
    omega
  | ⟨1, _⟩ =>
    show win1_2.index ⟨(i 0).val / 2000, hlt⟩ (1 : Fin 2) * 128 ≤ (i 1).val
      ∧ (i 1).val < win1_2.index ⟨(i 0).val / 2000, hlt⟩ (1 : Fin 2) * 128 + 128
    rw [e5]
    omega

/-- The array the kernel leaves: the step applied to the whole arrays it found. -/
theorem product_array1 (c : Dev nD) : (dat1 V c).arrAt 2 cfg1.N = Cert.MatProduct.prod (K := 128) (V c main_v39) (V c main_v41) :=
  (dat1 V c).arrAt_eq_of_cover 2 _ (fun t _ => flushed1 V c t) cover1

end Cert.Gcn.Arrays

end
-- ==== Proof.AfterSumArray2.lean ====
/-
  What follows the first neighbourhood sum, tiled: bias, rectifier and normalisation of the whole array.

  At block t the kernel reads rows 2000 t … 2000 t + 1999 of the [100000, 128] sum and the whole bias row and four rows of running
  statistics, and writes block t of the [100000, 128] output. Row p of block t is row 2000 t + p of the array, the step
  reads a row of its input only through that row, and the fifty blocks tile the output: so the output array is the step
  applied to the whole arrays.
-/
import proofs.«171350_j70119636075235_2_alg».proof.Proof.Gen.KernelIdeal.Frame
import proofs.«171350_j70119636075235_2_alg».proof.Proof.DenseSteps
import proofs.«171350_j70119636075235_2_alg».proof.Proof.BlockValues

set_option maxRecDepth 16384

noncomputable section

namespace Cert.Gcn.Arrays

open Idealize.ShloMosaic Idealize.ShloMosaic.ValueIdx Idealize.ShloMosaic.TcCoe Idealize.SL.Sem
open Idealize.ShloMosaic.Pipeline (Dat)
open Cert.KernelIdeal Cert.KernelIdeal.Gen
open Cert.Bridge (RowsAt)

variable (V : (c : Dev nD) → (b : Ref sig .tc) → Buf (Elt Ideal) ((c : Thread nD τ).loc b))

/-- Where each window's block sits at grid point `t`: the row blocks follow the point, everything else stays put. -/
theorem place2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = t.val ∧ win2_6.index t (1 : Fin 2) = 0 :=
  (by decide +kernel : ∀ t : Fin grid2.N, _)

/-- The input block at point `t` is the stretch of the input array that starts at row `2000 t`. -/
theorem rows2 (c : Dev nD) (t : Fin cfg2.N) :
    RowsAt (M := 2000) (R := 100000) (N := 128) (2000 * t.val) (iblk2 V c 0 t) (V c main_v55) := fun p r j e => by
  obtain ⟨e0, e1, -, -, -, -, -, -, -, -, -, -, -, -⟩ := place2 t
  show V c main_v55 (((cfg2.win 0).blk t).view.emb (ix2 p j)) = V c main_v55 (ix2 r j)
  congr 1
  funext a
  apply Fin.ext
  match a with
  | ⟨0, _⟩ => show win2_0.index t (0 : Fin 2) * 2000 + 1 * p.val = r.val; omega
  | ⟨1, _⟩ => show win2_0.index t (1 : Fin 2) * 128 + 1 * j.val = j.val; omega

/-- Window 1's block at every point is the whole of its [1, 128] array. -/
theorem whole2_1 (c : Dev nD) (t : Fin cfg2.N) : iblk2 V c 1 t = V c main_v66 := funext fun y => by
  obtain ⟨-, -, e2, e3, -, -, -, -, -, -, -, -, -, -⟩ := place2 t
  show V c main_v66 (((cfg2.win 1).blk t).view.emb y) = V c main_v66 y
  congr 1
  funext a
  apply Fin.ext
  match a with
  | ⟨0, _⟩ => show win2_1.index t (0 : Fin 2) * 1 + 1 * (y 0).val = (y 0).val; omega
  | ⟨1, _⟩ => show win2_1.index t (1 : Fin 2) * 128 + 1 * (y 1).val = (y 1).val; omega

/-- Window 2's block at every point is the whole of its [1, 128] array. -/
theorem whole2_2 (c : Dev nD) (t : Fin cfg2.N) : iblk2 V c 2 t = V c main_v67 := funext fun y => by
  obtain ⟨-, -, -, -, e4, e5, -, -, -, -, -, -, -, -⟩ := place2 t
  show V c main_v67 (((cfg2.win 2).blk t).view.emb y) = V c main_v67 y
  congr 1
  funext a
  apply Fin.ext
  match a with
  | ⟨0, _⟩ => show win2_2.index t (0 : Fin 2) * 1 + 1 * (y 0).val = (y 0).val; omega
  | ⟨1, _⟩ => show win2_2.index t (1 : Fin 2) * 128 + 1 * (y 1).val = (y 1).val; omega

/-- Window 3's block at every point is the whole of its [1, 128] array. -/
theorem whole2_3 (c : Dev nD) (t : Fin cfg2.N) : iblk2 V c 3 t = V c main_v68 := funext fun y => by
  obtain ⟨-, -, -, -, -, -, e6, e7, -, -, -, -, -, -⟩ := place2 t
  show V c main_v68 (((cfg2.win 3).blk t).view.emb y) = V c main_v68 y
  congr 1
  funext a
  apply Fin.ext
  match a with
  | ⟨0, _⟩ => show win2_3.index t (0 : Fin 2) * 1 + 1 * (y 0).val = (y 0).val; omega
  | ⟨1, _⟩ => show win2_3.index t (1 : Fin 2) * 128 + 1 * (y 1).val = (y 1).val; omega

/-- Window 4's block at every point is the whole of its [1, 128] array. -/
theorem whole2_4 (c : Dev nD) (t : Fin cfg2.N) : iblk2 V c 4 t = V c main_v69 := funext fun y => by
  obtain ⟨-, -, -, -, -, -, -, -, e8, e9, -, -, -, -⟩ := place2 t
  show V c main_v69 (((cfg2.win 4).blk t).view.emb y) = V c main_v69 y
  congr 1
  funext a
  apply Fin.ext
  match a with
  | ⟨0, _⟩ => show win2_4.index t (0 : Fin 2) * 1 + 1 * (y 0).val = (y 0).val; omega
  | ⟨1, _⟩ => show win2_4.index t (1 : Fin 2) * 128 + 1 * (y 1).val = (y 1).val; omega

/-- Window 5's block at every point is the whole of its [1, 128] array. -/
theorem whole2_5 (c : Dev nD) (t : Fin cfg2.N) : iblk2 V c 5 t = V c main_v70 := funext fun y => by
  obtain ⟨-, -, -, -, -, -, -, -, -, -, e10, e11, -, -⟩ := place2 t
  show V c main_v70 (((cfg2.win 5).blk t).view.emb y) = V c main_v70 y
  congr 1
  funext a
  apply Fin.ext
  match a with
  | ⟨0, _⟩ => show win2_5.index t (0 : Fin 2) * 1 + 1 * (y 0).val = (y 0).val; omega
  | ⟨1, _⟩ => show win2_5.index t (1 : Fin 2) * 128 + 1 * (y 1).val = (y 1).val; omega

/-- What point `t` writes back is block `t` of the step applied to the whole arrays. -/
theorem flushed2 (c : Dev nD) (t : Fin cfg2.N) :
    (dat2 V c).flushed 6 t = ((cfg2.win 6).blk t).view.read (Elt Ideal) (Cert.Gcn.afterSum (V c main_v55) (V c main_v66) (V c main_v69) (V c main_v70) (V c main_v67) (V c main_v68)) := by
  show (cfg2.win 6).cut (grid2.coords t) ((dat2 V c).after 6 t) = _
  rw [after2_6, Cert.Gcn.Blocks.afterSum_block2, whole2_1, whole2_2, whole2_3, whole2_4, whole2_5]
  obtain ⟨-, -, -, -, -, -, -, -, -, -, -, -, e12, e13⟩ := place2 t
  have ht : t.val < 50 := t.isLt
  funext y
  obtain ⟨p, q, rfl⟩ : ∃ (p : Fin 2000) (q : Fin 128), y = ix2 p q := ⟨_, _, eq_ix2 y⟩
  have hemb : ((cfg2.win 6).blk t).view.emb (ix2 p q) = ix2 (⟨2000 * t.val + p.val, by omega⟩ : Fin 100000) q := by
    funext a
    apply Fin.ext
    match a with
    | ⟨0, _⟩ => show win2_6.index t (0 : Fin 2) * 2000 + 1 * p.val = 2000 * t.val + p.val; omega
    | ⟨1, _⟩ => show win2_6.index t (1 : Fin 2) * 128 + 1 * q.val = q.val; omega
  show Cert.Gcn.afterSum (iblk2 V c 0 t) (V c main_v66) (V c main_v69) (V c main_v70) (V c main_v67) (V c main_v68) (ix2 p q)
    = Cert.Gcn.afterSum (V c main_v55) (V c main_v66) (V c main_v69) (V c main_v70) (V c main_v67) (V c main_v68) (((cfg2.win 6).blk t).view.emb (ix2 p q))
  rw [hemb]
  exact (Cert.Gcn.RowsAt.afterSum (rows2 V c t) (V c main_v66) (V c main_v69) (V c main_v70) (V c main_v67) (V c main_v68)).apply p _ q rfl

/-- An index of the output array lies in point `t`'s block iff each coordinate lies in the block's range. -/
theorem mem_block2 (t : Fin cfg2.N) (i : S100000x128.Idx) :
    i ∈ ((cfg2.win 6).blk t).view.set ↔ ∀ a : Fin 2, win2_6.index t a * S2000x128.size a ≤ (i a).val
      ∧ (i a).val < win2_6.index t a * S2000x128.size a + S2000x128.size a := by
  show i ∈ ((View.whole main_v71).slice (win2_6.rect t)).set ↔ _
  rw [View.set_slice_whole, Rect.mem_set_unit]
  exact Iff.rfl

/-- Every index of the output array is in the block of the point its row falls in. -/
theorem cover2 (i : S100000x128.Idx) : ∃ t : Fin cfg2.N, (cfg2.win 6).flush t = true ∧ i ∈ ((cfg2.win 6).blk t).view.set := by
  have hi0 : (i 0).val < 100000 := (i 0).isLt
  have hi1 : (i 1).val < 128 := (i 1).isLt
  have hlt : (i 0).val / 2000 < 50 := by omega
  refine ⟨⟨(i 0).val / 2000, hlt⟩, flush2_6 _, ?_⟩
  obtain ⟨-, -, -, -, -, -, -, -, -, -, -, -, e12, e13⟩ := place2 ⟨(i 0).val / 2000, hlt⟩
  rw [mem_block2]
  intro a
  match a with
  | ⟨0, _⟩ =>
    show win2_6.index ⟨(i 0).val / 2000, hlt⟩ (0 : Fin 2) * 2000 ≤ (i 0).val
      ∧ (i 0).val < win2_6.index ⟨(i 0).val / 2000, hlt⟩ (0 : Fin 2) * 2000 + 2000
    rw [e12]
    show (i 0).val / 2000 * 2000 ≤ (i 0).val ∧ (i 0).val < (i 0).val / 2000 * 2000 + 2000
    omega
  | ⟨1, _⟩ =>
    show win2_6.index ⟨(i 0).val / 2000, hlt⟩ (1 : Fin 2) * 128 ≤ (i 1).val
      ∧ (i 1).val < win2_6.index ⟨(i 0).val / 2000, hlt⟩ (1 : Fin 2) * 128 + 128
    rw [e13]
    omega

/-- The array the kernel leaves: the step applied to the whole arrays it found. -/
theorem afterSum_array2 (c : Dev nD) : (dat2 V c).arrAt 6 cfg2.N = Cert.Gcn.afterSum (V c main_v55) (V c main_v66) (V c main_v69) (V c main_v70) (V c main_v67) (V c main_v68) :=
  (dat2 V c).arrAt_eq_of_cover 6 _ (fun t _ => flushed2 V c t) cover2

end Cert.Gcn.Arrays

end
-- ==== Proof.ProductArray3.lean ====
/-
  The second per-layer product, tiled: the array it leaves is the product of the whole input with the weights.

  At block t the kernel multiplies rows 2000 t … 2000 t + 1999 of the [100000, 128] input by the whole [128, 128] weight matrix and
  writes block t of the [100000, 128] output. Row p of block t is row 2000 t + p of the array, the step
  reads a row of its input only through that row, and the fifty blocks tile the output: so the output array is the step
  applied to the whole arrays.
-/
import proofs.«171350_j70119636075235_2_alg».proof.Proof.Gen.KernelIdeal.Frame
import proofs.«171350_j70119636075235_2_alg».proof.Proof.DenseSteps
import proofs.«171350_j70119636075235_2_alg».proof.Proof.BlockValues

set_option maxRecDepth 16384

noncomputable section

namespace Cert.Gcn.Arrays

open Idealize.ShloMosaic Idealize.ShloMosaic.ValueIdx Idealize.ShloMosaic.TcCoe Idealize.SL.Sem
open Idealize.ShloMosaic.Pipeline (Dat)
open Cert.KernelIdeal Cert.KernelIdeal.Gen
open Cert.Bridge (RowsAt)

variable (V : (c : Dev nD) → (b : Ref sig .tc) → Buf (Elt Ideal) ((c : Thread nD τ).loc b))

/-- Where each window's block sits at grid point `t`: the row blocks follow the point, everything else stays put. -/
theorem place3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- The input block at point `t` is the stretch of the input array that starts at row `2000 t`. -/
theorem rows3 (c : Dev nD) (t : Fin cfg3.N) :
    RowsAt (M := 2000) (R := 100000) (N := 128) (2000 * t.val) (iblk3 V c 0 t) (V c main_v71) := fun p r j e => by
  obtain ⟨e0, e1, -, -, -, -⟩ := place3 t
  show V c main_v71 (((cfg3.win 0).blk t).view.emb (ix2 p j)) = V c main_v71 (ix2 r j)
  congr 1
  funext a
  apply Fin.ext
  match a with
  | ⟨0, _⟩ => show win3_0.index t (0 : Fin 2) * 2000 + 1 * p.val = r.val; omega
  | ⟨1, _⟩ => show win3_0.index t (1 : Fin 2) * 128 + 1 * j.val = j.val; omega

/-- Window 1's block at every point is the whole of its [128, 128] array. -/
theorem whole3_1 (c : Dev nD) (t : Fin cfg3.N) : iblk3 V c 1 t = V c main_v73 := funext fun y => by
  obtain ⟨-, -, e2, e3, -, -⟩ := place3 t
  show V c main_v73 (((cfg3.win 1).blk t).view.emb y) = V c main_v73 y
  congr 1
  funext a
  apply Fin.ext
  match a with
  | ⟨0, _⟩ => show win3_1.index t (0 : Fin 2) * 128 + 1 * (y 0).val = (y 0).val; omega
  | ⟨1, _⟩ => show win3_1.index t (1 : Fin 2) * 128 + 1 * (y 1).val = (y 1).val; omega

/-- What point `t` writes back is block `t` of the step applied to the whole arrays. -/
theorem flushed3 (c : Dev nD) (t : Fin cfg3.N) :
    (dat3 V c).flushed 2 t = ((cfg3.win 2).blk t).view.read (Elt Ideal) (Cert.MatProduct.prod (K := 128) (V c main_v71) (V c main_v73)) := by
  show (cfg3.win 2).cut (grid3.coords t) ((dat3 V c).after 2 t) = _
  rw [after3_2, Cert.Gcn.Blocks.product_block3, whole3_1]
  obtain ⟨-, -, -, -, e4, e5⟩ := place3 t
  have ht : t.val < 50 := t.isLt
  funext y
  obtain ⟨p, q, rfl⟩ : ∃ (p : Fin 2000) (q : Fin 128), y = ix2 p q := ⟨_, _, eq_ix2 y⟩
  have hemb : ((cfg3.win 2).blk t).view.emb (ix2 p q) = ix2 (⟨2000 * t.val + p.val, by omega⟩ : Fin 100000) q := by
    funext a
    apply Fin.ext
    match a with
    | ⟨0, _⟩ => show win3_2.index t (0 : Fin 2) * 2000 + 1 * p.val = 2000 * t.val + p.val; omega
    | ⟨1, _⟩ => show win3_2.index t (1 : Fin 2) * 128 + 1 * q.val = q.val; omega
  show Cert.MatProduct.prod (K := 128) (iblk3 V c 0 t) (V c main_v73) (ix2 p q)
    = Cert.MatProduct.prod (K := 128) (V c main_v71) (V c main_v73) (((cfg3.win 2).blk t).view.emb (ix2 p q))
  rw [hemb]
  exact (Cert.Bridge.RowsAt.prod (rows3 V c t) (V c main_v73)).apply p _ q rfl

/-- An index of the output array lies in point `t`'s block iff each coordinate lies in the block's range. -/
theorem mem_block3 (t : Fin cfg3.N) (i : S100000x128.Idx) :
    i ∈ ((cfg3.win 2).blk t).view.set ↔ ∀ a : Fin 2, win3_2.index t a * S2000x128.size a ≤ (i a).val
      ∧ (i a).val < win3_2.index t a * S2000x128.size a + S2000x128.size a := by
  show i ∈ ((View.whole main_v74).slice (win3_2.rect t)).set ↔ _
  rw [View.set_slice_whole, Rect.mem_set_unit]
  exact Iff.rfl

/-- Every index of the output array is in the block of the point its row falls in. -/
theorem cover3 (i : S100000x128.Idx) : ∃ t : Fin cfg3.N, (cfg3.win 2).flush t = true ∧ i ∈ ((cfg3.win 2).blk t).view.set := by
  have hi0 : (i 0).val < 100000 := (i 0).isLt
  have hi1 : (i 1).val < 128 := (i 1).isLt
  have hlt : (i 0).val / 2000 < 50 := by omega
  refine ⟨⟨(i 0).val / 2000, hlt⟩, flush3_2 _, ?_⟩
  obtain ⟨-, -, -, -, e4, e5⟩ := place3 ⟨(i 0).val / 2000, hlt⟩
  rw [mem_block3]
  intro a
  match a with
  | ⟨0, _⟩ =>
    show win3_2.index ⟨(i 0).val / 2000, hlt⟩ (0 : Fin 2) * 2000 ≤ (i 0).val
      ∧ (i 0).val < win3_2.index ⟨(i 0).val / 2000, hlt⟩ (0 : Fin 2) * 2000 + 2000
    rw [e4]
    show (i 0).val / 2000 * 2000 ≤ (i 0).val ∧ (i 0).val < (i 0).val / 2000 * 2000 + 2000
    omega
  | ⟨1, _⟩ =>
    show win3_2.index ⟨(i 0).val / 2000, hlt⟩ (1 : Fin 2) * 128 ≤ (i 1).val
      ∧ (i 1).val < win3_2.index ⟨(i 0).val / 2000, hlt⟩ (1 : Fin 2) * 128 + 128
    rw [e5]
    omega

/-- The array the kernel leaves: the step applied to the whole arrays it found. -/
theorem product_array3 (c : Dev nD) : (dat3 V c).arrAt 2 cfg3.N = Cert.MatProduct.prod (K := 128) (V c main_v71) (V c main_v73) :=
  (dat3 V c).arrAt_eq_of_cover 2 _ (fun t _ => flushed3 V c t) cover3

end Cert.Gcn.Arrays

end
-- ==== Proof.AfterSumArray4.lean ====
/-
  What follows the second neighbourhood sum, tiled: bias, rectifier and normalisation of the whole array.

  At block t the kernel reads rows 2000 t … 2000 t + 1999 of the [100000, 128] sum and the whole bias row and four rows of running
  statistics, and writes block t of the [100000, 128] output. Row p of block t is row 2000 t + p of the array, the step
  reads a row of its input only through that row, and the fifty blocks tile the output: so the output array is the step
  applied to the whole arrays.
-/
import proofs.«171350_j70119636075235_2_alg».proof.Proof.Gen.KernelIdeal.Frame
import proofs.«171350_j70119636075235_2_alg».proof.Proof.DenseSteps
import proofs.«171350_j70119636075235_2_alg».proof.Proof.BlockValues

set_option maxRecDepth 16384

noncomputable section

namespace Cert.Gcn.Arrays

open Idealize.ShloMosaic Idealize.ShloMosaic.ValueIdx Idealize.ShloMosaic.TcCoe Idealize.SL.Sem
open Idealize.ShloMosaic.Pipeline (Dat)
open Cert.KernelIdeal Cert.KernelIdeal.Gen
open Cert.Bridge (RowsAt)

variable (V : (c : Dev nD) → (b : Ref sig .tc) → Buf (Elt Ideal) ((c : Thread nD τ).loc b))

/-- Where each window's block sits at grid point `t`: the row blocks follow the point, everything else stays put. -/
theorem place4 : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = 0 ∧ win4_5.index t (1 : Fin 2) = 0
    ∧ win4_6.index t (0 : Fin 2) = t.val ∧ win4_6.index t (1 : Fin 2) = 0 :=
  (by decide +kernel : ∀ t : Fin grid4.N, _)

/-- The input block at point `t` is the stretch of the input array that starts at row `2000 t`. -/
theorem rows4 (c : Dev nD) (t : Fin cfg4.N) :
    RowsAt (M := 2000) (R := 100000) (N := 128) (2000 * t.val) (iblk4 V c 0 t) (V c main_v87) := fun p r j e => by
  obtain ⟨e0, e1, -, -, -, -, -, -, -, -, -, -, -, -⟩ := place4 t
  show V c main_v87 (((cfg4.win 0).blk t).view.emb (ix2 p j)) = V c main_v87 (ix2 r j)
  congr 1
  funext a
  apply Fin.ext
  match a with
  | ⟨0, _⟩ => show win4_0.index t (0 : Fin 2) * 2000 + 1 * p.val = r.val; omega
  | ⟨1, _⟩ => show win4_0.index t (1 : Fin 2) * 128 + 1 * j.val = j.val; omega

/-- Window 1's block at every point is the whole of its [1, 128] array. -/
theorem whole4_1 (c : Dev nD) (t : Fin cfg4.N) : iblk4 V c 1 t = V c main_v98 := funext fun y => by
  obtain ⟨-, -, e2, e3, -, -, -, -, -, -, -, -, -, -⟩ := place4 t
  show V c main_v98 (((cfg4.win 1).blk t).view.emb y) = V c main_v98 y
  congr 1
  funext a
  apply Fin.ext
  match a with
  | ⟨0, _⟩ => show win4_1.index t (0 : Fin 2) * 1 + 1 * (y 0).val = (y 0).val; omega
  | ⟨1, _⟩ => show win4_1.index t (1 : Fin 2) * 128 + 1 * (y 1).val = (y 1).val; omega

/-- Window 2's block at every point is the whole of its [1, 128] array. -/
theorem whole4_2 (c : Dev nD) (t : Fin cfg4.N) : iblk4 V c 2 t = V c main_v99 := funext fun y => by
  obtain ⟨-, -, -, -, e4, e5, -, -, -, -, -, -, -, -⟩ := place4 t
  show V c main_v99 (((cfg4.win 2).blk t).view.emb y) = V c main_v99 y
  congr 1
  funext a
  apply Fin.ext
  match a with
  | ⟨0, _⟩ => show win4_2.index t (0 : Fin 2) * 1 + 1 * (y 0).val = (y 0).val; omega
  | ⟨1, _⟩ => show win4_2.index t (1 : Fin 2) * 128 + 1 * (y 1).val = (y 1).val; omega

/-- Window 3's block at every point is the whole of its [1, 128] array. -/
theorem whole4_3 (c : Dev nD) (t : Fin cfg4.N) : iblk4 V c 3 t = V c main_v100 := funext fun y => by
  obtain ⟨-, -, -, -, -, -, e6, e7, -, -, -, -, -, -⟩ := place4 t
  show V c main_v100 (((cfg4.win 3).blk t).view.emb y) = V c main_v100 y
  congr 1
  funext a
  apply Fin.ext
  match a with
  | ⟨0, _⟩ => show win4_3.index t (0 : Fin 2) * 1 + 1 * (y 0).val = (y 0).val; omega
  | ⟨1, _⟩ => show win4_3.index t (1 : Fin 2) * 128 + 1 * (y 1).val = (y 1).val; omega

/-- Window 4's block at every point is the whole of its [1, 128] array. -/
theorem whole4_4 (c : Dev nD) (t : Fin cfg4.N) : iblk4 V c 4 t = V c main_v101 := funext fun y => by
  obtain ⟨-, -, -, -, -, -, -, -, e8, e9, -, -, -, -⟩ := place4 t
  show V c main_v101 (((cfg4.win 4).blk t).view.emb y) = V c main_v101 y
  congr 1
  funext a
  apply Fin.ext
  match a with
  | ⟨0, _⟩ => show win4_4.index t (0 : Fin 2) * 1 + 1 * (y 0).val = (y 0).val; omega
  | ⟨1, _⟩ => show win4_4.index t (1 : Fin 2) * 128 + 1 * (y 1).val = (y 1).val; omega

/-- Window 5's block at every point is the whole of its [1, 128] array. -/
theorem whole4_5 (c : Dev nD) (t : Fin cfg4.N) : iblk4 V c 5 t = V c main_v102 := funext fun y => by
  obtain ⟨-, -, -, -, -, -, -, -, -, -, e10, e11, -, -⟩ := place4 t
  show V c main_v102 (((cfg4.win 5).blk t).view.emb y) = V c main_v102 y
  congr 1
  funext a
  apply Fin.ext
  match a with
  | ⟨0, _⟩ => show win4_5.index t (0 : Fin 2) * 1 + 1 * (y 0).val = (y 0).val; omega
  | ⟨1, _⟩ => show win4_5.index t (1 : Fin 2) * 128 + 1 * (y 1).val = (y 1).val; omega

/-- What point `t` writes back is block `t` of the step applied to the whole arrays. -/
theorem flushed4 (c : Dev nD) (t : Fin cfg4.N) :
    (dat4 V c).flushed 6 t = ((cfg4.win 6).blk t).view.read (Elt Ideal) (Cert.Gcn.afterSum (V c main_v87) (V c main_v98) (V c main_v101) (V c main_v102) (V c main_v99) (V c main_v100)) := by
  show (cfg4.win 6).cut (grid4.coords t) ((dat4 V c).after 6 t) = _
  rw [after4_6, Cert.Gcn.Blocks.afterSum_block4, whole4_1, whole4_2, whole4_3, whole4_4, whole4_5]
  obtain ⟨-, -, -, -, -, -, -, -, -, -, -, -, e12, e13⟩ := place4 t
  have ht : t.val < 50 := t.isLt
  funext y
  obtain ⟨p, q, rfl⟩ : ∃ (p : Fin 2000) (q : Fin 128), y = ix2 p q := ⟨_, _, eq_ix2 y⟩
  have hemb : ((cfg4.win 6).blk t).view.emb (ix2 p q) = ix2 (⟨2000 * t.val + p.val, by omega⟩ : Fin 100000) q := by
    funext a
    apply Fin.ext
    match a with
    | ⟨0, _⟩ => show win4_6.index t (0 : Fin 2) * 2000 + 1 * p.val = 2000 * t.val + p.val; omega
    | ⟨1, _⟩ => show win4_6.index t (1 : Fin 2) * 128 + 1 * q.val = q.val; omega
  show Cert.Gcn.afterSum (iblk4 V c 0 t) (V c main_v98) (V c main_v101) (V c main_v102) (V c main_v99) (V c main_v100) (ix2 p q)
    = Cert.Gcn.afterSum (V c main_v87) (V c main_v98) (V c main_v101) (V c main_v102) (V c main_v99) (V c main_v100) (((cfg4.win 6).blk t).view.emb (ix2 p q))
  rw [hemb]
  exact (Cert.Gcn.RowsAt.afterSum (rows4 V c t) (V c main_v98) (V c main_v101) (V c main_v102) (V c main_v99) (V c main_v100)).apply p _ q rfl

/-- An index of the output array lies in point `t`'s block iff each coordinate lies in the block's range. -/
theorem mem_block4 (t : Fin cfg4.N) (i : S100000x128.Idx) :
    i ∈ ((cfg4.win 6).blk t).view.set ↔ ∀ a : Fin 2, win4_6.index t a * S2000x128.size a ≤ (i a).val
      ∧ (i a).val < win4_6.index t a * S2000x128.size a + S2000x128.size a := by
  show i ∈ ((View.whole main_v103).slice (win4_6.rect t)).set ↔ _
  rw [View.set_slice_whole, Rect.mem_set_unit]
  exact Iff.rfl

/-- Every index of the output array is in the block of the point its row falls in. -/
theorem cover4 (i : S100000x128.Idx) : ∃ t : Fin cfg4.N, (cfg4.win 6).flush t = true ∧ i ∈ ((cfg4.win 6).blk t).view.set := by
  have hi0 : (i 0).val < 100000 := (i 0).isLt
  have hi1 : (i 1).val < 128 := (i 1).isLt
  have hlt : (i 0).val / 2000 < 50 := by omega
  refine ⟨⟨(i 0).val / 2000, hlt⟩, flush4_6 _, ?_⟩
  obtain ⟨-, -, -, -, -, -, -, -, -, -, -, -, e12, e13⟩ := place4 ⟨(i 0).val / 2000, hlt⟩
  rw [mem_block4]
  intro a
  match a with
  | ⟨0, _⟩ =>
    show win4_6.index ⟨(i 0).val / 2000, hlt⟩ (0 : Fin 2) * 2000 ≤ (i 0).val
      ∧ (i 0).val < win4_6.index ⟨(i 0).val / 2000, hlt⟩ (0 : Fin 2) * 2000 + 2000
    rw [e12]
    show (i 0).val / 2000 * 2000 ≤ (i 0).val ∧ (i 0).val < (i 0).val / 2000 * 2000 + 2000
    omega
  | ⟨1, _⟩ =>
    show win4_6.index ⟨(i 0).val / 2000, hlt⟩ (1 : Fin 2) * 128 ≤ (i 1).val
      ∧ (i 1).val < win4_6.index ⟨(i 0).val / 2000, hlt⟩ (1 : Fin 2) * 128 + 128
    rw [e13]
    omega

/-- The array the kernel leaves: the step applied to the whole arrays it found. -/
theorem afterSum_array4 (c : Dev nD) : (dat4 V c).arrAt 6 cfg4.N = Cert.Gcn.afterSum (V c main_v87) (V c main_v98) (V c main_v101) (V c main_v102) (V c main_v99) (V c main_v100) :=
  (dat4 V c).arrAt_eq_of_cover 6 _ (fun t _ => flushed4 V c t) cover4

end Cert.Gcn.Arrays

end
-- ==== Proof.HeadArray.lean ====
/-
  The output head, tiled: the array it leaves is the row-wise log-softmax of the whole product plus bias.

  At block t the kernel multiplies rows 2000 t … 2000 t + 1999 of the [100000, 128] input by the whole [128, 40] weight matrix, adds the
  bias row, takes the log-softmax of each row, and writes block t of the [100000, 40] output. Row p of block t is row 2000 t + p of the array, the step
  reads a row of its input only through that row, and the fifty blocks tile the output: so the output array is the step
  applied to the whole arrays.
-/
import proofs.«171350_j70119636075235_2_alg».proof.Proof.Gen.KernelIdeal.Frame
import proofs.«171350_j70119636075235_2_alg».proof.Proof.DenseSteps
import proofs.«171350_j70119636075235_2_alg».proof.Proof.BlockValues

set_option maxRecDepth 16384

noncomputable section

namespace Cert.Gcn.Arrays

open Idealize.ShloMosaic Idealize.ShloMosaic.ValueIdx Idealize.ShloMosaic.TcCoe Idealize.SL.Sem
open Idealize.ShloMosaic.Pipeline (Dat)
open Cert.KernelIdeal Cert.KernelIdeal.Gen
open Cert.Bridge (RowsAt)

variable (V : (c : Dev nD) → (b : Ref sig .tc) → Buf (Elt Ideal) ((c : Thread nD τ).loc b))

/-- Where each window's block sits at grid point `t`: the row blocks follow the point, everything else stays put. -/
theorem place5 : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = t.val ∧ win5_3.index t (1 : Fin 2) = 0 :=
  (by decide +kernel : ∀ t : Fin grid5.N, _)

/-- The input block at point `t` is the stretch of the input array that starts at row `2000 t`. -/
theorem rows5 (c : Dev nD) (t : Fin cfg5.N) :
    RowsAt (M := 2000) (R := 100000) (N := 128) (2000 * t.val) (iblk5 V c 0 t) (V c main_v103) := fun p r j e => by
  obtain ⟨e0, e1, -, -, -, -, -, -⟩ := place5 t
  show V c main_v103 (((cfg5.win 0).blk t).view.emb (ix2 p j)) = V c main_v103 (ix2 r j)
  congr 1
  funext a
  apply Fin.ext
  match a with
  | ⟨0, _⟩ => show win5_0.index t (0 : Fin 2) * 2000 + 1 * p.val = r.val; omega
  | ⟨1, _⟩ => show win5_0.index t (1 : Fin 2) * 128 + 1 * j.val = j.val; omega

/-- Window 1's block at every point is the whole of its [128, 40] array. -/
theorem whole5_1 (c : Dev nD) (t : Fin cfg5.N) : iblk5 V c 1 t = V c main_arg15 := funext fun y => by
  obtain ⟨-, -, e2, e3, -, -, -, -⟩ := place5 t
  show V c main_arg15 (((cfg5.win 1).blk t).view.emb y) = V c main_arg15 y
  congr 1
  funext a
  apply Fin.ext
  match a with
  | ⟨0, _⟩ => show win5_1.index t (0 : Fin 2) * 128 + 1 * (y 0).val = (y 0).val; omega
  | ⟨1, _⟩ => show win5_1.index t (1 : Fin 2) * 40 + 1 * (y 1).val = (y 1).val; omega

/-- Window 2's block at every point is the whole of its [1, 40] array. -/
theorem whole5_2 (c : Dev nD) (t : Fin cfg5.N) : iblk5 V c 2 t = V c main_v104 := funext fun y => by
  obtain ⟨-, -, -, -, e4, e5, -, -⟩ := place5 t
  show V c main_v104 (((cfg5.win 2).blk t).view.emb y) = V c main_v104 y
  congr 1
  funext a
  apply Fin.ext
  match a with
  | ⟨0, _⟩ => show win5_2.index t (0 : Fin 2) * 1 + 1 * (y 0).val = (y 0).val; omega
  | ⟨1, _⟩ => show win5_2.index t (1 : Fin 2) * 40 + 1 * (y 1).val = (y 1).val; omega

/-- What point `t` writes back is block `t` of the step applied to the whole arrays. -/
theorem flushed5 (c : Dev nD) (t : Fin cfg5.N) :
    (dat5 V c).flushed 3 t = ((cfg5.win 3).blk t).view.read (Elt Ideal) (Cert.Gcn.head (K := 128) (V c main_v103) (V c main_arg15) (V c main_v104)) := by
  show (cfg5.win 3).cut (grid5.coords t) ((dat5 V c).after 3 t) = _
  rw [after5_3, Cert.Gcn.Blocks.head_block, whole5_1, whole5_2]
  obtain ⟨-, -, -, -, -, -, e6, e7⟩ := place5 t
  have ht : t.val < 50 := t.isLt
  funext y
  obtain ⟨p, q, rfl⟩ : ∃ (p : Fin 2000) (q : Fin 40), y = ix2 p q := ⟨_, _, eq_ix2 y⟩
  have hemb : ((cfg5.win 3).blk t).view.emb (ix2 p q) = ix2 (⟨2000 * t.val + p.val, by omega⟩ : Fin 100000) q := by
    funext a
    apply Fin.ext
    match a with
    | ⟨0, _⟩ => show win5_3.index t (0 : Fin 2) * 2000 + 1 * p.val = 2000 * t.val + p.val; omega
    | ⟨1, _⟩ => show win5_3.index t (1 : Fin 2) * 40 + 1 * q.val = q.val; omega
  show Cert.Gcn.head (K := 128) (iblk5 V c 0 t) (V c main_arg15) (V c main_v104) (ix2 p q)
    = Cert.Gcn.head (K := 128) (V c main_v103) (V c main_arg15) (V c main_v104) (((cfg5.win 3).blk t).view.emb (ix2 p q))
  rw [hemb]
  exact (Cert.Gcn.RowsAt.head (rows5 V c t) (V c main_arg15) (V c main_v104)).apply p _ q rfl

/-- An index of the output array lies in point `t`'s block iff each coordinate lies in the block's range. -/
theorem mem_block5 (t : Fin cfg5.N) (i : S100000x40.Idx) :
    i ∈ ((cfg5.win 3).blk t).view.set ↔ ∀ a : Fin 2, win5_3.index t a * S2000x40.size a ≤ (i a).val
      ∧ (i a).val < win5_3.index t a * S2000x40.size a + S2000x40.size a := by
  show i ∈ ((View.whole main_v105).slice (win5_3.rect t)).set ↔ _
  rw [View.set_slice_whole, Rect.mem_set_unit]
  exact Iff.rfl

/-- Every index of the output array is in the block of the point its row falls in. -/
theorem cover5 (i : S100000x40.Idx) : ∃ t : Fin cfg5.N, (cfg5.win 3).flush t = true ∧ i ∈ ((cfg5.win 3).blk t).view.set := by
  have hi0 : (i 0).val < 100000 := (i 0).isLt
  have hi1 : (i 1).val < 40 := (i 1).isLt
  have hlt : (i 0).val / 2000 < 50 := by omega
  refine ⟨⟨(i 0).val / 2000, hlt⟩, flush5_3 _, ?_⟩
  obtain ⟨-, -, -, -, -, -, e6, e7⟩ := place5 ⟨(i 0).val / 2000, hlt⟩
  rw [mem_block5]
  intro a
  match a with
  | ⟨0, _⟩ =>
    show win5_3.index ⟨(i 0).val / 2000, hlt⟩ (0 : Fin 2) * 2000 ≤ (i 0).val
      ∧ (i 0).val < win5_3.index ⟨(i 0).val / 2000, hlt⟩ (0 : Fin 2) * 2000 + 2000
    rw [e6]
    show (i 0).val / 2000 * 2000 ≤ (i 0).val ∧ (i 0).val < (i 0).val / 2000 * 2000 + 2000
    omega
  | ⟨1, _⟩ =>
    show win5_3.index ⟨(i 0).val / 2000, hlt⟩ (1 : Fin 2) * 40 ≤ (i 1).val
      ∧ (i 1).val < win5_3.index ⟨(i 0).val / 2000, hlt⟩ (1 : Fin 2) * 40 + 40
    rw [e7]
    omega

/-- The array the kernel leaves: the step applied to the whole arrays it found. -/
theorem head_array (c : Dev nD) : (dat5 V c).arrAt 3 cfg5.N = Cert.Gcn.head (K := 128) (V c main_v103) (V c main_arg15) (V c main_v104) :=
  (dat5 V c).arrAt_eq_of_cover 3 _ (fun t _ => flushed5 V c t) cover5

end Cert.Gcn.Arrays

end
-- ==== Proof.BridgeLayers.lean ====
/-
  Layer by layer: what each stretch of the kernel's program leaves is the reference's stage at the same point.

  The two programs are the same network. Going through the kernel's program stretch by stretch: a tiled kernel leaves
  the dense step of the whole arrays it found (the six array modules), and the reference's stage there is the same
  dense step of its previous stage (the reference-layer module); a host stretch applies to what it finds the very
  operations the reference applies to its stages — the slice of the stacked weights, the gather along the sources,
  the scaling by the edge normalisation, the scatter-add along the destinations, the parameter rows. So the equality
  of the two values passes from each point of the network to the next, up to the result.
-/
import proofs.«171350_j70119636075235_2_alg».proof.Proof.BridgeEntry
import proofs.«171350_j70119636075235_2_alg».proof.Proof.FirstLayerArray
import proofs.«171350_j70119636075235_2_alg».proof.Proof.ProductArray1
import proofs.«171350_j70119636075235_2_alg».proof.Proof.AfterSumArray2
import proofs.«171350_j70119636075235_2_alg».proof.Proof.ProductArray3
import proofs.«171350_j70119636075235_2_alg».proof.Proof.AfterSumArray4
import proofs.«171350_j70119636075235_2_alg».proof.Proof.HeadArray

set_option maxRecDepth 16384

noncomputable section

namespace Cert.Gcn.Bridge

open Idealize.ShloMosaic Idealize.ShloMosaic.ValueIdx Idealize.ShloMosaic.TcCoe Idealize.SL.Sem Idealize.ShloMosaic.StableHlo
open Cert.KernelIdeal Cert.KernelIdeal.Gen
open Cert.ReferenceIdeal.Read
open Cert.Gcn.Ref (row row40 neighbourSum)
open Cert.Gcn.Carried

section Stretches

variable (W : Valuation τ sig (Elt Ideal))

/-! ## The host stretches between the kernels, from any contents -/

theorem weights_v41 : after hostOps1 W (Proc.devRef .tc main_v41) = val_main_v55 (F := Ideal) (W (Proc.devRef .tc main_arg9)) := by
  simp only [hostOps1]; after_results; rfl

theorem weights_v73 : after hostOps3 W (Proc.devRef .tc main_v73) = val_main_v100 (F := Ideal) (W (Proc.devRef .tc main_arg9)) := by
  simp only [hostOps3]; after_results; rfl

theorem bias_v104 : after hostOps5 W (Proc.devRef .tc main_v104) = row40 (W (Proc.devRef .tc main_arg16)) := by
  simp only [hostOps5]; after_results; exact row_forms _ _ _

set_option maxHeartbeats 8000000 in
/-- The first neighbourhood sum: gather the rows of `t` along the sources, scale by the edge normalisation,
    scatter-add along the destinations — the reference's operations on the same four arrays. -/
theorem sum_v55 (x1 : (⟨Cert.ReferenceIdeal.S2x1600000, .i32⟩ : BufTy).Contents (Elt Ideal)) (x2 : (⟨Cert.ReferenceIdeal.S1600000, .f32⟩ : BufTy).Contents (Elt Ideal)) (t : (⟨Cert.ReferenceIdeal.S100000x128, .f32⟩ : BufTy).Contents (Elt Ideal))
    (ht : W (Proc.devRef .tc main_v42) = t) (h33 : W (Proc.devRef .tc main_v33) = val_main_v33 (F := Ideal) x1 x2)
    (h3 : W (Proc.devRef .tc main_v3) = val_main_v3 (F := Ideal) x1) (h6 : W (Proc.devRef .tc main_v6) = val_main_v6 (F := Ideal) x1) :
    after hostOps2 W (Proc.devRef .tc main_v55) = neighbourSum t x1 x2 := by
  simp only [hostOps2]
  after_results
  rw [ht, h33, h3, h6]
  rfl

set_option maxHeartbeats 8000000 in
/-- The second neighbourhood sum: the same operations. -/
theorem sum_v87 (x1 : (⟨Cert.ReferenceIdeal.S2x1600000, .i32⟩ : BufTy).Contents (Elt Ideal)) (x2 : (⟨Cert.ReferenceIdeal.S1600000, .f32⟩ : BufTy).Contents (Elt Ideal)) (t : (⟨Cert.ReferenceIdeal.S100000x128, .f32⟩ : BufTy).Contents (Elt Ideal))
    (ht : W (Proc.devRef .tc main_v74) = t) (h33 : W (Proc.devRef .tc main_v33) = val_main_v33 (F := Ideal) x1 x2)
    (h3 : W (Proc.devRef .tc main_v3) = val_main_v3 (F := Ideal) x1) (h6 : W (Proc.devRef .tc main_v6) = val_main_v6 (F := Ideal) x1) :
    after hostOps4 W (Proc.devRef .tc main_v87) = neighbourSum t x1 x2 := by
  simp only [hostOps4]
  after_results
  rw [ht, h33, h3, h6]
  rfl

set_option maxHeartbeats 4000000 in
theorem row_main_v66 : after hostOps2 W (Proc.devRef .tc main_v66) = row (val_main_v71 (F := Ideal) (W (Proc.devRef .tc main_arg10))) := by
  simp only [hostOps2]; after_results; exact row_forms _ _ _

set_option maxHeartbeats 4000000 in
theorem row_main_v67 : after hostOps2 W (Proc.devRef .tc main_v67) = row (val_main_v77 (F := Ideal) (W (Proc.devRef .tc main_arg11))) := by
  simp only [hostOps2]; after_results; exact row_forms _ _ _

set_option maxHeartbeats 4000000 in
theorem row_main_v68 : after hostOps2 W (Proc.devRef .tc main_v68) = row (val_main_v79 (F := Ideal) (W (Proc.devRef .tc main_arg12))) := by
  simp only [hostOps2]; after_results; exact row_forms _ _ _

set_option maxHeartbeats 4000000 in
theorem row_main_v69 : after hostOps2 W (Proc.devRef .tc main_v69) = row (val_main_v81 (F := Ideal) (W (Proc.devRef .tc main_arg13))) := by
  simp only [hostOps2]; after_results; exact row_forms _ _ _

set_option maxHeartbeats 4000000 in
theorem row_main_v70 : after hostOps2 W (Proc.devRef .tc main_v70) = row (val_main_v83 (F := Ideal) (W (Proc.devRef .tc main_arg14))) := by
  simp only [hostOps2]; after_results; exact row_forms _ _ _

set_option maxHeartbeats 4000000 in
theorem row_main_v98 : after hostOps4 W (Proc.devRef .tc main_v98) = row (val_main_v116 (F := Ideal) (W (Proc.devRef .tc main_arg10))) := by
  simp only [hostOps4]; after_results; exact row_forms _ _ _

set_option maxHeartbeats 4000000 in
theorem row_main_v99 : after hostOps4 W (Proc.devRef .tc main_v99) = row (val_main_v122 (F := Ideal) (W (Proc.devRef .tc main_arg11))) := by
  simp only [hostOps4]; after_results; exact row_forms _ _ _

set_option maxHeartbeats 4000000 in
theorem row_main_v100 : after hostOps4 W (Proc.devRef .tc main_v100) = row (val_main_v124 (F := Ideal) (W (Proc.devRef .tc main_arg12))) := by
  simp only [hostOps4]; after_results; exact row_forms _ _ _

set_option maxHeartbeats 4000000 in
theorem row_main_v101 : after hostOps4 W (Proc.devRef .tc main_v101) = row (val_main_v126 (F := Ideal) (W (Proc.devRef .tc main_arg13))) := by
  simp only [hostOps4]; after_results; exact row_forms _ _ _

set_option maxHeartbeats 4000000 in
theorem row_main_v102 : after hostOps4 W (Proc.devRef .tc main_v102) = row (val_main_v128 (F := Ideal) (W (Proc.devRef .tc main_arg14))) := by
  simp only [hostOps4]; after_results; exact row_forms _ _ _

end Stretches

variable (m : (ℓ : Loc nD τ sig) → Buf (Elt Ideal) ℓ) (ρ : Dev nD → PrngReg) (c : Dev nD)

/-! ## The chain -/

/-- After the first kernel: the first layer. -/
theorem at_v39 : W4 m ρ c (Proc.devRef .tc main_v39) = val_main_v53 (F := Ideal) (m ((c : Thread nD τ).loc main_arg0)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (W4_arr m ρ c 7).trans ((Cert.Gcn.Arrays.firstLayer_array (V3 m ρ) c).trans ?_)
  rw [Cert.Gcn.Ref.firstLayer_eq]
  show Cert.Gcn.firstLayer (K := 512) (W3 m ρ c (Proc.devRef .tc main_arg0)) (W3 m ρ c (Proc.devRef .tc main_arg3)) (W3 m ρ c (Proc.devRef .tc main_v34))
    (W3 m ρ c (Proc.devRef .tc main_v37)) (W3 m ρ c (Proc.devRef .tc main_v38)) (W3 m ρ c (Proc.devRef .tc main_v35)) (W3 m ρ c (Proc.devRef .tc main_v36)) = _
  rw [W3_main_arg0, W3_main_arg3, entry_row_main_v34, entry_row_main_v37, entry_row_main_v38, entry_row_main_v35, entry_row_main_v36]

/-- The first layer's weights, cut out of the stack. -/
theorem at_v41 : W5 m ρ c (Proc.devRef .tc main_v41) = val_main_v55 (F := Ideal) (m ((c : Thread nD τ).loc main_arg9)) :=
  (weights_v41 (W4 m ρ c)).trans (congrArg (val_main_v55 (F := Ideal)) (W4_main_arg9 m ρ c))

/-- After the second kernel: the first per-layer product. -/
theorem at_v42 : W6 m ρ c (Proc.devRef .tc main_v42) = val_main_v56 (F := Ideal) (m ((c : Thread nD τ).loc main_arg0)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  refine (W6_arr m ρ c 2).trans ((Cert.Gcn.Arrays.product_array1 (V5 m ρ) c).trans ?_)
  rw [Cert.Gcn.Ref.product0_eq]
  show Cert.MatProduct.prod (K := 128) (W5 m ρ c (Proc.devRef .tc main_v39)) (W5 m ρ c (Proc.devRef .tc main_v41)) = _
  rw [W5_main_v39, at_v39, at_v41]

/-- The first neighbourhood sum. -/
theorem at_v55 : W7 m ρ c (Proc.devRef .tc main_v55) = val_main_v69 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  rw [Cert.Gcn.Ref.sum0_eq]
  exact sum_v55 (W6 m ρ c) _ _ _ (at_v42 m ρ c) ((W6_main_v33 m ρ c).trans (entry_norm m ρ c))
    ((W6_main_v3 m ρ c).trans (entry_sources m ρ c)) ((W6_main_v6 m ρ c).trans (entry_destinations m ρ c))

theorem at_main_v66 : W7 m ρ c (Proc.devRef .tc main_v66) = row (val_main_v71 (F := Ideal) (m ((c : Thread nD τ).loc main_arg10))) :=
  (row_main_v66 (W6 m ρ c)).trans (congrArg (fun x => row (val_main_v71 (F := Ideal) x)) ((W6_main_arg10 m ρ c).trans (W3_main_arg10 m ρ c)))

theorem at_main_v67 : W7 m ρ c (Proc.devRef .tc main_v67) = row (val_main_v77 (F := Ideal) (m ((c : Thread nD τ).loc main_arg11))) :=
  (row_main_v67 (W6 m ρ c)).trans (congrArg (fun x => row (val_main_v77 (F := Ideal) x)) ((W6_main_arg11 m ρ c).trans (W3_main_arg11 m ρ c)))

theorem at_main_v68 : W7 m ρ c (Proc.devRef .tc main_v68) = row (val_main_v79 (F := Ideal) (m ((c : Thread nD τ).loc main_arg12))) :=
  (row_main_v68 (W6 m ρ c)).trans (congrArg (fun x => row (val_main_v79 (F := Ideal) x)) ((W6_main_arg12 m ρ c).trans (W3_main_arg12 m ρ c)))

theorem at_main_v69 : W7 m ρ c (Proc.devRef .tc main_v69) = row (val_main_v81 (F := Ideal) (m ((c : Thread nD τ).loc main_arg13))) :=
  (row_main_v69 (W6 m ρ c)).trans (congrArg (fun x => row (val_main_v81 (F := Ideal) x)) ((W6_main_arg13 m ρ c).trans (W3_main_arg13 m ρ c)))

theorem at_main_v70 : W7 m ρ c (Proc.devRef .tc main_v70) = row (val_main_v83 (F := Ideal) (m ((c : Thread nD τ).loc main_arg14))) :=
  (row_main_v70 (W6 m ρ c)).trans (congrArg (fun x => row (val_main_v83 (F := Ideal) x)) ((W6_main_arg14 m ρ c).trans (W3_main_arg14 m ρ c)))

/-- After the third kernel: bias, rectifier and normalisation of the first neighbourhood sum. -/
theorem at_v71 : W8 m ρ c (Proc.devRef .tc main_v71) = val_main_v98 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) := by
  refine (W8_arr m ρ c 6).trans ((Cert.Gcn.Arrays.afterSum_array2 (V7 m ρ) c).trans ?_)
  rw [Cert.Gcn.Ref.afterSum0_eq]
  show Cert.Gcn.afterSum (W7 m ρ c (Proc.devRef .tc main_v55)) (W7 m ρ c (Proc.devRef .tc main_v66)) (W7 m ρ c (Proc.devRef .tc main_v69))
    (W7 m ρ c (Proc.devRef .tc main_v70)) (W7 m ρ c (Proc.devRef .tc main_v67)) (W7 m ρ c (Proc.devRef .tc main_v68)) = _
  rw [at_v55, at_main_v66, at_main_v69, at_main_v70, at_main_v67, at_main_v68]

/-- The second layer's weights, cut out of the stack. -/
theorem at_v73 : W9 m ρ c (Proc.devRef .tc main_v73) = val_main_v100 (F := Ideal) (m ((c : Thread nD τ).loc main_arg9)) :=
  (weights_v73 (W8 m ρ c)).trans (congrArg (val_main_v100 (F := Ideal)) (W8_main_arg9 m ρ c))

/-- After the fourth kernel: the second per-layer product. -/
theorem at_v74 : W10 m ρ c (Proc.devRef .tc main_v74) = val_main_v101 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) := by
  refine (W10_arr m ρ c 2).trans ((Cert.Gcn.Arrays.product_array3 (V9 m ρ) c).trans ?_)
  rw [Cert.Gcn.Ref.product1_eq]
  show Cert.MatProduct.prod (K := 128) (W9 m ρ c (Proc.devRef .tc main_v71)) (W9 m ρ c (Proc.devRef .tc main_v73)) = _
  rw [W9_main_v71, at_v71, at_v73]

/-- The second neighbourhood sum. -/
theorem at_v87 : W11 m ρ c (Proc.devRef .tc main_v87) = val_main_v114 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) := by
  rw [Cert.Gcn.Ref.sum1_eq]
  exact sum_v87 (W10 m ρ c) _ _ _ (at_v74 m ρ c) ((W10_main_v33 m ρ c).trans (entry_norm m ρ c))
    ((W10_main_v3 m ρ c).trans (entry_sources m ρ c)) ((W10_main_v6 m ρ c).trans (entry_destinations m ρ c))

theorem at_main_v98 : W11 m ρ c (Proc.devRef .tc main_v98) = row (val_main_v116 (F := Ideal) (m ((c : Thread nD τ).loc main_arg10))) :=
  (row_main_v98 (W10 m ρ c)).trans (congrArg (fun x => row (val_main_v116 (F := Ideal) x)) ((W10_main_arg10 m ρ c).trans (W3_main_arg10 m ρ c)))

theorem at_main_v99 : W11 m ρ c (Proc.devRef .tc main_v99) = row (val_main_v122 (F := Ideal) (m ((c : Thread nD τ).loc main_arg11))) :=
  (row_main_v99 (W10 m ρ c)).trans (congrArg (fun x => row (val_main_v122 (F := Ideal) x)) ((W10_main_arg11 m ρ c).trans (W3_main_arg11 m ρ c)))

theorem at_main_v100 : W11 m ρ c (Proc.devRef .tc main_v100) = row (val_main_v124 (F := Ideal) (m ((c : Thread nD τ).loc main_arg12))) :=
  (row_main_v100 (W10 m ρ c)).trans (congrArg (fun x => row (val_main_v124 (F := Ideal) x)) ((W10_main_arg12 m ρ c).trans (W3_main_arg12 m ρ c)))

theorem at_main_v101 : W11 m ρ c (Proc.devRef .tc main_v101) = row (val_main_v126 (F := Ideal) (m ((c : Thread nD τ).loc main_arg13))) :=
  (row_main_v101 (W10 m ρ c)).trans (congrArg (fun x => row (val_main_v126 (F := Ideal) x)) ((W10_main_arg13 m ρ c).trans (W3_main_arg13 m ρ c)))

theorem at_main_v102 : W11 m ρ c (Proc.devRef .tc main_v102) = row (val_main_v128 (F := Ideal) (m ((c : Thread nD τ).loc main_arg14))) :=
  (row_main_v102 (W10 m ρ c)).trans (congrArg (fun x => row (val_main_v128 (F := Ideal) x)) ((W10_main_arg14 m ρ c).trans (W3_main_arg14 m ρ c)))

/-- After the fifth kernel: bias, rectifier and normalisation of the second neighbourhood sum. -/
theorem at_v103 : W12 m ρ c (Proc.devRef .tc main_v103) = val_main_v143 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) := by
  refine (W12_arr m ρ c 6).trans ((Cert.Gcn.Arrays.afterSum_array4 (V11 m ρ) c).trans ?_)
  rw [Cert.Gcn.Ref.afterSum1_eq]
  show Cert.Gcn.afterSum (W11 m ρ c (Proc.devRef .tc main_v87)) (W11 m ρ c (Proc.devRef .tc main_v98)) (W11 m ρ c (Proc.devRef .tc main_v101))
    (W11 m ρ c (Proc.devRef .tc main_v102)) (W11 m ρ c (Proc.devRef .tc main_v99)) (W11 m ρ c (Proc.devRef .tc main_v100)) = _
  rw [at_v87, at_main_v98, at_main_v101, at_main_v102, at_main_v99, at_main_v100]

/-- The head's bias as one row. -/
theorem at_v104 : W13 m ρ c (Proc.devRef .tc main_v104) = row40 (m ((c : Thread nD τ).loc main_arg16)) :=
  (bias_v104 (W12 m ρ c)).trans (congrArg row40 (W12_main_arg16 m ρ c))

/-- THE RESULT: what the last kernel leaves in the result buffer is the reference's last stage of the arguments. -/
theorem result_eq : W14 m ρ c (Proc.devRef .tc main_v105) = val_main_v148 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) := by
  refine (W14_arr m ρ c 3).trans ((Cert.Gcn.Arrays.head_array (V13 m ρ) c).trans ?_)
  rw [Cert.Gcn.Ref.head_eq]
  show Cert.Gcn.head (K := 128) (W13 m ρ c (Proc.devRef .tc main_v103)) (W13 m ρ c (Proc.devRef .tc main_arg15)) (W13 m ρ c (Proc.devRef .tc main_v104)) = _
  rw [W13_main_v103, at_v103, W13_main_arg15, at_v104]

end Cert.Gcn.Bridge

end
-- ==== Proof.lean ====
/- The proof of `Cert.Claim`: the kernel as printed, the kernel at the extended reals and the reference each run and
   leave their arguments unchanged, and at the extended reals the kernel and the reference end with the same result.
   The network is three graph-convolution layers: dense steps that act on each row of a `[100000, ·]` array by itself
   (a product with a weight matrix, a bias row, a floor at zero, a normalisation by running statistics, and at the end
   a row-wise log-softmax), with a neighbourhood sum (gather, scale by edge weight, scatter-add) between them. The
   kernel computes the dense steps block of rows by block of rows, the reference on whole arrays; since each dense
   step reads a row only through that row, both give the same array, and the neighbourhood sums are the same host
   operations on both sides. -/
import proofs.«171350_j70119636075235_2_alg».proof.Defs
import proofs.«171350_j70119636075235_2_alg».proof.Proof.Gen.Kernel
import proofs.«171350_j70119636075235_2_alg».proof.Proof.Gen.Kernel.Skeleton
import proofs.«171350_j70119636075235_2_alg».proof.Proof.Gen.Kernel.Launch
import proofs.«171350_j70119636075235_2_alg».proof.Proof.Gen.Kernel.Points
import proofs.«171350_j70119636075235_2_alg».proof.Proof.Gen.Kernel.Frame
import proofs.«171350_j70119636075235_2_alg».proof.Proof.Gen.KernelIdeal
import proofs.«171350_j70119636075235_2_alg».proof.Proof.Gen.KernelIdeal.Skeleton
import proofs.«171350_j70119636075235_2_alg».proof.Proof.Gen.KernelIdeal.Launch
import proofs.«171350_j70119636075235_2_alg».proof.Proof.Gen.KernelIdeal.Points
import proofs.«171350_j70119636075235_2_alg».proof.Proof.Gen.KernelIdeal.Frame
import proofs.«171350_j70119636075235_2_alg».proof.Proof.Gen.ReferenceIdeal
import proofs.«171350_j70119636075235_2_alg».proof.Proof.Gen.Pre_finite_inputs
import proofs.«171350_j70119636075235_2_alg».proof.Proof.ReferenceReadPatched
import proofs.«171350_j70119636075235_2_alg».proof.Proof.KernelRun
import proofs.«171350_j70119636075235_2_alg».proof.Proof.ReferenceRun
import proofs.«171350_j70119636075235_2_alg».proof.Proof.BridgeLayers
import Idealize.ShloMosaic.Adequacy
import Idealize.ShloMosaic.Init

noncomputable section

/-! ## The claims -/

namespace Cert.Proof

open Idealize.ShloMosaic Idealize.ShloMosaic.TcCoe Idealize.SL.Sem

/-- The kernel as printed runs and leaves its seventeen argument arrays as they were. -/
theorem frame_kernel : Cert.frame_Kernel := fun m ρ _ => Cert.Kernel.Gen.frame m ρ

/-- So does the kernel read at the extended reals. -/
theorem frame_kernelIdeal : Cert.frame_KernelIdeal := fun m ρ _ => Cert.KernelIdeal.Gen.frame m ρ

/-- So does the reference: its run, with what it says of the result left out. -/
theorem frame_reference : Cert.frame_ReferenceIdeal := fun m ρ _ =>
  (θ_run Cert.ReferenceIdeal.defs _ _).mono (fun _ h c => (h c).2) (Cert.Gcn.RefRun.run m ρ)

/-- No operation of the kernel was rewritten on the way to the extended reals. -/
theorem preserves : Cert.preserves_Kernel_KernelIdeal := trivial

/-- At the extended reals the kernel's result array ends at what its last tiled stretch leaves, the reference's at its
    last stage of the arguments, and for arguments that agree these are one array: every dense step of the network reads
    a row of its input only through that row, so computing it block of rows by block of rows gives the rows of the
    whole-array step, and the gather and scatter-add steps between the dense ones are the same host operations on both
    sides. -/
theorem algebraic : Cert.algebraic_KernelIdeal_ReferenceIdeal := by
  intro m ρ m' ρ' _ hagree
  refine ⟨(fun c => Cert.KernelIdeal.Gen.W14 m ρ c (Proc.devRef .tc Cert.KernelIdeal.main_v105) :
      (c : Dev Cert.KernelIdeal.nD) → Buf (Elt Ideal) ((c.tc : Thread Cert.KernelIdeal.nD Cert.KernelIdeal.τ).loc Cert.KernelIdeal.main_v105)),
    Cert.Gcn.Run.result_run (F := Ideal) m ρ, ?_⟩
  refine (θ_run Cert.ReferenceIdeal.defs _ _).mono (fun _ h c => ⟨(h c).1.trans ?_, (h c).2⟩) (Cert.Gcn.RefRun.run m' ρ')
  rw [(hagree c).1,
    (hagree c).2.1,
    (hagree c).2.2.1,
    (hagree c).2.2.2.1,
    (hagree c).2.2.2.2.1,
    (hagree c).2.2.2.2.2.1,
    (hagree c).2.2.2.2.2.2.1,
    (hagree c).2.2.2.2.2.2.2.1,
    (hagree c).2.2.2.2.2.2.2.2.1,
    (hagree c).2.2.2.2.2.2.2.2.2.1,
    (hagree c).2.2.2.2.2.2.2.2.2.2.1,
    (hagree c).2.2.2.2.2.2.2.2.2.2.2.1,
    (hagree c).2.2.2.2.2.2.2.2.2.2.2.2.1,
    (hagree c).2.2.2.2.2.2.2.2.2.2.2.2.2.1,
    (hagree c).2.2.2.2.2.2.2.2.2.2.2.2.2.2.1,
    (hagree c).2.2.2.2.2.2.2.2.2.2.2.2.2.2.2.1,
    (hagree c).2.2.2.2.2.2.2.2.2.2.2.2.2.2.2.2]
  exact (Cert.Gcn.Bridge.result_eq m ρ c).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
